-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x32 : Shape := ⟨2, ![512, 32]⟩
abbrev S1x32 : Shape := ⟨2, ![1, 32]⟩
abbrev S32x128 : Shape := ⟨2, ![32, 128]⟩
abbrev S1x128 : Shape := ⟨2, ![1, 128]⟩
abbrev S128x16 : Shape := ⟨2, ![128, 16]⟩
abbrev S1x16 : Shape := ⟨2, ![1, 16]⟩
abbrev S16x1 : Shape := ⟨2, ![16, 1]⟩
abbrev S1x1 : Shape := ⟨2, ![1, 1]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S1x32 : S_.BroadcastsInDim S1x32 (![] : Fin 0 → Fin S1x32.rank)
  reducesTo_S1x32_S_d0_1 : S1x32.ReducesTo [0, 1] S_
  bcast_S_S32x128 : S_.BroadcastsInDim S32x128 (![] : Fin 0 → Fin S32x128.rank)
  reducesTo_S32x128_S_d0_1 : S32x128.ReducesTo [0, 1] S_
  bcast_S_S1x128 : S_.BroadcastsInDim S1x128 (![] : Fin 0 → Fin S1x128.rank)
  reducesTo_S1x128_S_d0_1 : S1x128.ReducesTo [0, 1] S_
  bcast_S_S128x16 : S_.BroadcastsInDim S128x16 (![] : Fin 0 → Fin S128x16.rank)
  reducesTo_S128x16_S_d0_1 : S128x16.ReducesTo [0, 1] S_
  bcast_S_S1x16 : S_.BroadcastsInDim S1x16 (![] : Fin 0 → Fin S1x16.rank)
  reducesTo_S1x16_S_d0_1 : S1x16.ReducesTo [0, 1] S_
  bcast_S_S16x1 : S_.BroadcastsInDim S16x1 (![] : Fin 0 → Fin S16x1.rank)
  reducesTo_S16x1_S_d0_1 : S16x1.ReducesTo [0, 1] S_
  bcast_S_S1x1 : S_.BroadcastsInDim S1x1 (![] : Fin 0 → Fin S1x1.rank)
  reducesTo_S1x1_S_d0_1 : S1x1.ReducesTo [0, 1] S_

variable [Facts]

def fn_part2 {F : FTy → Type} [FloatOps F] (main_arg7 : FVec F S16x1 .f32) (main_arg8 : FVec F S1x1 .f32) (main_v33 : IVec S_ 1) : IVec S_ 1 :=
  let main_v34 : FVec F S16x1 .f32 := Host.absf main_arg7
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1x1 .f32 := Host.absf main_arg8
  let main_cst_14 : FVec F S_ .f32 := constant S_ .f32 0x7F800000#32
  let main_v40 : FVec F S1x1 .f32 := broadcastInDim S1x1 ![] bcast_S_S1x1 main_cst_14
  let main_v41 : IVec S1x1 1 := cmpf .olt main_v39 main_v40
  let main_c_15 : IVec S_ 1 := constantI S_ 1 1#1
  let main_v42 : IVec S_ 1 := (fun x v => Host.reduce IntOp.andi x v reducesTo_S1x1_S_d0_1 h_S_) main_v41 main_c_15
  let main_v43 : IVec S_ 1 := andi main_v38 main_v42
  main_v43

def fn_part1 {F : FTy → Type} [FloatOps F] (main_arg4 : FVec F S1x128 .f32) (main_arg5 : FVec F S128x16 .f32) (main_arg6 : FVec F S1x16 .f32) (main_arg7 : FVec F S16x1 .f32) (main_arg8 : FVec F S1x1 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128x16 .f32 := Host.absf main_arg5
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S1x16 .f32 := Host.absf main_arg6
  let main_cst_10 : FVec F S_ .f32 := constant S_ .f32 0x7F800000#32
  let main_v30 : FVec F S1x16 .f32 := broadcastInDim S1x16 ![] bcast_S_S1x16 main_cst_10
  let main_v31 : IVec S1x16 1 := cmpf .olt main_v29 main_v30
  let main_c_11 : IVec S_ 1 := constantI S_ 1 1#1
  let main_v32 : IVec S_ 1 := (fun x v => Host.reduce IntOp.andi x v reducesTo_S1x16_S_d0_1 h_S_) main_v31 main_c_11
  let main_v33 : IVec S_ 1 := andi main_v28 main_v32
  fn_part2 (F := F) main_arg7 main_arg8 main_v33

def fn {F : FTy → Type} [FloatOps F] (main_arg0 : FVec F S32768x512 .f32) (main_arg1 : FVec F S512x32 .f32) (main_arg2 : FVec F S1x32 .f32) (main_arg3 : FVec F S32x128 .f32) (main_arg4 : FVec F S1x128 .f32) (main_arg5 : FVec F S128x16 .f32) (main_arg6 : FVec F S1x16 .f32) (main_arg7 : FVec F S16x1 .f32) (main_arg8 : FVec F S1x1 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S32x128 .f32 := Host.absf main_arg3
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg4 main_arg5 main_arg6 main_arg7 main_arg8 main_v13 main_v16
-- ==== Kernel.lean ====
abbrev S32768x512 : Shape := ⟨2, ![32768, 512]⟩
abbrev S512x32 : Shape := ⟨2, ![512, 32]⟩
abbrev S1x32 : Shape := ⟨2, ![1, 32]⟩
abbrev S32x128 : Shape := ⟨2, ![32, 128]⟩
abbrev S1x128 : Shape := ⟨2, ![1, 128]⟩
abbrev S128x16 : Shape := ⟨2, ![128, 16]⟩
abbrev S1x16 : Shape := ⟨2, ![1, 16]⟩
abbrev S16x1 : Shape := ⟨2, ![16, 1]⟩
abbrev S1x1 : Shape := ⟨2, ![1, 1]⟩
abbrev S256x32 : Shape := ⟨2, ![256, 32]⟩
abbrev S32x256 : Shape := ⟨2, ![32, 256]⟩
abbrev S16x128 : Shape := ⟨2, ![16, 128]⟩
abbrev S1x32768 : Shape := ⟨2, ![1, 32768]⟩
abbrev S32768 : Shape := ⟨1, ![32768]⟩
abbrev S32768x1 : Shape := ⟨2, ![32768, 1]⟩
abbrev S8192x256 : Shape := ⟨2, ![8192, 256]⟩
abbrev S1x8192 : Shape := ⟨2, ![1, 8192]⟩
abbrev S8192x32 : Shape := ⟨2, ![8192, 32]⟩
abbrev S8192x128 : Shape := ⟨2, ![8192, 128]⟩
abbrev S8192x16 : Shape := ⟨2, ![8192, 16]⟩

abbrev nBuf : Space → Nat
  | .hbm => 20
  | .vmem => 15
  | .smem => 0
  | _ => 0

abbrev bufTy : (tb : Table) → Fin (tcTables nBuf tb) → BufTy
  | .hbm, ⟨0, _⟩ => ⟨S32768x512, .f32⟩
  | .hbm, ⟨1, _⟩ => ⟨S512x32, .f32⟩
  | .hbm, ⟨2, _⟩ => ⟨S1x32, .f32⟩
  | .hbm, ⟨3, _⟩ => ⟨S32x128, .f32⟩
  | .hbm, ⟨4, _⟩ => ⟨S1x128, .f32⟩
  | .hbm, ⟨5, _⟩ => ⟨S128x16, .f32⟩
  | .hbm, ⟨6, _⟩ => ⟨S1x16, .f32⟩
  | .hbm, ⟨7, _⟩ => ⟨S16x1, .f32⟩
  | .hbm, ⟨8, _⟩ => ⟨S1x1, .f32⟩
  | .hbm, ⟨9, _⟩ => ⟨S256x32, .f32⟩
  | .hbm, ⟨10, _⟩ => ⟨S32x256, .f32⟩
  | .hbm, ⟨11, _⟩ => ⟨S32x256, .bf16⟩
  | .hbm, ⟨12, _⟩ => ⟨S256x32, .f32⟩
  | .hbm, ⟨13, _⟩ => ⟨S32x256, .f32⟩
  | .hbm, ⟨14, _⟩ => ⟨S32x256, .bf16⟩
  | .hbm, ⟨15, _⟩ => ⟨S16x128, .f32⟩
  | .hbm, ⟨16, _⟩ => ⟨S1x16, .f32⟩
  | .hbm, ⟨17, _⟩ => ⟨S1x32768, .f32⟩
  | .hbm, ⟨18, _⟩ => ⟨S32768, .f32⟩
  | .hbm, ⟨19, _⟩ => ⟨S32768x1, .f32⟩
  | .local _ .vmem, ⟨0, _⟩ => ⟨S8192x256, .f32⟩
  | .local _ .vmem, ⟨1, _⟩ => ⟨S8192x256, .f32⟩
  | .local _ .vmem, ⟨2, _⟩ => ⟨S8192x256, .f32⟩
  | .local _ .vmem, ⟨3, _⟩ => ⟨S8192x256, .f32⟩
  | .local _ .vmem, ⟨4, _⟩ => ⟨S32x256, .bf16⟩
  | .local _ .vmem, ⟨5, _⟩ => ⟨S32x256, .bf16⟩
  | .local _ .vmem, ⟨6, _⟩ => ⟨S1x32, .f32⟩
  | .local _ .vmem, ⟨7, _⟩ => ⟨S32x128, .f32⟩
  | .local _ .vmem, ⟨8, _⟩ => ⟨S1x128, .f32⟩
  | .local _ .vmem, ⟨9, _⟩ => ⟨S16x128, .f32⟩
  | .local _ .vmem, ⟨10, _⟩ => ⟨S1x16, .f32⟩
  | .local _ .vmem, ⟨11, _⟩ => ⟨S1x16, .f32⟩
  | .local _ .vmem, ⟨12, _⟩ => ⟨S1x1, .f32⟩
  | .local _ .vmem, ⟨13, _⟩ => ⟨S1x8192, .f32⟩
  | .local _ .vmem, ⟨14, _⟩ => ⟨S1x8192, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S512x32_S256x32_0_0 : S512x32.Slices ![0, 0] S256x32
  transposes_S256x32_S32x256_1_0 : S256x32.Transposes [1, 0] S32x256
  bitsLt_bf16_f32 : FTy.bits .bf16 < FTy.bits .f32
  slices_S512x32_S256x32_256_0 : S512x32.Slices ![256, 0] S256x32
  transposes_S128x16_S16x128_1_0 : S128x16.Transposes [1, 0] S16x128
  transposes_S16x1_S1x16_1_0 : S16x1.Transposes [1, 0] S1x16
  shapeCasts_S1x32768_S32768 : S1x32768.ShapeCasts S32768
  shapeCasts_S32768_S32768x1 : S32768.ShapeCasts S32768x1
  inb_S8192x256_S8192x256_0_0 : ∀ a, (![0, 0] : Fin 2 → Nat) a + S8192x256.size a ≤ S8192x256.size a
  h_S8192x256 : 0 < S8192x256.numel
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S1x32_S1x32_0_0 : ∀ a, (![0, 0] : Fin 2 → Nat) a + S1x32.size a ≤ S1x32.size a
  h_S1x32 : 0 < S1x32.numel
  broadcasts_S1x32_S8192x32 : S1x32.Broadcasts S8192x32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  broadcasts_S1x128_S8192x128 : S1x128.Broadcasts S8192x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x16_S1x16_0_0 : ∀ a, (![0, 0] : Fin 2 → Nat) a + S1x16.size a ≤ S1x16.size a
  h_S1x16 : 0 < S1x16.numel
  broadcasts_S1x16_S8192x16 : S1x16.Broadcasts S8192x16
  shapeCasts_S1x16_S1x16 : S1x16.ShapeCasts S1x16
  inb_S1x1_S1x1_0_0 : ∀ a, (![0, 0] : Fin 2 → Nat) a + S1x1.size a ≤ S1x1.size a
  h_S1x1 : 0 < S1x1.numel
  broadcasts_S1x1_S1x8192 : S1x1.Broadcasts S1x8192
  inb_S1x8192_S1x8192_0_0 : ∀ a, (![0, 0] : Fin 2 → Nat) a + S1x8192.size a ≤ S1x8192.size a
  h_S1x8192 : 0 < S1x8192.numel
  dot_S8192x256_S32x256_S8192x32_1_1_0_0_n_n_wf : DotDims.WF S8192x256 S32x256 S8192x32 [1] [1] [0] [0] [] []
  dot_S8192x32_S32x128_S8192x128_1_0_0_1_n_n_wf : DotDims.WF S8192x32 S32x128 S8192x128 [1] [0] [0] [1] [] []
  dot_S8192x128_S16x128_S8192x16_1_1_0_0_n_n_wf : DotDims.WF S8192x128 S16x128 S8192x16 [1] [1] [0] [0] [] []
  dot_S1x16_S8192x16_S1x8192_1_1_0_0_n_n_wf : DotDims.WF S1x16 S8192x16 S1x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S32768x512.size a
  hwx0_0 : ∀ i : grid0.Coords, EltTy.bits .f32 = 32 ∨ (Rect.block (s := S32768x512) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S32768x512.size a
  hwx0_1 : ∀ i : grid0.Coords, EltTy.bits .f32 = 32 ∨ (Rect.block (s := S32768x512) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x256.size a
  hwx0_2 : ∀ i : grid0.Coords, EltTy.bits .bf16 = 32 ∨ (Rect.block (s := S32x256) S32x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x256.size a
  hwx0_3 : ∀ i : grid0.Coords, EltTy.bits .bf16 = 32 ∨ (Rect.block (s := S32x256) S32x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x128.size a ≤ S16x128.size a
  hwx0_7 : ∀ i : grid0.Coords, EltTy.bits .f32 = 32 ∨ (Rect.block (s := S16x128) S16x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x16.size a ≤ S1x16.size a
  hwx0_9 : ∀ i : grid0.Coords, EltTy.bits .f32 = 32 ∨ (Rect.block (s := S1x16) S1x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x8192.size a ≤ S1x32768.size a
  hwx0_11 : ∀ i : grid0.Coords, EltTy.bits .f32 = 32 ∨ (Rect.block (s := S1x32768) S1x8192.size (cc0_transform_11 i) (hinb0_11 i)).WholeWords (EltTy.packing .f32)

variable [Facts₀]

def dot_S8192x256_S32x256_S8192x32_1_1_0_0_n_n : DotDims S8192x256 S32x256 S8192x32 where
  lhsContracting := [1]
  rhsContracting := [1]
  lhsNonContracting := [0]
  rhsNonContracting := [0]
  lhsBatch := []
  rhsBatch := []
  wf := dot_S8192x256_S32x256_S8192x32_1_1_0_0_n_n_wf
def dot_S8192x32_S32x128_S8192x128_1_0_0_1_n_n : DotDims S8192x32 S32x128 S8192x128 where
  lhsContracting := [1]
  rhsContracting := [0]
  lhsNonContracting := [0]
  rhsNonContracting := [1]
  lhsBatch := []
  rhsBatch := []
  wf := dot_S8192x32_S32x128_S8192x128_1_0_0_1_n_n_wf
def dot_S8192x128_S16x128_S8192x16_1_1_0_0_n_n : DotDims S8192x128 S16x128 S8192x16 where
  lhsContracting := [1]
  rhsContracting := [1]
  lhsNonContracting := [0]
  rhsNonContracting := [0]
  lhsBatch := []
  rhsBatch := []
  wf := dot_S8192x128_S16x128_S8192x16_1_1_0_0_n_n_wf
def dot_S1x16_S8192x16_S1x8192_1_1_0_0_n_n : DotDims S1x16 S8192x16 S1x8192 where
  lhsContracting := [1]
  rhsContracting := [1]
  lhsNonContracting := [0]
  rhsNonContracting := [0]
  lhsBatch := []
  rhsBatch := []
  wf := dot_S1x16_S8192x16_S1x8192_1_1_0_0_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S32x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S32x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v6) S16x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v7) S1x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v8) S1x8192.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x32 : Shape := ⟨2, ![512, 32]⟩
abbrev S1x32 : Shape := ⟨2, ![1, 32]⟩
abbrev S32x128 : Shape := ⟨2, ![32, 128]⟩
abbrev S1x128 : Shape := ⟨2, ![1, 128]⟩
abbrev S128x16 : Shape := ⟨2, ![128, 16]⟩
abbrev S1x16 : Shape := ⟨2, ![1, 16]⟩
abbrev S16x1 : Shape := ⟨2, ![16, 1]⟩
abbrev S1x1 : Shape := ⟨2, ![1, 1]⟩
abbrev S0 : Shape := ⟨1, ![0]⟩
abbrev S_ : Shape := ⟨0, ![]⟩
abbrev S512x32768 : Shape := ⟨2, ![512, 32768]⟩
abbrev S32x512 : Shape := ⟨2, ![32, 512]⟩
abbrev S128x32 : Shape := ⟨2, ![128, 32]⟩
abbrev S16x128 : Shape := ⟨2, ![16, 128]⟩
abbrev S32x1 : Shape := ⟨2, ![32, 1]⟩
abbrev S128x1 : Shape := ⟨2, ![128, 1]⟩
abbrev S1x32768 : Shape := ⟨2, ![1, 32768]⟩
abbrev S32768 : Shape := ⟨1, ![32768]⟩
abbrev S32768x1 : Shape := ⟨2, ![32768, 1]⟩
abbrev S512x128 : Shape := ⟨2, ![512, 128]⟩
abbrev S128x128 : Shape := ⟨2, ![128, 128]⟩
abbrev S128 : Shape := ⟨1, ![128]⟩

abbrev nBuf : Space → Nat
  | .hbm => 24
  | .vmem => 12
  | .smem => 0
  | _ => 0

abbrev bufTy : (tb : Table) → Fin (tcTables nBuf tb) → BufTy
  | .hbm, ⟨0, _⟩ => ⟨S32768x512, .f32⟩
  | .hbm, ⟨1, _⟩ => ⟨S512x32, .f32⟩
  | .hbm, ⟨2, _⟩ => ⟨S1x32, .f32⟩
  | .hbm, ⟨3, _⟩ => ⟨S32x128, .f32⟩
  | .hbm, ⟨4, _⟩ => ⟨S1x128, .f32⟩
  | .hbm, ⟨5, _⟩ => ⟨S128x16, .f32⟩
  | .hbm, ⟨6, _⟩ => ⟨S1x16, .f32⟩
  | .hbm, ⟨7, _⟩ => ⟨S16x1, .f32⟩
  | .hbm, ⟨8, _⟩ => ⟨S1x1, .f32⟩
  | .hbm, ⟨9, _⟩ => ⟨S0, .i32⟩
  | .hbm, ⟨10, _⟩ => ⟨S_, .f32⟩
  | .hbm, ⟨11, _⟩ => ⟨S512x32768, .f32⟩
  | .hbm, ⟨12, _⟩ => ⟨S512x32768, .f32⟩
  | .hbm, ⟨13, _⟩ => ⟨S512x32768, .f32⟩
  | .hbm, ⟨14, _⟩ => ⟨S32x512, .f32⟩
  | .hbm, ⟨15, _⟩ => ⟨S128x32, .f32⟩
  | .hbm, ⟨16, _⟩ => ⟨S16x128, .f32⟩
  | .hbm, ⟨17, _⟩ => ⟨S32x1, .f32⟩
  | .hbm, ⟨18, _⟩ => ⟨S128x1, .f32⟩
  | .hbm, ⟨19, _⟩ => ⟨S16x1, .f32⟩
  | .hbm, ⟨20, _⟩ => ⟨S1x1, .f32⟩
  | .hbm, ⟨21, _⟩ => ⟨S1x32768, .f32⟩
  | .hbm, ⟨22, _⟩ => ⟨S32768, .f32⟩
  | .hbm, ⟨23, _⟩ => ⟨S32768x1, .f32⟩
  | .local _ .vmem, ⟨0, _⟩ => ⟨S512x128, .f32⟩
  | .local _ .vmem, ⟨1, _⟩ => ⟨S512x128, .f32⟩
  | .local _ .vmem, ⟨2, _⟩ => ⟨S32x512, .f32⟩
  | .local _ .vmem, ⟨3, _⟩ => ⟨S32x1, .f32⟩
  | .local _ .vmem, ⟨4, _⟩ => ⟨S128x32, .f32⟩
  | .local _ .vmem, ⟨5, _⟩ => ⟨S128x1, .f32⟩
  | .local _ .vmem, ⟨6, _⟩ => ⟨S16x128, .f32⟩
  | .local _ .vmem, ⟨7, _⟩ => ⟨S16x1, .f32⟩
  | .local _ .vmem, ⟨8, _⟩ => ⟨S16x1, .f32⟩
  | .local _ .vmem, ⟨9, _⟩ => ⟨S1x1, .f32⟩
  | .local _ .vmem, ⟨10, _⟩ => ⟨S1x128, .f32⟩
  | .local _ .vmem, ⟨11, _⟩ => ⟨S1x128, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v0 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  hz_S0 : S0.numel = 0
  bcast_S_S512x32768 : S_.BroadcastsInDim S512x32768 (![] : Fin 0 → Fin S512x32768.rank)
  transposes_S32768x512_S512x32768_1_0 : S32768x512.Transposes [1, 0] S512x32768
  transposes_S512x32_S32x512_1_0 : S512x32.Transposes [1, 0] S32x512
  transposes_S32x128_S128x32_1_0 : S32x128.Transposes [1, 0] S128x32
  transposes_S128x16_S16x128_1_0 : S128x16.Transposes [1, 0] S16x128
  transposes_S1x32_S32x1_1_0 : S1x32.Transposes [1, 0] S32x1
  transposes_S1x128_S128x1_1_0 : S1x128.Transposes [1, 0] S128x1
  transposes_S1x16_S16x1_1_0 : S1x16.Transposes [1, 0] S16x1
  transposes_S1x1_S1x1_1_0 : S1x1.Transposes [1, 0] S1x1
  shapeCasts_S1x32768_S32768 : S1x32768.ShapeCasts S32768
  shapeCasts_S32768_S32768x1 : S32768.ShapeCasts S32768x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x128 : S32x1.Broadcasts S32x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x128 : S128x1.Broadcasts S128x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x128 : S16x1.Broadcasts S16x128
  reduces_S16x128_S128 : S16x128.Reduces [0] S128
  shapeCasts_S128_S1x128 : S128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x128 : S1x1.Broadcasts S1x128
  inb_S1x128_S1x128_0_0 : ∀ a, (![0, 0] : Fin 2 → Nat) a + S1x128.size a ≤ S1x128.size a
  h_S1x128 : 0 < S1x128.numel
  scatter_S512x32768_S0_S512x32768_01_n_n_0_wf : ScatterDims.WF S512x32768 S0 S512x32768 [0, 1] [] [] 0
  dot_S32x512_S512x128_S32x128_1_0_0_1_n_n_wf : DotDims.WF S32x512 S512x128 S32x128 [1] [0] [0] [1] [] []
  dot_S128x32_S32x128_S128x128_1_0_0_1_n_n_wf : DotDims.WF S128x32 S32x128 S128x128 [1] [0] [0] [1] [] []
  dot_S16x128_S128x128_S16x128_1_0_0_1_n_n_wf : DotDims.WF S16x128 S128x128 S16x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x32768.size a
  hwx0_0 : ∀ i : grid0.Coords, EltTy.bits .f32 = 32 ∨ (Rect.block (s := S512x32768) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S16x128.size a
  hwx0_5 : ∀ i : grid0.Coords, EltTy.bits .f32 = 32 ∨ (Rect.block (s := S16x128) S16x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x1.size a ≤ S16x1.size a
  hwx0_7 : ∀ i : grid0.Coords, EltTy.bits .f32 = 32 ∨ (Rect.block (s := S16x1) S16x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x32768.size a
  hwx0_9 : ∀ i : grid0.Coords, EltTy.bits .f32 = 32 ∨ (Rect.block (s := S1x32768) S1x128.size (cc0_transform_9 i) (hinb0_9 i)).WholeWords (EltTy.packing .f32)

variable [Facts₀]

def scatter_S512x32768_S0_S512x32768_01_n_n_0 : ScatterDims S512x32768 S0 S512x32768 where
  updateWindowDims := [0, 1]
  insertedWindowDims := []
  scatterDimsToOperandDims := []
  indexVectorDim := 0
  wf := scatter_S512x32768_S0_S512x32768_01_n_n_0_wf
def dot_S32x512_S512x128_S32x128_1_0_0_1_n_n : DotDims S32x512 S512x128 S32x128 where
  lhsContracting := [1]
  rhsContracting := [0]
  lhsNonContracting := [0]
  rhsNonContracting := [1]
  lhsBatch := []
  rhsBatch := []
  wf := dot_S32x512_S512x128_S32x128_1_0_0_1_n_n_wf
def dot_S128x32_S32x128_S128x128_1_0_0_1_n_n : DotDims S128x32 S32x128 S128x128 where
  lhsContracting := [1]
  rhsContracting := [0]
  lhsNonContracting := [0]
  rhsNonContracting := [1]
  lhsBatch := []
  rhsBatch := []
  wf := dot_S128x32_S32x128_S128x128_1_0_0_1_n_n_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf

abbrev win0_0 : Pipeline.Window sig grid0 :=
  Pipeline.Window.ofSpec (Memref.whole main_call0_v2) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v6) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v7) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S16x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v8) S16x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v9) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v10) S1x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== Proof.KernelBody.lean ====
/-
  The body of the fused perceptron kernel on its staging buffers, at any float instance: it loads the two
  column halves of a block of 8192 rows of `x`, the (transposed) weights and the biases, and stores ONE value
  — the 8192 outputs of the block, as a row — into the output's staging buffer, touching nothing else.  What
  the output's buffer holds afterwards is therefore the single store's value as a function of the eleven loaded
  blocks (`out11`).  The array `x` is read through two windows (its left and its right 256 columns); each
  window holds the array at one half of the full share, which is all a read needs.
-/
import proofs.«147910_g2000103882058017_pallasbulk_729_30_alg».proof.Proof.Gen.Kernel.Launch
import proofs.«147910_g2000103882058017_pallasbulk_729_30_alg».proof.Proof.Gen.Kernel.Skeleton
import proofs.«147910_g2000103882058017_pallasbulk_729_30_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, as a valuation; -/
abbrev V₀ (c : Dev nD) : Valuation τ sig (Elt F) := fun b => m ((c : Dev nD), b)
/-- and when the region is entered: the eight host operations before it have run. -/
abbrev V0 (c : Dev nD) : Valuation τ sig (Elt F) := StableHlo.after hostOps0 (V₀ m c)
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not. -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not. -/
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S8192x256 := Rect.unit (s := S8192x256) ![0, 0] S8192x256.size inb_S8192x256_S8192x256_0_0
abbrev rW1 : Rect S32x256 := Rect.unit (s := S32x256) ![0, 0] S32x256.size inb_S32x256_S32x256_0_0
abbrev rB1 : Rect S1x32 := Rect.unit (s := S1x32) ![0, 0] S1x32.size inb_S1x32_S1x32_0_0
abbrev rW2 : Rect S32x128 := Rect.unit (s := S32x128) ![0, 0] S32x128.size inb_S32x128_S32x128_0_0
abbrev rB2 : Rect S1x128 := Rect.unit (s := S1x128) ![0, 0] S1x128.size inb_S1x128_S1x128_0_0
abbrev rW3 : Rect S16x128 := Rect.unit (s := S16x128) ![0, 0] S16x128.size inb_S16x128_S16x128_0_0
abbrev rB3 : Rect S1x16 := Rect.unit (s := S1x16) ![0, 0] S1x16.size inb_S1x16_S1x16_0_0
abbrev rB4 : Rect S1x1 := Rect.unit (s := S1x1) ![0, 0] S1x1.size inb_S1x1_S1x1_0_0
abbrev rO : Rect S1x8192 := Rect.unit (s := S1x8192) ![0, 0] S1x8192.size inb_S1x8192_S1x8192_0_0

/-- The output's staging buffer after the body, from the eleven input blocks: its one store, over the whole buffer. -/
def out11 (x0 : Vec F S8192x256 .f32) (x1 : Vec F S8192x256 .f32) (x2 : Vec F S32x256 .bf16) (x3 : Vec F S32x256 .bf16) (x4 : Vec F S1x32 .f32) (x5 : Vec F S32x128 .f32) (x6 : Vec F S1x128 .f32) (x7 : Vec F S16x128 .f32) (x8 : Vec F S1x16 .f32) (x9 : Vec F S1x16 .f32) (x10 : Vec F S1x1 .f32) : Vec F S1x8192 .f32 :=
  View.canon [⟨rO, k0_pay1 (k0_pay2 (View.ld x0 rX) (View.ld x2 rW1) (View.ld x1 rX) (View.ld x3 rW1) (View.ld x4 rB1) (View.ld x5 rW2) (View.ld x6 rB2) (View.ld x7 rW3) (View.ld x8 rB3)) (View.ld x9 rB3) (View.ld x10 rB4)⟩]

/-- The one store covers the buffer. -/
theorem cover11 (p0 : Vec F S1x8192 .f32) (y : S1x8192.Idx) :
    ∃ pc ∈ ([⟨rO, p0⟩] : List (View.Piece (Elt F) S1x8192 .f32)), y ∈ pc.1.set :=
  View.cover_of_tiled [⟨rO, p0⟩] S1x8192.size (by rfl) y

/-! ## The body's triple -/

set_option maxHeartbeats 1000000 in
/-- The body on whole staging memrefs, the inputs' at contents `xW` and the output's at anything, runs to the
    continuation holding the inputs' as they were and the output's at `out11` of the inputs'. -/
theorem sound_kernel (c : Dev nD) (E : Set ℕ) (i : grid0.Coords) (arg1 : Memref sig .tc .vmem S8192x256 .f32) (harg1 : arg1.IsWhole) (arg2 : Memref sig .tc .vmem S8192x256 .f32) (harg2 : arg2.IsWhole) (arg3 : Memref sig .tc .vmem S32x256 .bf16) (harg3 : arg3.IsWhole) (arg4 : Memref sig .tc .vmem S32x256 .bf16) (harg4 : arg4.IsWhole) (arg5 : Memref sig .tc .vmem S1x32 .f32) (harg5 : arg5.IsWhole) (arg6 : Memref sig .tc .vmem S32x128 .f32) (harg6 : arg6.IsWhole) (arg7 : Memref sig .tc .vmem S1x128 .f32) (harg7 : arg7.IsWhole) (arg8 : Memref sig .tc .vmem S16x128 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x1 .f32) (harg11 : arg11.IsWhole) (arg12 : Memref sig .tc .vmem S1x8192 .f32) (harg12 : arg12.IsWhole)
    (x0 : Vec F S8192x256 .f32) (x1 : Vec F S8192x256 .f32) (x2 : Vec F S32x256 .bf16) (x3 : Vec F S32x256 .bf16) (x4 : Vec F S1x32 .f32) (x5 : Vec F S32x128 .f32) (x6 : Vec F S1x128 .f32) (x7 : Vec F S16x128 .f32) (x8 : Vec F S1x16 .f32) (x9 : Vec F S1x16 .f32) (x10 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out11 x0 x1 x2 x3 x4 x5 x6 x7 x8 x9 x10)) -∗ K ⟨⟩))
      ⊢ wp frame (wpE (defs₀ (F := F)) Variants.none c none) E (cc0__mlp_fused_kernel i arg1 harg1 arg2 harg2 arg3 harg3 arg4 harg4 arg5 harg5 arg6 harg6 arg7 harg7 arg8 harg8 arg9 harg9 arg10 harg10 arg11 harg11 arg12 harg12) K := by
  simp only [cc0__mlp_fused_kernel_eq_skeleton]; unfold cc0__mlp_fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover11 _)

/-! ## The pipeline's proof data -/

/-- The proof data of the pipeline on core `c`: the arrays as the region finds them; after the body at point `t`
    each input's buffer at its block and the output's at `out11` of the input blocks; the invariant is the scoped
    rest and the generator register, untouched; nothing owed.  The two windows on `x` hold it at the two halves
    of the full share; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = out11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelShare.lean ====
/-
  The buffers behind the pipeline's arrays against the pipeline's own account of them.  Twelve windows name
  eleven distinct buffers: windows 0 and 1 both read the array `x`.  Holding each of the eleven buffers whole at
  the full share is the same as holding every window's array at its share when the two windows on `x` take the
  two halves of the full share (a share splits into its halves and the halves join back, the contents being the
  same) and every other window takes the full share.  Stated for any proof data of this pipeline with those
  shares and any contents read off one valuation, in both directions: the first is what the region's entry
  needs, the second its exit.
-/
import proofs.«147910_g2000103882058017_pallasbulk_729_30_alg».proof.Proof.Gen.Kernel.Launch
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open PCS
open Idealize.ShloMosaic.Pipeline (Dat)

variable {F : FTy → Type} [FloatOps F]

local notation "𝕄" => MT nD τ sig Unit (Elt F) ℕ (UR sig nD τ) ℕ

/-- The full share is the join of its two halves. -/
theorem full_halves : fullShare ∈ (fullShare.left ·? fullShare.right) := by
  rw [PosShare.left_op_right]; exact Part.mem_some _

/-- A proposition that is two others joined, in front of a rest: the rest rides along either way. -/
theorem split_front (P Pl Pr Rst : sProp 𝕄) (h : P ⊣⊢ iprop(Pl ∗ Pr)) : iprop(P ∗ Rst) ⊣⊢ iprop(Pl ∗ Pr ∗ Rst) :=
  ⟨(sep_mono h.1 .rfl).trans Laws.sep_assoc.1, Laws.sep_assoc.2.trans (sep_mono h.2 .rfl)⟩

/-- One window's array, whole, at the window's share. -/
theorem arr_pt {c : Dev nD} (dat : Dat τ (Elt F) Unit ℕ (UR sig nD τ) ℕ cfg0 c) (w : Fin cfg0.W) (q : PosShare TreeShare)
    (hq : dat.share w = q) (V : (b : Ref sig .tc) → Buf (Elt F) ((c.tc : Thread nD τ).loc b))
    (f : Buf (Elt F) ((cfg0.win w).arr.view.loc (c.tc : Thread nD τ))) (hf : f = V (Pipeline.arrRef spec0 w)) :
    (((cfg0.win w).arr.view.loc (c.tc : Thread nD τ)) ↦[(cfg0.win w).arr.view.set]{dat.share w} f : sProp 𝕄)
      = (((c.tc : Thread nD τ).loc (Pipeline.arrRef spec0 w)) ↦{q} V (Pipeline.arrRef spec0 w)) := by
  rw [(arr_whole0 w).set_eq_univ, hq, hf]

/-- The eleven buffers behind the twelve windows' arrays, in the windows' order, each whole at a valuation's contents. -/
theorem arrBufs0_eq (c : Dev nD) (V : (b : Ref sig .tc) → Buf (Elt F) ((c.tc : Thread nD τ).loc b)) :
    (Pipeline.arrBufs (Ix := Unit) (Name := ℕ) (U := UR sig nD τ) (Lvl := ℕ) spec0 c V : sProp 𝕄)
      = iprop((((c.tc : Thread nD τ).loc (Pipeline.arrRef spec0 0)) ↦{fullShare} V (Pipeline.arrRef spec0 0)) ∗ (((c.tc : Thread nD τ).loc (Pipeline.arrRef spec0 2)) ↦{fullShare} V (Pipeline.arrRef spec0 2)) ∗ (((c.tc : Thread nD τ).loc (Pipeline.arrRef spec0 3)) ↦{fullShare} V (Pipeline.arrRef spec0 3)) ∗ (((c.tc : Thread nD τ).loc (Pipeline.arrRef spec0 4)) ↦{fullShare} V (Pipeline.arrRef spec0 4)) ∗ (((c.tc : Thread nD τ).loc (Pipeline.arrRef spec0 5)) ↦{fullShare} V (Pipeline.arrRef spec0 5)) ∗ (((c.tc : Thread nD τ).loc (Pipeline.arrRef spec0 6)) ↦{fullShare} V (Pipeline.arrRef spec0 6)) ∗ (((c.tc : Thread nD τ).loc (Pipeline.arrRef spec0 7)) ↦{fullShare} V (Pipeline.arrRef spec0 7)) ∗ (((c.tc : Thread nD τ).loc (Pipeline.arrRef spec0 8)) ↦{fullShare} V (Pipeline.arrRef spec0 8)) ∗ (((c.tc : Thread nD τ).loc (Pipeline.arrRef spec0 9)) ↦{fullShare} V (Pipeline.arrRef spec0 9)) ∗ (((c.tc : Thread nD τ).loc (Pipeline.arrRef spec0 10)) ↦{fullShare} V (Pipeline.arrRef spec0 10)) ∗ (((c.tc : Thread nD τ).loc (Pipeline.arrRef spec0 11)) ↦{fullShare} V (Pipeline.arrRef spec0 11))) := by
  unfold Pipeline.arrBufs
  exact bigSep_eq_bigSepL_of_eq [Pipeline.arrRef spec0 0, Pipeline.arrRef spec0 2, Pipeline.arrRef spec0 3, Pipeline.arrRef spec0 4, Pipeline.arrRef spec0 5, Pipeline.arrRef spec0 6, Pipeline.arrRef spec0 7, Pipeline.arrRef spec0 8, Pipeline.arrRef spec0 9, Pipeline.arrRef spec0 10, Pipeline.arrRef spec0 11] (by decide) (by decide) _

/-- The pipeline's arrays, window by window. -/
theorem arrays0_eq {c : Dev nD} (dat : Dat τ (Elt F) Unit ℕ (UR sig nD τ) ℕ cfg0 c)
    (Fa : (w : Fin cfg0.W) → Buf (Elt F) ((cfg0.win w).arr.view.loc (c.tc : Thread nD τ))) :
    (dat.arrays Fa : sProp 𝕄) = iprop((((cfg0.win 0).arr.view.loc (c.tc : Thread nD τ)) ↦[(cfg0.win 0).arr.view.set]{dat.share 0} Fa 0) ∗ (((cfg0.win 1).arr.view.loc (c.tc : Thread nD τ)) ↦[(cfg0.win 1).arr.view.set]{dat.share 1} Fa 1) ∗ (((cfg0.win 2).arr.view.loc (c.tc : Thread nD τ)) ↦[(cfg0.win 2).arr.view.set]{dat.share 2} Fa 2) ∗ (((cfg0.win 3).arr.view.loc (c.tc : Thread nD τ)) ↦[(cfg0.win 3).arr.view.set]{dat.share 3} Fa 3) ∗ (((cfg0.win 4).arr.view.loc (c.tc : Thread nD τ)) ↦[(cfg0.win 4).arr.view.set]{dat.share 4} Fa 4) ∗ (((cfg0.win 5).arr.view.loc (c.tc : Thread nD τ)) ↦[(cfg0.win 5).arr.view.set]{dat.share 5} Fa 5) ∗ (((cfg0.win 6).arr.view.loc (c.tc : Thread nD τ)) ↦[(cfg0.win 6).arr.view.set]{dat.share 6} Fa 6) ∗ (((cfg0.win 7).arr.view.loc (c.tc : Thread nD τ)) ↦[(cfg0.win 7).arr.view.set]{dat.share 7} Fa 7) ∗ (((cfg0.win 8).arr.view.loc (c.tc : Thread nD τ)) ↦[(cfg0.win 8).arr.view.set]{dat.share 8} Fa 8) ∗ (((cfg0.win 9).arr.view.loc (c.tc : Thread nD τ)) ↦[(cfg0.win 9).arr.view.set]{dat.share 9} Fa 9) ∗ (((cfg0.win 10).arr.view.loc (c.tc : Thread nD τ)) ↦[(cfg0.win 10).arr.view.set]{dat.share 10} Fa 10) ∗ (((cfg0.win 11).arr.view.loc (c.tc : Thread nD τ)) ↦[(cfg0.win 11).arr.view.set]{dat.share 11} Fa 11)) := by
  unfold Dat.arrays; exact bigSep_W0 _

/-- The buffers behind the arrays, each whole at the full share at a valuation's contents, are the pipeline's
    arrays at those contents — windows 0 and 1 at the two halves of the full share, every other window at the full
    share. -/
theorem arrBufs_arrays {c : Dev nD} (dat : Dat τ (Elt F) Unit ℕ (UR sig nD τ) ℕ cfg0 c)
    (h0 : dat.share 0 = fullShare.left) (h1 : dat.share 1 = fullShare.right)
    (h2 : dat.share 2 = fullShare)
    (h3 : dat.share 3 = fullShare)
    (h4 : dat.share 4 = fullShare)
    (h5 : dat.share 5 = fullShare)
    (h6 : dat.share 6 = fullShare)
    (h7 : dat.share 7 = fullShare)
    (h8 : dat.share 8 = fullShare)
    (h9 : dat.share 9 = fullShare)
    (h10 : dat.share 10 = fullShare)
    (h11 : dat.share 11 = fullShare)
    (V : (b : Ref sig .tc) → Buf (Elt F) ((c.tc : Thread nD τ).loc b))
    (Fa : (w : Fin cfg0.W) → Buf (Elt F) ((cfg0.win w).arr.view.loc (c.tc : Thread nD τ)))
    (hF : ∀ w, Fa w = V (Pipeline.arrRef spec0 w)) :
    (Pipeline.arrBufs (Ix := Unit) (Name := ℕ) (U := UR sig nD τ) (Lvl := ℕ) spec0 c V : sProp 𝕄) ⊣⊢ dat.arrays Fa := by
  rw [arrBufs0_eq, arrays0_eq,
    arr_pt dat 0 _ h0 V (Fa 0) (hF 0), arr_pt dat 1 _ h1 V (Fa 1) (hF 1), arr_pt dat 2 _ h2 V (Fa 2) (hF 2), arr_pt dat 3 _ h3 V (Fa 3) (hF 3), arr_pt dat 4 _ h4 V (Fa 4) (hF 4), arr_pt dat 5 _ h5 V (Fa 5) (hF 5), arr_pt dat 6 _ h6 V (Fa 6) (hF 6), arr_pt dat 7 _ h7 V (Fa 7) (hF 7), arr_pt dat 8 _ h8 V (Fa 8) (hF 8), arr_pt dat 9 _ h9 V (Fa 9) (hF 9), arr_pt dat 10 _ h10 V (Fa 10) (hF 10), arr_pt dat 11 _ h11 V (Fa 11) (hF 11)]
  have e1 : ((((c.tc : Thread nD τ).loc (Pipeline.arrRef spec0 1)) ↦{fullShare.right} V (Pipeline.arrRef spec0 1)) : sProp 𝕄) = (((c.tc : Thread nD τ).loc (Pipeline.arrRef spec0 0)) ↦{fullShare.right} V (Pipeline.arrRef spec0 0)) := rfl
  rw [e1]
  refine split_front _ _ _ _ ?_
  exact pointsTo_share full_halves

end Cert.Kernel.Hand

end
-- ==== Proof.KernelRun.lean ====
/-
  The run of the whole program, at any float instance: eight host operations lay the weights out (slices,
  transposes, roundings to bf16), the fused kernel runs over its four grid points, two reshapes turn the row of
  outputs into a column.  Between these three stretches the core holds every unscoped buffer whole at a valuation:
  the launch memory, then that after the eight operations (`V0`), then the same with the kernel's result array at
  what its four write-backs leave (`W2`), then that after the two reshapes (`W3`).  Around the region the array
  `x`, read by two windows, is dealt to them in halves and joined back.  Every weakly fair execution
  terminates, and the final memory holds every unscoped buffer at `W3`; no stretch writes an argument.
-/
import proofs.«147910_g2000103882058017_pallasbulk_729_30_alg».proof.Proof.KernelBody
import proofs.«147910_g2000103882058017_pallasbulk_729_30_alg».proof.Proof.KernelShare
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The buffers' contents after the region and after the last stretch -/

/-- After the region: the result array at what the pipeline's write-backs leave, every other buffer as entered. -/
def W2 (c : Dev nD) : Valuation τ sig (Elt F) :=
  Function.update (V0 m c) (Proc.devRef .tc main_call0_v8)
    (((dats m 0 c).arrAt 11 cfg0.N : Buf (Elt F) ((cfg0.win 11).arr.view.loc (c.tc : Thread nD τ))) : Buf (Elt F) ((c : Thread nD τ).loc main_call0_v8))
/-- The same read at a TensorCore reference. -/
abbrev V2 (c : Dev nD) (b : Ref sig .tc) : Buf (Elt F) ((c : Thread nD τ).loc b) := W2 m c (Proc.devRef .tc b)
/-- After the two reshapes. -/
abbrev W3 (c : Dev nD) : Valuation τ sig (Elt F) := StableHlo.after hostOps1 (W2 m c)

theorem W2_out (c : Dev nD) : W2 m c (Proc.devRef .tc main_call0_v8) = (dats m 0 c).arrAt 11 cfg0.N := by
  unfold W2; exact Function.update_self _ _ _
theorem W2_of_ne (c : Dev nD) (b : Ref sig .tc) (hb : b ≠ main_call0_v8) : W2 m c (Proc.devRef .tc b) = V0 m c (Proc.devRef .tc b) := by
  unfold W2; exact Function.update_of_ne (StableHlo.devRef_ne_of_ne hb) _ _

/-- An input window's array ends as the region found it. -/
theorem arrAt_in_V (c : Dev nD) (w : Fin cfg0.W) (hw : (cfg0.win w).isOut = false) (n : Nat) :
    (dats m 0 c).arrAt w n = V m c (Pipeline.arrRef spec0 w) :=
  ((dats m 0 c).arrAt_in w hw n).trans (A_eq m c w)

/-- At the region's exit every window's array holds what the valuation `W2` says. -/
theorem hF2 (c : Dev nD) (w : Fin cfg0.W) : (dats m 0 c).arrAt w cfg0.N = V2 m c (Pipeline.arrRef spec0 w) := by
  match w with
  | ⟨0, _⟩ => exact (arrAt_in_V m c 0 rfl _).trans (W2_of_ne m c _ (by decide)).symm
  | ⟨1, _⟩ => exact (arrAt_in_V m c 1 rfl _).trans (W2_of_ne m c _ (by decide)).symm
  | ⟨2, _⟩ => exact (arrAt_in_V m c 2 rfl _).trans (W2_of_ne m c _ (by decide)).symm
  | ⟨3, _⟩ => exact (arrAt_in_V m c 3 rfl _).trans (W2_of_ne m c _ (by decide)).symm
  | ⟨4, _⟩ => exact (arrAt_in_V m c 4 rfl _).trans (W2_of_ne m c _ (by decide)).symm
  | ⟨5, _⟩ => exact (arrAt_in_V m c 5 rfl _).trans (W2_of_ne m c _ (by decide)).symm
  | ⟨6, _⟩ => exact (arrAt_in_V m c 6 rfl _).trans (W2_of_ne m c _ (by decide)).symm
  | ⟨7, _⟩ => exact (arrAt_in_V m c 7 rfl _).trans (W2_of_ne m c _ (by decide)).symm
  | ⟨8, _⟩ => exact (arrAt_in_V m c 8 rfl _).trans (W2_of_ne m c _ (by decide)).symm
  | ⟨9, _⟩ => exact (arrAt_in_V m c 9 rfl _).trans (W2_of_ne m c _ (by decide)).symm
  | ⟨10, _⟩ => exact (arrAt_in_V m c 10 rfl _).trans (W2_of_ne m c _ (by decide)).symm
  | ⟨11, _⟩ => exact (W2_out m c).symm

/-- And every buffer that is no window's array what it held at entry. -/
theorem hrest2 (c : Dev nD) : ∀ b, b ∉ Finset.univ.image (Pipeline.arrRef spec0) → V2 m c b = V m c b :=
  fun b hb => W2_of_ne m c b fun e => hb (Finset.mem_image.mpr ⟨11, Finset.mem_univ _, e.symm⟩)

/-! ## The arrays out of the unscoped buffers, and back -/

/-- ENTRY: every unscoped buffer held at `V0` is the pipeline's arrays at their entry contents and the rest. -/
theorem arrays_of_held (c : Dev nD) :
    (StableHlo.held (c : Thread nD τ) (Pipeline.ucRefs τ sig) (V0 m c) : sProp 𝕄)
      ⊢ iprop((dats m 0 c).arrays ((dats m 0 c).arrAt · 0) ∗ Pipeline.unscopedRest spec0 c (V m c)) := by
  rw [← Pipeline.unscopedBufs_held c (V0 m c), Pipeline.unscopedBufs_split₀ cfgs 0 winFacts₀0.arr_unscoped c]
  exact sep_mono (arrBufs_arrays (dats m 0 c) rfl rfl rfl rfl rfl rfl rfl rfl rfl rfl rfl rfl (V m c) _ (fun w => A_eq m c w)).1 .rfl

/-- EXIT: the arrays at their final contents and the rest are every unscoped buffer held at `W2`. -/
theorem held_of_arrays (c : Dev nD) :
    iprop((dats m 0 c).arrays ((dats m 0 c).arrAt · cfg0.N) ∗ Pipeline.unscopedRest spec0 c (V m c))
      ⊢ (StableHlo.held (c : Thread nD τ) (Pipeline.ucRefs τ sig) (W2 m c) : sProp 𝕄) := by
  rw [← Pipeline.unscopedBufs_held c (W2 m c), Pipeline.unscopedBufs_split₀ cfgs 0 winFacts₀0.arr_unscoped c]
  refine sep_mono (arrBufs_arrays (dats m 0 c) rfl rfl rfl rfl rfl rfl rfl rfl rfl rfl rfl rfl (V2 m c) _ (hF2 m c)).2 (Entails.of_eq ?_)
  unfold Pipeline.unscopedRest
  exact bigSep_congr fun b hb => by
    show (((c.tc : Thread nD τ).loc b) ↦{fullShare} V m c b : sProp 𝕄) = (((c.tc : Thread nD τ).loc b) ↦{fullShare} V2 m c b)
    rw [hrest2 m c b (Finset.mem_sdiff.mp hb).2]

/-! ## The segments -/

/-- The prefetched tables' admissible contents: no table. -/
abbrev adm : (p : Fin 1) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the generator register at some state and the core's
    `owes`, at nothing. -/
abbrev R (c : Dev nD) : sProp 𝕄 := iprop((∃ r, prngReg c r) ∗ ∃ W, owes (c : Thread nD τ) (0 : CellTallies nD τ sig Unit) W)

/-- A host stretch over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- THE REGION: entered from every unscoped buffer at `V0`, left at `W2`.  Its arrays split out of the unscoped
    buffers — `x` in halves for its two windows — and put back at the exit contents; the generator register into
    the invariant and out; nothing owed; no semaphore of the kernel's own. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := arrays_of_held m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := held_of_arrays m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main as its three stretches. -/
abbrev segs : List (Pipeline.Seg (pcfgs (F := F)) adm (dats m) () defs₀ 𝒱₀ L lv) :=
  [ .host (hseg hostOps0 hostOps0_sub hostOps0_fresh (V₀ m)),
    .region (reg0 m),
    .host (hseg hostOps1 hostOps1_sub hostOps1_fresh (W2 m)) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m c) ∗ ∃ r, prngReg c r)

set_option backward.isDefEq.respectTransparency.types false in
/-- THE RUN: every weakly fair execution of @main from memory `m` with zero counters terminates, and the final
    memory holds every unscoped buffer of every core at `W3`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (dats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c)
        ⊢ iprop(Tₙ m c ∗ ∃ W, owes (c.tc : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## No stretch writes an argument -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V0 m c (Proc.devRef .tc main_arg0) := W2_of_ne m c main_arg0 (by decide)
    _ = V₀ m c (Proc.devRef .tc main_arg0) := StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V0 m c (Proc.devRef .tc main_arg1) := W2_of_ne m c main_arg1 (by decide)
    _ = V₀ m c (Proc.devRef .tc main_arg1) := StableHlo.after_of_forall_not_mem (b := Proc.devRef .tc main_arg1) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := StableHlo.after_of_forall_not_mem (b := Proc.devRef .tc main_arg2) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V0 m c (Proc.devRef .tc main_arg2) := W2_of_ne m c main_arg2 (by decide)
    _ = V₀ m c (Proc.devRef .tc main_arg2) := StableHlo.after_of_forall_not_mem (b := Proc.devRef .tc main_arg2) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := StableHlo.after_of_forall_not_mem (b := Proc.devRef .tc main_arg3) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V0 m c (Proc.devRef .tc main_arg3) := W2_of_ne m c main_arg3 (by decide)
    _ = V₀ m c (Proc.devRef .tc main_arg3) := StableHlo.after_of_forall_not_mem (b := Proc.devRef .tc main_arg3) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := StableHlo.after_of_forall_not_mem (b := Proc.devRef .tc main_arg4) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V0 m c (Proc.devRef .tc main_arg4) := W2_of_ne m c main_arg4 (by decide)
    _ = V₀ m c (Proc.devRef .tc main_arg4) := StableHlo.after_of_forall_not_mem (b := Proc.devRef .tc main_arg4) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := StableHlo.after_of_forall_not_mem (b := Proc.devRef .tc main_arg5) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V0 m c (Proc.devRef .tc main_arg5) := W2_of_ne m c main_arg5 (by decide)
    _ = V₀ m c (Proc.devRef .tc main_arg5) := StableHlo.after_of_forall_not_mem (b := Proc.devRef .tc main_arg5) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := StableHlo.after_of_forall_not_mem (b := Proc.devRef .tc main_arg6) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V0 m c (Proc.devRef .tc main_arg6) := W2_of_ne m c main_arg6 (by decide)
    _ = V₀ m c (Proc.devRef .tc main_arg6) := StableHlo.after_of_forall_not_mem (b := Proc.devRef .tc main_arg6) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := StableHlo.after_of_forall_not_mem (b := Proc.devRef .tc main_arg7) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V0 m c (Proc.devRef .tc main_arg7) := W2_of_ne m c main_arg7 (by decide)
    _ = V₀ m c (Proc.devRef .tc main_arg7) := StableHlo.after_of_forall_not_mem (b := Proc.devRef .tc main_arg7) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := StableHlo.after_of_forall_not_mem (b := Proc.devRef .tc main_arg8) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V0 m c (Proc.devRef .tc main_arg8) := W2_of_ne m c main_arg8 (by decide)
    _ = V₀ m c (Proc.devRef .tc main_arg8) := StableHlo.after_of_forall_not_mem (b := Proc.devRef .tc main_arg8) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl

/-- THE FRAME at any float instance: the run, read at the nine arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c)⟩) (run_main m ρ)

/-- THE RESULT with the frame: the result array ends at `W3`'s contents, the arguments as launched. -/
theorem run_result : θ_run defs (onTc (τ := τ) (main (F := F))) ⟨m, fun _ => 0, ρ⟩ (fun r => ∀ c : Dev nD,
      r.2.mem ((c.tc : Thread nD τ).loc main_v0) = W3 m c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v0 (by decide)),
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c)⟩) (run_main m ρ)

end Cert.Kernel.Hand

end
-- ==== Proof.KernelIdealBody.lean ====
/-
  The body of the fused perceptron kernel on its staging buffers, at any float instance: it loads the two
  column halves of a block of 8192 rows of `x`, the (transposed) weights and the biases, and stores ONE value
  — the 8192 outputs of the block, as a row — into the output's staging buffer, touching nothing else.  What
  the output's buffer holds afterwards is therefore the single store's value as a function of the eleven loaded
  blocks (`out11`).  The array `x` is read through two windows (its left and its right 256 columns); each
  window holds the array at one half of the full share, which is all a read needs.
-/
import proofs.«147910_g2000103882058017_pallasbulk_729_30_alg».proof.Proof.Gen.KernelIdeal.Launch
import proofs.«147910_g2000103882058017_pallasbulk_729_30_alg».proof.Proof.Gen.KernelIdeal.Skeleton
import proofs.«147910_g2000103882058017_pallasbulk_729_30_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, as a valuation; -/
abbrev V₀ (c : Dev nD) : Valuation τ sig (Elt F) := fun b => m ((c : Dev nD), b)
/-- and when the region is entered: the eight host operations before it have run. -/
abbrev V0 (c : Dev nD) : Valuation τ sig (Elt F) := StableHlo.after hostOps0 (V₀ m c)
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not. -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not. -/
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S8192x256 := Rect.unit (s := S8192x256) ![0, 0] S8192x256.size inb_S8192x256_S8192x256_0_0
abbrev rW1 : Rect S32x256 := Rect.unit (s := S32x256) ![0, 0] S32x256.size inb_S32x256_S32x256_0_0
abbrev rB1 : Rect S1x32 := Rect.unit (s := S1x32) ![0, 0] S1x32.size inb_S1x32_S1x32_0_0
abbrev rW2 : Rect S32x128 := Rect.unit (s := S32x128) ![0, 0] S32x128.size inb_S32x128_S32x128_0_0
abbrev rB2 : Rect S1x128 := Rect.unit (s := S1x128) ![0, 0] S1x128.size inb_S1x128_S1x128_0_0
abbrev rW3 : Rect S16x128 := Rect.unit (s := S16x128) ![0, 0] S16x128.size inb_S16x128_S16x128_0_0
abbrev rB3 : Rect S1x16 := Rect.unit (s := S1x16) ![0, 0] S1x16.size inb_S1x16_S1x16_0_0
abbrev rB4 : Rect S1x1 := Rect.unit (s := S1x1) ![0, 0] S1x1.size inb_S1x1_S1x1_0_0
abbrev rO : Rect S1x8192 := Rect.unit (s := S1x8192) ![0, 0] S1x8192.size inb_S1x8192_S1x8192_0_0

/-- The output's staging buffer after the body, from the eleven input blocks: its one store, over the whole buffer. -/
def out11 (x0 : Vec F S8192x256 .f32) (x1 : Vec F S8192x256 .f32) (x2 : Vec F S32x256 .bf16) (x3 : Vec F S32x256 .bf16) (x4 : Vec F S1x32 .f32) (x5 : Vec F S32x128 .f32) (x6 : Vec F S1x128 .f32) (x7 : Vec F S16x128 .f32) (x8 : Vec F S1x16 .f32) (x9 : Vec F S1x16 .f32) (x10 : Vec F S1x1 .f32) : Vec F S1x8192 .f32 :=
  View.canon [⟨rO, k0_pay1 (k0_pay2 (View.ld x0 rX) (View.ld x2 rW1) (View.ld x1 rX) (View.ld x3 rW1) (View.ld x4 rB1) (View.ld x5 rW2) (View.ld x6 rB2) (View.ld x7 rW3) (View.ld x8 rB3)) (View.ld x9 rB3) (View.ld x10 rB4)⟩]

/-- The one store covers the buffer. -/
theorem cover11 (p0 : Vec F S1x8192 .f32) (y : S1x8192.Idx) :
    ∃ pc ∈ ([⟨rO, p0⟩] : List (View.Piece (Elt F) S1x8192 .f32)), y ∈ pc.1.set :=
  View.cover_of_tiled [⟨rO, p0⟩] S1x8192.size (by rfl) y

/-! ## The body's triple -/

set_option maxHeartbeats 1000000 in
/-- The body on whole staging memrefs, the inputs' at contents `xW` and the output's at anything, runs to the
    continuation holding the inputs' as they were and the output's at `out11` of the inputs'. -/
theorem sound_kernel (c : Dev nD) (E : Set ℕ) (i : grid0.Coords) (arg1 : Memref sig .tc .vmem S8192x256 .f32) (harg1 : arg1.IsWhole) (arg2 : Memref sig .tc .vmem S8192x256 .f32) (harg2 : arg2.IsWhole) (arg3 : Memref sig .tc .vmem S32x256 .bf16) (harg3 : arg3.IsWhole) (arg4 : Memref sig .tc .vmem S32x256 .bf16) (harg4 : arg4.IsWhole) (arg5 : Memref sig .tc .vmem S1x32 .f32) (harg5 : arg5.IsWhole) (arg6 : Memref sig .tc .vmem S32x128 .f32) (harg6 : arg6.IsWhole) (arg7 : Memref sig .tc .vmem S1x128 .f32) (harg7 : arg7.IsWhole) (arg8 : Memref sig .tc .vmem S16x128 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x1 .f32) (harg11 : arg11.IsWhole) (arg12 : Memref sig .tc .vmem S1x8192 .f32) (harg12 : arg12.IsWhole)
    (x0 : Vec F S8192x256 .f32) (x1 : Vec F S8192x256 .f32) (x2 : Vec F S32x256 .bf16) (x3 : Vec F S32x256 .bf16) (x4 : Vec F S1x32 .f32) (x5 : Vec F S32x128 .f32) (x6 : Vec F S1x128 .f32) (x7 : Vec F S16x128 .f32) (x8 : Vec F S1x16 .f32) (x9 : Vec F S1x16 .f32) (x10 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out11 x0 x1 x2 x3 x4 x5 x6 x7 x8 x9 x10)) -∗ K ⟨⟩))
      ⊢ wp frame (wpE (defs₀ (F := F)) Variants.none c none) E (cc0__mlp_fused_kernel i arg1 harg1 arg2 harg2 arg3 harg3 arg4 harg4 arg5 harg5 arg6 harg6 arg7 harg7 arg8 harg8 arg9 harg9 arg10 harg10 arg11 harg11 arg12 harg12) K := by
  simp only [cc0__mlp_fused_kernel_eq_skeleton]; unfold cc0__mlp_fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover11 _)

/-! ## The pipeline's proof data -/

/-- The proof data of the pipeline on core `c`: the arrays as the region finds them; after the body at point `t`
    each input's buffer at its block and the output's at `out11` of the input blocks; the invariant is the scoped
    rest and the generator register, untouched; nothing owed.  The two windows on `x` hold it at the two halves
    of the full share; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = out11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealShare.lean ====
/-
  The buffers behind the pipeline's arrays against the pipeline's own account of them.  Twelve windows name
  eleven distinct buffers: windows 0 and 1 both read the array `x`.  Holding each of the eleven buffers whole at
  the full share is the same as holding every window's array at its share when the two windows on `x` take the
  two halves of the full share (a share splits into its halves and the halves join back, the contents being the
  same) and every other window takes the full share.  Stated for any proof data of this pipeline with those
  shares and any contents read off one valuation, in both directions: the first is what the region's entry
  needs, the second its exit.
-/
import proofs.«147910_g2000103882058017_pallasbulk_729_30_alg».proof.Proof.Gen.KernelIdeal.Launch
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open PCS
open Idealize.ShloMosaic.Pipeline (Dat)

variable {F : FTy → Type} [FloatOps F]

local notation "𝕄" => MT nD τ sig Unit (Elt F) ℕ (UR sig nD τ) ℕ

/-- The full share is the join of its two halves. -/
theorem full_halves : fullShare ∈ (fullShare.left ·? fullShare.right) := by
  rw [PosShare.left_op_right]; exact Part.mem_some _

/-- A proposition that is two others joined, in front of a rest: the rest rides along either way. -/
theorem split_front (P Pl Pr Rst : sProp 𝕄) (h : P ⊣⊢ iprop(Pl ∗ Pr)) : iprop(P ∗ Rst) ⊣⊢ iprop(Pl ∗ Pr ∗ Rst) :=
  ⟨(sep_mono h.1 .rfl).trans Laws.sep_assoc.1, Laws.sep_assoc.2.trans (sep_mono h.2 .rfl)⟩

/-- One window's array, whole, at the window's share. -/
theorem arr_pt {c : Dev nD} (dat : Dat τ (Elt F) Unit ℕ (UR sig nD τ) ℕ cfg0 c) (w : Fin cfg0.W) (q : PosShare TreeShare)
    (hq : dat.share w = q) (V : (b : Ref sig .tc) → Buf (Elt F) ((c.tc : Thread nD τ).loc b))
    (f : Buf (Elt F) ((cfg0.win w).arr.view.loc (c.tc : Thread nD τ))) (hf : f = V (Pipeline.arrRef spec0 w)) :
    (((cfg0.win w).arr.view.loc (c.tc : Thread nD τ)) ↦[(cfg0.win w).arr.view.set]{dat.share w} f : sProp 𝕄)
      = (((c.tc : Thread nD τ).loc (Pipeline.arrRef spec0 w)) ↦{q} V (Pipeline.arrRef spec0 w)) := by
  rw [(arr_whole0 w).set_eq_univ, hq, hf]

/-- The eleven buffers behind the twelve windows' arrays, in the windows' order, each whole at a valuation's contents. -/
theorem arrBufs0_eq (c : Dev nD) (V : (b : Ref sig .tc) → Buf (Elt F) ((c.tc : Thread nD τ).loc b)) :
    (Pipeline.arrBufs (Ix := Unit) (Name := ℕ) (U := UR sig nD τ) (Lvl := ℕ) spec0 c V : sProp 𝕄)
      = iprop((((c.tc : Thread nD τ).loc (Pipeline.arrRef spec0 0)) ↦{fullShare} V (Pipeline.arrRef spec0 0)) ∗ (((c.tc : Thread nD τ).loc (Pipeline.arrRef spec0 2)) ↦{fullShare} V (Pipeline.arrRef spec0 2)) ∗ (((c.tc : Thread nD τ).loc (Pipeline.arrRef spec0 3)) ↦{fullShare} V (Pipeline.arrRef spec0 3)) ∗ (((c.tc : Thread nD τ).loc (Pipeline.arrRef spec0 4)) ↦{fullShare} V (Pipeline.arrRef spec0 4)) ∗ (((c.tc : Thread nD τ).loc (Pipeline.arrRef spec0 5)) ↦{fullShare} V (Pipeline.arrRef spec0 5)) ∗ (((c.tc : Thread nD τ).loc (Pipeline.arrRef spec0 6)) ↦{fullShare} V (Pipeline.arrRef spec0 6)) ∗ (((c.tc : Thread nD τ).loc (Pipeline.arrRef spec0 7)) ↦{fullShare} V (Pipeline.arrRef spec0 7)) ∗ (((c.tc : Thread nD τ).loc (Pipeline.arrRef spec0 8)) ↦{fullShare} V (Pipeline.arrRef spec0 8)) ∗ (((c.tc : Thread nD τ).loc (Pipeline.arrRef spec0 9)) ↦{fullShare} V (Pipeline.arrRef spec0 9)) ∗ (((c.tc : Thread nD τ).loc (Pipeline.arrRef spec0 10)) ↦{fullShare} V (Pipeline.arrRef spec0 10)) ∗ (((c.tc : Thread nD τ).loc (Pipeline.arrRef spec0 11)) ↦{fullShare} V (Pipeline.arrRef spec0 11))) := by
  unfold Pipeline.arrBufs
  exact bigSep_eq_bigSepL_of_eq [Pipeline.arrRef spec0 0, Pipeline.arrRef spec0 2, Pipeline.arrRef spec0 3, Pipeline.arrRef spec0 4, Pipeline.arrRef spec0 5, Pipeline.arrRef spec0 6, Pipeline.arrRef spec0 7, Pipeline.arrRef spec0 8, Pipeline.arrRef spec0 9, Pipeline.arrRef spec0 10, Pipeline.arrRef spec0 11] (by decide) (by decide) _

/-- The pipeline's arrays, window by window. -/
theorem arrays0_eq {c : Dev nD} (dat : Dat τ (Elt F) Unit ℕ (UR sig nD τ) ℕ cfg0 c)
    (Fa : (w : Fin cfg0.W) → Buf (Elt F) ((cfg0.win w).arr.view.loc (c.tc : Thread nD τ))) :
    (dat.arrays Fa : sProp 𝕄) = iprop((((cfg0.win 0).arr.view.loc (c.tc : Thread nD τ)) ↦[(cfg0.win 0).arr.view.set]{dat.share 0} Fa 0) ∗ (((cfg0.win 1).arr.view.loc (c.tc : Thread nD τ)) ↦[(cfg0.win 1).arr.view.set]{dat.share 1} Fa 1) ∗ (((cfg0.win 2).arr.view.loc (c.tc : Thread nD τ)) ↦[(cfg0.win 2).arr.view.set]{dat.share 2} Fa 2) ∗ (((cfg0.win 3).arr.view.loc (c.tc : Thread nD τ)) ↦[(cfg0.win 3).arr.view.set]{dat.share 3} Fa 3) ∗ (((cfg0.win 4).arr.view.loc (c.tc : Thread nD τ)) ↦[(cfg0.win 4).arr.view.set]{dat.share 4} Fa 4) ∗ (((cfg0.win 5).arr.view.loc (c.tc : Thread nD τ)) ↦[(cfg0.win 5).arr.view.set]{dat.share 5} Fa 5) ∗ (((cfg0.win 6).arr.view.loc (c.tc : Thread nD τ)) ↦[(cfg0.win 6).arr.view.set]{dat.share 6} Fa 6) ∗ (((cfg0.win 7).arr.view.loc (c.tc : Thread nD τ)) ↦[(cfg0.win 7).arr.view.set]{dat.share 7} Fa 7) ∗ (((cfg0.win 8).arr.view.loc (c.tc : Thread nD τ)) ↦[(cfg0.win 8).arr.view.set]{dat.share 8} Fa 8) ∗ (((cfg0.win 9).arr.view.loc (c.tc : Thread nD τ)) ↦[(cfg0.win 9).arr.view.set]{dat.share 9} Fa 9) ∗ (((cfg0.win 10).arr.view.loc (c.tc : Thread nD τ)) ↦[(cfg0.win 10).arr.view.set]{dat.share 10} Fa 10) ∗ (((cfg0.win 11).arr.view.loc (c.tc : Thread nD τ)) ↦[(cfg0.win 11).arr.view.set]{dat.share 11} Fa 11)) := by
  unfold Dat.arrays; exact bigSep_W0 _

/-- The buffers behind the arrays, each whole at the full share at a valuation's contents, are the pipeline's
    arrays at those contents — windows 0 and 1 at the two halves of the full share, every other window at the full
    share. -/
theorem arrBufs_arrays {c : Dev nD} (dat : Dat τ (Elt F) Unit ℕ (UR sig nD τ) ℕ cfg0 c)
    (h0 : dat.share 0 = fullShare.left) (h1 : dat.share 1 = fullShare.right)
    (h2 : dat.share 2 = fullShare)
    (h3 : dat.share 3 = fullShare)
    (h4 : dat.share 4 = fullShare)
    (h5 : dat.share 5 = fullShare)
    (h6 : dat.share 6 = fullShare)
    (h7 : dat.share 7 = fullShare)
    (h8 : dat.share 8 = fullShare)
    (h9 : dat.share 9 = fullShare)
    (h10 : dat.share 10 = fullShare)
    (h11 : dat.share 11 = fullShare)
    (V : (b : Ref sig .tc) → Buf (Elt F) ((c.tc : Thread nD τ).loc b))
    (Fa : (w : Fin cfg0.W) → Buf (Elt F) ((cfg0.win w).arr.view.loc (c.tc : Thread nD τ)))
    (hF : ∀ w, Fa w = V (Pipeline.arrRef spec0 w)) :
    (Pipeline.arrBufs (Ix := Unit) (Name := ℕ) (U := UR sig nD τ) (Lvl := ℕ) spec0 c V : sProp 𝕄) ⊣⊢ dat.arrays Fa := by
  rw [arrBufs0_eq, arrays0_eq,
    arr_pt dat 0 _ h0 V (Fa 0) (hF 0), arr_pt dat 1 _ h1 V (Fa 1) (hF 1), arr_pt dat 2 _ h2 V (Fa 2) (hF 2), arr_pt dat 3 _ h3 V (Fa 3) (hF 3), arr_pt dat 4 _ h4 V (Fa 4) (hF 4), arr_pt dat 5 _ h5 V (Fa 5) (hF 5), arr_pt dat 6 _ h6 V (Fa 6) (hF 6), arr_pt dat 7 _ h7 V (Fa 7) (hF 7), arr_pt dat 8 _ h8 V (Fa 8) (hF 8), arr_pt dat 9 _ h9 V (Fa 9) (hF 9), arr_pt dat 10 _ h10 V (Fa 10) (hF 10), arr_pt dat 11 _ h11 V (Fa 11) (hF 11)]
  have e1 : ((((c.tc : Thread nD τ).loc (Pipeline.arrRef spec0 1)) ↦{fullShare.right} V (Pipeline.arrRef spec0 1)) : sProp 𝕄) = (((c.tc : Thread nD τ).loc (Pipeline.arrRef spec0 0)) ↦{fullShare.right} V (Pipeline.arrRef spec0 0)) := rfl
  rw [e1]
  refine split_front _ _ _ _ ?_
  exact pointsTo_share full_halves

end Cert.KernelIdeal.Hand

end
-- ==== Proof.KernelIdealRun.lean ====
/-
  The run of the whole program, at any float instance: eight host operations lay the weights out (slices,
  transposes, roundings to bf16), the fused kernel runs over its four grid points, two reshapes turn the row of
  outputs into a column.  Between these three stretches the core holds every unscoped buffer whole at a valuation:
  the launch memory, then that after the eight operations (`V0`), then the same with the kernel's result array at
  what its four write-backs leave (`W2`), then that after the two reshapes (`W3`).  Around the region the array
  `x`, read by two windows, is dealt to them in halves and joined back.  Every weakly fair execution
  terminates, and the final memory holds every unscoped buffer at `W3`; no stretch writes an argument.
-/
import proofs.«147910_g2000103882058017_pallasbulk_729_30_alg».proof.Proof.KernelIdealBody
import proofs.«147910_g2000103882058017_pallasbulk_729_30_alg».proof.Proof.KernelIdealShare
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The buffers' contents after the region and after the last stretch -/

/-- After the region: the result array at what the pipeline's write-backs leave, every other buffer as entered. -/
def W2 (c : Dev nD) : Valuation τ sig (Elt F) :=
  Function.update (V0 m c) (Proc.devRef .tc main_call0_v8)
    (((dats m 0 c).arrAt 11 cfg0.N : Buf (Elt F) ((cfg0.win 11).arr.view.loc (c.tc : Thread nD τ))) : Buf (Elt F) ((c : Thread nD τ).loc main_call0_v8))
/-- The same read at a TensorCore reference. -/
abbrev V2 (c : Dev nD) (b : Ref sig .tc) : Buf (Elt F) ((c : Thread nD τ).loc b) := W2 m c (Proc.devRef .tc b)
/-- After the two reshapes. -/
abbrev W3 (c : Dev nD) : Valuation τ sig (Elt F) := StableHlo.after hostOps1 (W2 m c)

theorem W2_out (c : Dev nD) : W2 m c (Proc.devRef .tc main_call0_v8) = (dats m 0 c).arrAt 11 cfg0.N := by
  unfold W2; exact Function.update_self _ _ _
theorem W2_of_ne (c : Dev nD) (b : Ref sig .tc) (hb : b ≠ main_call0_v8) : W2 m c (Proc.devRef .tc b) = V0 m c (Proc.devRef .tc b) := by
  unfold W2; exact Function.update_of_ne (StableHlo.devRef_ne_of_ne hb) _ _

/-- An input window's array ends as the region found it. -/
theorem arrAt_in_V (c : Dev nD) (w : Fin cfg0.W) (hw : (cfg0.win w).isOut = false) (n : Nat) :
    (dats m 0 c).arrAt w n = V m c (Pipeline.arrRef spec0 w) :=
  ((dats m 0 c).arrAt_in w hw n).trans (A_eq m c w)

/-- At the region's exit every window's array holds what the valuation `W2` says. -/
theorem hF2 (c : Dev nD) (w : Fin cfg0.W) : (dats m 0 c).arrAt w cfg0.N = V2 m c (Pipeline.arrRef spec0 w) := by
  match w with
  | ⟨0, _⟩ => exact (arrAt_in_V m c 0 rfl _).trans (W2_of_ne m c _ (by decide)).symm
  | ⟨1, _⟩ => exact (arrAt_in_V m c 1 rfl _).trans (W2_of_ne m c _ (by decide)).symm
  | ⟨2, _⟩ => exact (arrAt_in_V m c 2 rfl _).trans (W2_of_ne m c _ (by decide)).symm
  | ⟨3, _⟩ => exact (arrAt_in_V m c 3 rfl _).trans (W2_of_ne m c _ (by decide)).symm
  | ⟨4, _⟩ => exact (arrAt_in_V m c 4 rfl _).trans (W2_of_ne m c _ (by decide)).symm
  | ⟨5, _⟩ => exact (arrAt_in_V m c 5 rfl _).trans (W2_of_ne m c _ (by decide)).symm
  | ⟨6, _⟩ => exact (arrAt_in_V m c 6 rfl _).trans (W2_of_ne m c _ (by decide)).symm
  | ⟨7, _⟩ => exact (arrAt_in_V m c 7 rfl _).trans (W2_of_ne m c _ (by decide)).symm
  | ⟨8, _⟩ => exact (arrAt_in_V m c 8 rfl _).trans (W2_of_ne m c _ (by decide)).symm
  | ⟨9, _⟩ => exact (arrAt_in_V m c 9 rfl _).trans (W2_of_ne m c _ (by decide)).symm
  | ⟨10, _⟩ => exact (arrAt_in_V m c 10 rfl _).trans (W2_of_ne m c _ (by decide)).symm
  | ⟨11, _⟩ => exact (W2_out m c).symm

/-- And every buffer that is no window's array what it held at entry. -/
theorem hrest2 (c : Dev nD) : ∀ b, b ∉ Finset.univ.image (Pipeline.arrRef spec0) → V2 m c b = V m c b :=
  fun b hb => W2_of_ne m c b fun e => hb (Finset.mem_image.mpr ⟨11, Finset.mem_univ _, e.symm⟩)

/-! ## The arrays out of the unscoped buffers, and back -/

/-- ENTRY: every unscoped buffer held at `V0` is the pipeline's arrays at their entry contents and the rest. -/
theorem arrays_of_held (c : Dev nD) :
    (StableHlo.held (c : Thread nD τ) (Pipeline.ucRefs τ sig) (V0 m c) : sProp 𝕄)
      ⊢ iprop((dats m 0 c).arrays ((dats m 0 c).arrAt · 0) ∗ Pipeline.unscopedRest spec0 c (V m c)) := by
  rw [← Pipeline.unscopedBufs_held c (V0 m c), Pipeline.unscopedBufs_split₀ cfgs 0 winFacts₀0.arr_unscoped c]
  exact sep_mono (arrBufs_arrays (dats m 0 c) rfl rfl rfl rfl rfl rfl rfl rfl rfl rfl rfl rfl (V m c) _ (fun w => A_eq m c w)).1 .rfl

/-- EXIT: the arrays at their final contents and the rest are every unscoped buffer held at `W2`. -/
theorem held_of_arrays (c : Dev nD) :
    iprop((dats m 0 c).arrays ((dats m 0 c).arrAt · cfg0.N) ∗ Pipeline.unscopedRest spec0 c (V m c))
      ⊢ (StableHlo.held (c : Thread nD τ) (Pipeline.ucRefs τ sig) (W2 m c) : sProp 𝕄) := by
  rw [← Pipeline.unscopedBufs_held c (W2 m c), Pipeline.unscopedBufs_split₀ cfgs 0 winFacts₀0.arr_unscoped c]
  refine sep_mono (arrBufs_arrays (dats m 0 c) rfl rfl rfl rfl rfl rfl rfl rfl rfl rfl rfl rfl (V2 m c) _ (hF2 m c)).2 (Entails.of_eq ?_)
  unfold Pipeline.unscopedRest
  exact bigSep_congr fun b hb => by
    show (((c.tc : Thread nD τ).loc b) ↦{fullShare} V m c b : sProp 𝕄) = (((c.tc : Thread nD τ).loc b) ↦{fullShare} V2 m c b)
    rw [hrest2 m c b (Finset.mem_sdiff.mp hb).2]

/-! ## The segments -/

/-- The prefetched tables' admissible contents: no table. -/
abbrev adm : (p : Fin 1) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the generator register at some state and the core's
    `owes`, at nothing. -/
abbrev R (c : Dev nD) : sProp 𝕄 := iprop((∃ r, prngReg c r) ∗ ∃ W, owes (c : Thread nD τ) (0 : CellTallies nD τ sig Unit) W)

/-- A host stretch over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- THE REGION: entered from every unscoped buffer at `V0`, left at `W2`.  Its arrays split out of the unscoped
    buffers — `x` in halves for its two windows — and put back at the exit contents; the generator register into
    the invariant and out; nothing owed; no semaphore of the kernel's own. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := arrays_of_held m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := held_of_arrays m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main as its three stretches. -/
abbrev segs : List (Pipeline.Seg (pcfgs (F := F)) adm (dats m) () defs₀ 𝒱₀ L lv) :=
  [ .host (hseg hostOps0 hostOps0_sub hostOps0_fresh (V₀ m)),
    .region (reg0 m),
    .host (hseg hostOps1 hostOps1_sub hostOps1_fresh (W2 m)) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m c) ∗ ∃ r, prngReg c r)

set_option backward.isDefEq.respectTransparency.types false in
/-- THE RUN: every weakly fair execution of @main from memory `m` with zero counters terminates, and the final
    memory holds every unscoped buffer of every core at `W3`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (dats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c)
        ⊢ iprop(Tₙ m c ∗ ∃ W, owes (c.tc : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## No stretch writes an argument -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V0 m c (Proc.devRef .tc main_arg0) := W2_of_ne m c main_arg0 (by decide)
    _ = V₀ m c (Proc.devRef .tc main_arg0) := StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V0 m c (Proc.devRef .tc main_arg1) := W2_of_ne m c main_arg1 (by decide)
    _ = V₀ m c (Proc.devRef .tc main_arg1) := StableHlo.after_of_forall_not_mem (b := Proc.devRef .tc main_arg1) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := StableHlo.after_of_forall_not_mem (b := Proc.devRef .tc main_arg2) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V0 m c (Proc.devRef .tc main_arg2) := W2_of_ne m c main_arg2 (by decide)
    _ = V₀ m c (Proc.devRef .tc main_arg2) := StableHlo.after_of_forall_not_mem (b := Proc.devRef .tc main_arg2) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := StableHlo.after_of_forall_not_mem (b := Proc.devRef .tc main_arg3) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V0 m c (Proc.devRef .tc main_arg3) := W2_of_ne m c main_arg3 (by decide)
    _ = V₀ m c (Proc.devRef .tc main_arg3) := StableHlo.after_of_forall_not_mem (b := Proc.devRef .tc main_arg3) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := StableHlo.after_of_forall_not_mem (b := Proc.devRef .tc main_arg4) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V0 m c (Proc.devRef .tc main_arg4) := W2_of_ne m c main_arg4 (by decide)
    _ = V₀ m c (Proc.devRef .tc main_arg4) := StableHlo.after_of_forall_not_mem (b := Proc.devRef .tc main_arg4) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := StableHlo.after_of_forall_not_mem (b := Proc.devRef .tc main_arg5) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V0 m c (Proc.devRef .tc main_arg5) := W2_of_ne m c main_arg5 (by decide)
    _ = V₀ m c (Proc.devRef .tc main_arg5) := StableHlo.after_of_forall_not_mem (b := Proc.devRef .tc main_arg5) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := StableHlo.after_of_forall_not_mem (b := Proc.devRef .tc main_arg6) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V0 m c (Proc.devRef .tc main_arg6) := W2_of_ne m c main_arg6 (by decide)
    _ = V₀ m c (Proc.devRef .tc main_arg6) := StableHlo.after_of_forall_not_mem (b := Proc.devRef .tc main_arg6) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := StableHlo.after_of_forall_not_mem (b := Proc.devRef .tc main_arg7) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V0 m c (Proc.devRef .tc main_arg7) := W2_of_ne m c main_arg7 (by decide)
    _ = V₀ m c (Proc.devRef .tc main_arg7) := StableHlo.after_of_forall_not_mem (b := Proc.devRef .tc main_arg7) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := StableHlo.after_of_forall_not_mem (b := Proc.devRef .tc main_arg8) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V0 m c (Proc.devRef .tc main_arg8) := W2_of_ne m c main_arg8 (by decide)
    _ = V₀ m c (Proc.devRef .tc main_arg8) := StableHlo.after_of_forall_not_mem (b := Proc.devRef .tc main_arg8) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl

/-- THE FRAME at any float instance: the run, read at the nine arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c)⟩) (run_main m ρ)

/-- THE RESULT with the frame: the result array ends at `W3`'s contents, the arguments as launched. -/
theorem run_result : θ_run defs (onTc (τ := τ) (main (F := F))) ⟨m, fun _ => 0, ρ⟩ (fun r => ∀ c : Dev nD,
      r.2.mem ((c.tc : Thread nD τ).loc main_v0) = W3 m c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v0 (by decide)),
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c)⟩) (run_main m ρ)

end Cert.KernelIdeal.Hand

end
-- ==== Proof.LibTRef.lean ====
/-
  Typed references to tensor buffers carry contents along the equation between the buffer's type and the value's
  type, in both directions.  Going to the buffer and back is the identity: a value an operation writes through a
  typed reference and a later operation reads through the same reference is read unchanged.  General; no program
  is imported.
-/
import Idealize.ShloMosaic.Lib.StableHlo

namespace Idealize.ShloMosaic.StableHlo.TRef

variable {sig : RefSig} {Val : EltTy → Type} {T : BufTy}

/-- Contents carried to a typed reference's buffer and back are the contents. -/
theorem ofBuf_toBuf (x : TRef sig T) (v : T.Contents Val) : x.ofBuf (x.toBuf v) = v := by
  obtain ⟨r, rfl, _, _⟩ := x
  rfl

/-- Contents of the buffer carried to the value's type and back are the contents. -/
theorem toBuf_ofBuf (x : TRef sig T) (v : x.ref.ty.Contents Val) : x.toBuf (x.ofBuf v) = v := by
  obtain ⟨r, rfl, _, _⟩ := x
  rfl

end Idealize.ShloMosaic.StableHlo.TRef
-- ==== Proof.KernelIdealTail.lean ====
/-
  After the region the row of 32768 outputs is reshaped to a vector and then to a column, both in row-major
  order: the column's entry in row `r` is the row's entry in column `r`, and the row is what the kernel's four
  write-backs left in the result array.
-/
import proofs.«147910_g2000103882058017_pallasbulk_729_30_alg».proof.Proof.KernelIdealRun
import proofs.«147910_g2000103882058017_pallasbulk_729_30_alg».proof.Proof.LibTRef
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable {F : FTy → Type} [FloatOps F]
variable (m : (ℓ : Loc nD τ sig) → Buf (Elt F) ℓ)

/-- The result, as the two reshapes of the region's output array. -/
theorem W3_v0_eq (c : Dev nD) : (W3 m c (Proc.devRef .tc main_v0) : S32768x1.Idx → F .f32)
    = shapeCast S32768x1 (shapeCast S32768 ((dats m 0 c).arrAt 11 cfg0.N : S1x32768.Idx → F .f32) shapeCasts_S1x32768_S32768) shapeCasts_S32768_S32768x1 := by
  show StableHlo.after hostOps1 (W2 m c) (Proc.devRef .tc main_v0) = _
  after_results
  rw [← W2_out m c]
  rfl

/-- The column's entry in row `r` is the output row's entry in column `r`. -/
theorem W3_v0 (c : Dev nD) (r : Fin 32768) :
    W3 m c (Proc.devRef .tc main_v0) (ix2 r (0 : Fin 1)) = (dats m 0 c).arrAt 11 cfg0.N (ix2 (0 : Fin 1) r) := by
  refine (congrFun (W3_v0_eq m c) (ix2 r (0 : Fin 1))).trans ?_
  refine (shapeCast_apply _ _ (ix2 r (0 : Fin 1)) (ix1 r) ?_).trans (shapeCast_apply _ _ (ix1 r) (ix2 (0 : Fin 1) r) ?_)
  · rw [Shape.rowMajor_val_one, Shape.rowMajor_val_two]
    show r.val = r.val * 1 + 0
    omega
  · rw [Shape.rowMajor_val_two, Shape.rowMajor_val_one]
    show 0 * 32768 + r.val = r.val
    omega

end Cert.KernelIdeal.Hand

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.LibDotRowsT.lean ====
/-
  A matrix product against a transposed right operand, read at an index.  For shapes
  [R, K] · [J, K] → [R, J] whose dimension numbers contract axis 1 of the left operand with axis 1 of the
  right operand (no batch axis), the sum over the contraction index that `tpu.matmul` and `dot_general`
  denote at the ideal values is the textbook sum over `k : Fin K` of `lhs (r, k) * rhs (c, k)`.  The four
  coordinate facts about the dimension numbers' operand indices are hypotheses: for a record with literal
  lists each of them is a two-line unfolding.
-/
import Idealize.ShloMosaic.PureOps.Ideal.Laws
import Idealize.ShloMosaic.Lib.ValueIdx

noncomputable section

open scoped BigOperators

namespace Idealize.ShloMosaic.ValueIdx

open Idealize.ShloMosaic

/-- The contraction sum of an [R, K] · [J, K] product (both operands contracted on axis 1) at output index `j`
    is the sum over `k : Fin K` of the left operand at `(j 0, k)` and the right operand at `(j 1, k)`. -/
theorem dot_rowsT_sum {M : Type*} [AddCommMonoid M] {R K J : Nat}
    (d : DotDims ⟨2, ![R, K]⟩ ⟨2, ![J, K]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (g : (⟨2, ![R, K]⟩ : Shape).Idx → (⟨2, ![J, K]⟩ : Shape).Idx → M) (j : (⟨2, ![R, J]⟩ : Shape).Idx) :
    ∑ k : d.contr.Idx, g (d.lhsIdx j k) (d.rhsIdx j k) = ∑ k : Fin K, g (ix2 (j 0) k) (ix2 (j 1) k) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 (j 1) k := by
    funext a
    match a with
    | ⟨0, _⟩ => exact Fin.ext (h3 j _)
    | ⟨1, _⟩ => exact Fin.ext ((h4 j _).trans (contrEquiv1_symm_val d K hr hs k))
  exact congrArg₂ g e1 e2

/-- A `tpu.matmul` of [R, K] against [J, K] into the zero accumulator, at the ideal values, read at `(r, c)`. -/
theorem matmul_zero_rowsT {R K J : Nat} {φ₁ φ₂ : FTy}
    (d : DotDims ⟨2, ![R, K]⟩ ⟨2, ![J, K]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (lhs : FVec Ideal ⟨2, ![R, K]⟩ φ₁) (rhs : FVec Ideal ⟨2, ![J, K]⟩ φ₂) (r : Fin R) (c : Fin J) :
    FloatOps.matmul d prec lhs rhs (constant ⟨2, ![R, J]⟩ .f32 0x00000000#32) (ix2 r c)
      = ∑ k : Fin K, lhs (ix2 r k) * rhs (ix2 c k) := by
  rw [Ideal.matmul_constant_zero_apply]
  exact dot_rowsT_sum d hr hs h1 h2 h3 h4 (fun a b => lhs a * rhs b) (ix2 r c)

end Idealize.ShloMosaic.ValueIdx

end
-- ==== Proof.KValDots.lean ====
/-
  The four matrix products of the fused perceptron, each read at one entry.  Every product accumulates
  into a zero matrix, so at the ideal values an entry is the plain sum over the contracted index of the
  products of the operands' entries.  Three of the four contract the second axis of BOTH operands (the
  right operand is held transposed: a weight matrix stored as [outputs, inputs]); one is the textbook
  [R, K] · [K, J] product.
-/
import proofs.«147910_g2000103882058017_pallasbulk_729_30_alg».proof.Proof.Gen.KernelIdeal
import proofs.«147910_g2000103882058017_pallasbulk_729_30_alg».proof.Proof.LibDotRows
import proofs.«147910_g2000103882058017_pallasbulk_729_30_alg».proof.Proof.LibDotRowsT

noncomputable section

open scoped BigOperators

namespace Cert.KernelIdeal.KVal

open Idealize.ShloMosaic Idealize.ShloMosaic.ValueIdx

/-- A [8192, 256] block of rows against a [32, 256] block of transposed weights: entry `(r, c)` is
    the sum over `k` of `lhs (r, k) * rhs (c, k)`. -/
theorem dot_x_w1_apply (lhs : FVec Ideal S8192x256 .bf16) (rhs : FVec Ideal S32x256 .bf16) (r : Fin 8192) (c : Fin 32) :
    matmul dot_S8192x256_S32x256_S8192x32_1_1_0_0_n_n none lhs rhs (constant S8192x32 .f32 0x00000000#32) (ix2 r c)
      = ∑ k : Fin 256, lhs (ix2 r k) * rhs (ix2 c k) :=
  matmul_zero_rowsT dot_S8192x256_S32x256_S8192x32_1_1_0_0_n_n none rfl rfl
    (fun _ _ => rfl)
    (fun j k => dot_S8192x256_S32x256_S8192x32_1_1_0_0_n_n.lhsIdx_val_of_single (cl := 1) rfl j k)
    (fun _ _ => rfl)
    (fun j k => dot_S8192x256_S32x256_S8192x32_1_1_0_0_n_n.rhsIdx_val_of_single (cr := 1) rfl j k)
    lhs rhs r c

/-- The first hidden layer [8192, 32] against the second weight matrix [32, 128]: entry `(r, c)` is
    the sum over `k` of `lhs (r, k) * rhs (k, c)`. -/
theorem dot_h1_w2_apply (lhs : FVec Ideal S8192x32 .f32) (rhs : FVec Ideal S32x128 .f32) (r : Fin 8192) (c : Fin 128) :
    matmul dot_S8192x32_S32x128_S8192x128_1_0_0_1_n_n none lhs rhs (constant S8192x128 .f32 0x00000000#32) (ix2 r c)
      = ∑ k : Fin 32, lhs (ix2 r k) * rhs (ix2 k c) :=
  matmul_zero_rows dot_S8192x32_S32x128_S8192x128_1_0_0_1_n_n none rfl rfl
    (fun _ _ => rfl)
    (fun j k => dot_S8192x32_S32x128_S8192x128_1_0_0_1_n_n.lhsIdx_val_of_single (cl := 1) rfl j k)
    (fun j k => dot_S8192x32_S32x128_S8192x128_1_0_0_1_n_n.rhsIdx_val_of_single (cr := 0) rfl j k)
    (fun _ _ => rfl)
    lhs rhs r c

/-- The second hidden layer [8192, 128] against the transposed third weight matrix [16, 128]: entry
    `(r, c)` is the sum over `k` of `lhs (r, k) * rhs (c, k)`. -/
theorem dot_h2_w3_apply (lhs : FVec Ideal S8192x128 .f32) (rhs : FVec Ideal S16x128 .f32) (r : Fin 8192) (c : Fin 16) :
    matmul dot_S8192x128_S16x128_S8192x16_1_1_0_0_n_n none lhs rhs (constant S8192x16 .f32 0x00000000#32) (ix2 r c)
      = ∑ k : Fin 128, lhs (ix2 r k) * rhs (ix2 c k) :=
  matmul_zero_rowsT dot_S8192x128_S16x128_S8192x16_1_1_0_0_n_n none rfl rfl
    (fun _ _ => rfl)
    (fun j k => dot_S8192x128_S16x128_S8192x16_1_1_0_0_n_n.lhsIdx_val_of_single (cl := 1) rfl j k)
    (fun _ _ => rfl)
    (fun j k => dot_S8192x128_S16x128_S8192x16_1_1_0_0_n_n.rhsIdx_val_of_single (cr := 1) rfl j k)
    lhs rhs r c

/-- The transposed last weight vector [1, 16] against the third hidden layer [8192, 16]: entry `(u, c)`
    of the one-row result is the sum over `k` of `lhs (u, k) * rhs (c, k)`. -/
theorem dot_w4_h3_apply (lhs : FVec Ideal S1x16 .f32) (rhs : FVec Ideal S8192x16 .f32) (u : Fin 1) (c : Fin 8192) :
    matmul dot_S1x16_S8192x16_S1x8192_1_1_0_0_n_n none lhs rhs (constant S1x8192 .f32 0x00000000#32) (ix2 u c)
      = ∑ k : Fin 16, lhs (ix2 u k) * rhs (ix2 c k) :=
  matmul_zero_rowsT dot_S1x16_S8192x16_S1x8192_1_1_0_0_n_n none rfl rfl
    (fun _ _ => rfl)
    (fun j k => dot_S1x16_S8192x16_S1x8192_1_1_0_0_n_n.lhsIdx_val_of_single (cl := 1) rfl j k)
    (fun _ _ => rfl)
    (fun j k => dot_S1x16_S8192x16_S1x8192_1_1_0_0_n_n.rhsIdx_val_of_single (cr := 1) rfl j k)
    lhs rhs u c

end Cert.KernelIdeal.KVal

end
-- ==== Proof.Spec.lean ====
/-
  The function both programs compute, stated once over the argument arrays: a perceptron with three
  hidden layers applied to every row of `x`.  For a row `r`,
    h₁(i) = max (∑ₖ w₁(k,i)·x(r,k) + b₁(i)) 0        (512 → 32)
    h₂(j) = max (∑ᵢ w₂(i,j)·h₁(i) + b₂(j)) 0          (32 → 128)
    h₃(k) = max (∑ⱼ w₃(j,k)·h₂(j) + b₃(k)) 0          (128 → 16)
    out   = logistic (∑ₖ h₃(k)·w₄(k) + b₄)            (16 → 1)
  on the extended reals, where `0` is the f32 zero word's ideal value.  Sums and products of extended
  reals are commutative and associative, so the order in which a program accumulates them is immaterial.
-/
import Idealize.ShloMosaic.PureOps.Ideal
import Idealize.ShloMosaic.Lib.ValueIdx

noncomputable section

open scoped BigOperators

namespace Cert.Spec

open Idealize.ShloMosaic Idealize.ShloMosaic.ValueIdx

/-- A rank-2 f32 array at the ideal values. -/
abbrev Arr (a b : Nat) : Type := FVec Ideal ⟨2, ![a, b]⟩ .f32

/-- The f32 zero word at the ideal values (the rectifier's threshold). -/
def z : Ideal .f32 := Ideal.ofBits .f32 0x00000000#32

/-- First hidden layer of row `r`, unit `i`. -/
def h1 (x : Arr 32768 512) (w1 : Arr 512 32) (b1 : Arr 1 32) (r : Fin 32768) (i : Fin 32) : Ideal .f32 :=
  max ((∑ k : Fin 512, w1 (ix2 k i) * x (ix2 r k)) + b1 (ix2 0 i)) z

/-- Second hidden layer of row `r`, unit `j`. -/
def h2 (x : Arr 32768 512) (w1 : Arr 512 32) (b1 : Arr 1 32) (w2 : Arr 32 128) (b2 : Arr 1 128)
    (r : Fin 32768) (j : Fin 128) : Ideal .f32 :=
  max ((∑ i : Fin 32, w2 (ix2 i j) * h1 x w1 b1 r i) + b2 (ix2 0 j)) z

/-- Third hidden layer of row `r`, unit `k`. -/
def h3 (x : Arr 32768 512) (w1 : Arr 512 32) (b1 : Arr 1 32) (w2 : Arr 32 128) (b2 : Arr 1 128)
    (w3 : Arr 128 16) (b3 : Arr 1 16) (r : Fin 32768) (k : Fin 16) : Ideal .f32 :=
  max ((∑ j : Fin 128, w3 (ix2 j k) * h2 x w1 b1 w2 b2 r j) + b3 (ix2 0 k)) z

/-- The output of row `r`. -/
def out (x : Arr 32768 512) (w1 : Arr 512 32) (b1 : Arr 1 32) (w2 : Arr 32 128) (b2 : Arr 1 128)
    (w3 : Arr 128 16) (b3 : Arr 1 16) (w4 : Arr 16 1) (b4 : Arr 1 1) (r : Fin 32768) : Ideal .f32 :=
  Ideal.logistic ((∑ k : Fin 16, h3 x w1 b1 w2 b2 w3 b3 r k * w4 (ix2 k 0)) + b4 (ix2 0 0))

/-- The result array: one output per row, as a column. -/
def G (x : Arr 32768 512) (w1 : Arr 512 32) (b1 : Arr 1 32) (w2 : Arr 32 128) (b2 : Arr 1 128)
    (w3 : Arr 128 16) (b3 : Arr 1 16) (w4 : Arr 16 1) (b4 : Arr 1 1) : Arr 32768 1 :=
  fun i => out x w1 b1 w2 b2 w3 b3 w4 b4 (i 0)

end Cert.Spec

end
-- ==== Proof.KValSum.lean ====
/-
  A sum over the first `n + m` naturals is the sum over its first `n` indices plus the sum over its last
  `m`.  Stated for any additive commutative monoid and for any two index maps that hit the two parts in
  order (the first part at `k`, the second at `n + k`), so that it applies whatever way the two parts'
  indices happen to be written.
-/
import Mathlib.Algebra.BigOperators.Fin

open scoped BigOperators

namespace Cert.KernelIdeal.KVal

/-- The sum of `f` over `Fin N` with `N = n + m` is the sum of `f` over the first `n` indices plus the
    sum over the last `m`. -/
theorem sum_fin_two_parts {M : Type*} [AddCommMonoid M] {n m N : ℕ} (h : N = n + m) (f : Fin N → M)
    (kL : Fin n → Fin N) (kR : Fin m → Fin N) (hL : ∀ k, (kL k).val = k.val) (hR : ∀ k, (kR k).val = n + k.val) :
    ∑ k, f k = ∑ k, f (kL k) + ∑ k, f (kR k) := by
  subst h
  rw [Fin.sum_univ_add]
  refine congrArg₂ (· + ·) ?_ ?_
  · exact Finset.sum_congr rfl fun k _ => congrArg f (Fin.ext ((Fin.coe_castAdd m k).trans (hL k).symm))
  · exact Finset.sum_congr rfl fun k _ => congrArg f (Fin.ext ((Fin.coe_natAdd n k).trans (hR k).symm))

end Cert.KernelIdeal.KVal
-- ==== Proof.KValForm.lean ====
/-
  What the fused kernel computes for ONE row of a block, written on the blocks it loads, and why that is
  the specification's value for the corresponding row of `x`.

  The kernel sees a block of rows of `x` as two halves, the left and the right 256 columns, and the first
  weight matrix as the two matching halves, each transposed.  Its first layer is therefore TWO sums over 256
  columns added together, where the specification has one sum over 512: a sum over `Fin 512` is the sum
  over its first 256 indices plus the sum over its last 256.  In layers 1 to 3 the kernel multiplies
  activation by weight where the specification multiplies weight by activation, and in layer 4 the other
  way round; the third and fourth weight matrices reach it transposed.  Multiplication of extended reals is
  commutative and a transposed matrix read at `(k, j)` is the matrix at `(j, k)`, so term by term the sums
  are the same.  No law used here needs the entries to be finite.
-/
import proofs.«147910_g2000103882058017_pallasbulk_729_30_alg».proof.Proof.Spec
import proofs.«147910_g2000103882058017_pallasbulk_729_30_alg».proof.Proof.KValSum

noncomputable section

open scoped BigOperators

namespace Cert.KernelIdeal.KVal

open Idealize.ShloMosaic Idealize.ShloMosaic.ValueIdx
open Cert.Spec (Arr z)

/-- A rank-2 bf16 array at the ideal values. -/
abbrev ArrH (a b : Nat) : Type := FVec Ideal ⟨2, ![a, b]⟩ .bf16

/-- The kernel's first hidden layer of block row `r`, unit `i`: the two half sums, the bias, the rectifier. -/
def kh1 (xl xr : Arr 8192 256) (wl wr : ArrH 32 256) (b1 : Arr 1 32) (r : Fin 8192) (i : Fin 32) : Ideal .f32 :=
  max (((∑ k : Fin 256, xl (ix2 r k) * wl (ix2 i k)) + (∑ k : Fin 256, xr (ix2 r k) * wr (ix2 i k))) + b1 (ix2 0 i)) z

/-- The kernel's second hidden layer of block row `r`, unit `j`. -/
def kh2 (xl xr : Arr 8192 256) (wl wr : ArrH 32 256) (b1 : Arr 1 32) (w2 : Arr 32 128) (b2 : Arr 1 128)
    (r : Fin 8192) (j : Fin 128) : Ideal .f32 :=
  max ((∑ i : Fin 32, kh1 xl xr wl wr b1 r i * w2 (ix2 i j)) + b2 (ix2 0 j)) z

/-- The kernel's third hidden layer of block row `r`, unit `k`, against the transposed third weight matrix. -/
def kh3 (xl xr : Arr 8192 256) (wl wr : ArrH 32 256) (b1 : Arr 1 32) (w2 : Arr 32 128) (b2 : Arr 1 128)
    (w3t : Arr 16 128) (b3 : Arr 1 16) (r : Fin 8192) (k : Fin 16) : Ideal .f32 :=
  max ((∑ j : Fin 128, kh2 xl xr wl wr b1 w2 b2 r j * w3t (ix2 k j)) + b3 (ix2 0 k)) z

/-- The kernel's output of block row `r`, against the transposed last weight vector. -/
def kout (xl xr : Arr 8192 256) (wl wr : ArrH 32 256) (b1 : Arr 1 32) (w2 : Arr 32 128) (b2 : Arr 1 128)
    (w3t : Arr 16 128) (b3 : Arr 1 16) (w4t : Arr 1 16) (b4 : Arr 1 1) (r : Fin 8192) : Ideal .f32 :=
  Ideal.logistic ((∑ k : Fin 16, w4t (ix2 0 k) * kh3 xl xr wl wr b1 w2 b2 w3t b3 r k) + b4 (ix2 0 0))

section Join

variable (x : Arr 32768 512) (w1 : Arr 512 32) (b1 : Arr 1 32) (w2 : Arr 32 128) (b2 : Arr 1 128)
  (w3 : Arr 128 16) (b3 : Arr 1 16) (w4 : Arr 16 1) (b4 : Arr 1 1)
  (xl xr : Arr 8192 256) (wl wr : ArrH 32 256) (w3t : Arr 16 128) (w4t : Arr 1 16)
  (kL kR : Fin 256 → Fin 512) (hL : ∀ k, (kL k).val = k.val) (hR : ∀ k, (kR k).val = 256 + k.val)
  (r : Fin 8192) (ρ : Fin 32768)
  (hxl : ∀ k, xl (ix2 r k) = x (ix2 ρ (kL k))) (hxr : ∀ k, xr (ix2 r k) = x (ix2 ρ (kR k)))
  (hwl : ∀ i k, wl (ix2 i k) = w1 (ix2 (kL k) i)) (hwr : ∀ i k, wr (ix2 i k) = w1 (ix2 (kR k) i))
  (hw3 : ∀ k j, w3t (ix2 k j) = w3 (ix2 j k)) (hw4 : ∀ k, w4t (ix2 0 k) = w4 (ix2 k 0))

include hL hR hxl hxr hwl hwr in
/-- The first layer: block row `r` holds row `ρ` of `x` in two halves, the weight blocks hold the two
    halves of `w1` transposed. -/
theorem kh1_eq (i : Fin 32) : kh1 xl xr wl wr b1 r i = Cert.Spec.h1 x w1 b1 ρ i := by
  unfold kh1 Cert.Spec.h1
  rw [sum_fin_two_parts (show 512 = 256 + 256 from rfl) (fun k => w1 (ix2 k i) * x (ix2 ρ k)) kL kR hL hR]
  refine congrArg (fun s => max (s + b1 (ix2 0 i)) z) (congrArg₂ (· + ·) ?_ ?_)
  · exact Finset.sum_congr rfl fun k _ => by rw [hxl, hwl, mul_comm]
  · exact Finset.sum_congr rfl fun k _ => by rw [hxr, hwr, mul_comm]

include hL hR hxl hxr hwl hwr in
/-- The second layer. -/
theorem kh2_eq (j : Fin 128) : kh2 xl xr wl wr b1 w2 b2 r j = Cert.Spec.h2 x w1 b1 w2 b2 ρ j := by
  unfold kh2 Cert.Spec.h2
  refine congrArg (fun s => max (s + b2 (ix2 0 j)) z) (Finset.sum_congr rfl fun i _ => ?_)
  rw [kh1_eq x w1 b1 xl xr wl wr kL kR hL hR r ρ hxl hxr hwl hwr i, mul_comm]

include hL hR hxl hxr hwl hwr hw3 in
/-- The third layer: the weight block is `w3` transposed. -/
theorem kh3_eq (k : Fin 16) : kh3 xl xr wl wr b1 w2 b2 w3t b3 r k = Cert.Spec.h3 x w1 b1 w2 b2 w3 b3 ρ k := by
  unfold kh3 Cert.Spec.h3
  refine congrArg (fun s => max (s + b3 (ix2 0 k)) z) (Finset.sum_congr rfl fun j _ => ?_)
  rw [kh2_eq x w1 b1 w2 b2 xl xr wl wr kL kR hL hR r ρ hxl hxr hwl hwr j, hw3, mul_comm]

include hL hR hxl hxr hwl hwr hw3 hw4 in
/-- The output: the last weight block is `w4` transposed. -/
theorem kout_eq : kout xl xr wl wr b1 w2 b2 w3t b3 w4t b4 r = Cert.Spec.out x w1 b1 w2 b2 w3 b3 w4 b4 ρ := by
  unfold kout Cert.Spec.out
  refine congrArg (fun s => Ideal.logistic (s + b4 (ix2 0 0))) (Finset.sum_congr rfl fun k _ => ?_)
  rw [kh3_eq x w1 b1 w2 b2 w3 b3 xl xr wl wr w3t kL kR hL hR r ρ hxl hxr hwl hwr hw3 k, hw4, mul_comm]

end Join

end Cert.KernelIdeal.KVal

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.KValLayers.lean ====
/-
  The kernel's arithmetic, read at one entry, at the ideal values.  The body is three rectified affine layers
  and a logistic output layer.  Each hidden layer is a matrix product into a zero accumulator (the first
  layer: two of them, one per half of the columns, added), plus the bias row copied down the 8192 rows,
  then the maximum with a zero scalar copied everywhere.  A change of float format is the identity on
  extended reals and a cast of a shape to itself does nothing, so each layer at `(r, c)` is the maximum of
  zero and a sum over the contracted index plus one bias entry.  The output layer multiplies the transposed
  last weight vector, a single row, against the third hidden layer's rows, adds the one-entry bias and
  applies the logistic function: the result is a single row with one entry per block row.
-/
import proofs.«147910_g2000103882058017_pallasbulk_729_30_alg».proof.Proof.Gen.KernelIdeal.Skeleton
import proofs.«147910_g2000103882058017_pallasbulk_729_30_alg».proof.Proof.KValDots
import proofs.«147910_g2000103882058017_pallasbulk_729_30_alg».proof.Proof.KValForm
import proofs.«147910_g2000103882058017_pallasbulk_729_30_alg».proof.Proof.LibLayout
import Idealize.ShloMosaic.Lib.ValueLayout

noncomputable section

open scoped BigOperators

namespace Cert.KernelIdeal.KVal

open Cert.KernelIdeal.Gen
open Idealize.ShloMosaic Idealize.ShloMosaic.ValueIdx
open Cert.Spec (z)

/-- The rectifier's zero scalar is the specification's threshold. -/
theorem zero_scalar : (Scalar.ofBits (F := Ideal) .f32 0x00000000#32) = z := rfl

/-- The end of a rectified affine layer: an accumulator plus a bias row copied down the rows, then the
    maximum with the zero scalar, read at `(r, c)`. -/
theorem relu_bias_apply {R J : ℕ} (acc : FVec Ideal ⟨2, ![R, J]⟩ .f32) (b : FVec Ideal ⟨2, ![1, J]⟩ .f32)
    (h : (⟨2, ![1, J]⟩ : Shape).Broadcasts ⟨2, ![R, J]⟩) (r : Fin R) (c : Fin J) :
    maximumf (addf acc (broadcastTo ⟨2, ![R, J]⟩ b h))
        (broadcast ⟨2, ![R, J]⟩ (Scalar.ofBits (F := Ideal) .f32 0x00000000#32)) (ix2 r c)
      = max (acc (ix2 r c) + b (ix2 (0 : Fin 1) c)) z := by
  show max (acc (ix2 r c) + broadcastTo ⟨2, ![R, J]⟩ b h (ix2 r c)) z = _
  rw [broadcastTo_1b_ab_apply]

/-- The first hidden layer as the body computes it from the four blocks and the bias. -/
def hid1 (x0 : FVec Ideal S8192x256 .f32) (wa : FVec Ideal S32x256 .bf16) (x1 : FVec Ideal S8192x256 .f32)
    (wb : FVec Ideal S32x256 .bf16) (b1 : FVec Ideal S1x32 .f32) : FVec Ideal S8192x32 .f32 :=
  maximumf
    (addf
      (addf
        (matmul dot_S8192x256_S32x256_S8192x32_1_1_0_0_n_n none (truncf .bf16 x0 bitsLt_bf16_f32)
          (shapeCast S32x256 wa shapeCasts_S32x256_S32x256) (constant S8192x32 .f32 0x00000000#32))
        (matmul dot_S8192x256_S32x256_S8192x32_1_1_0_0_n_n none (truncf .bf16 x1 bitsLt_bf16_f32)
          (shapeCast S32x256 wb shapeCasts_S32x256_S32x256) (constant S8192x32 .f32 0x00000000#32)))
      (broadcastTo S8192x32 b1 broadcasts_S1x32_S8192x32))
    (broadcast S8192x32 (Scalar.ofBits .f32 0x00000000#32))

/-- The second hidden layer from the first. -/
def hid2 (h : FVec Ideal S8192x32 .f32) (w2 : FVec Ideal S32x128 .f32) (b2 : FVec Ideal S1x128 .f32) :
    FVec Ideal S8192x128 .f32 :=
  maximumf
    (addf (matmul dot_S8192x32_S32x128_S8192x128_1_0_0_1_n_n none h w2 (constant S8192x128 .f32 0x00000000#32))
      (broadcastTo S8192x128 b2 broadcasts_S1x128_S8192x128))
    (broadcast S8192x128 (Scalar.ofBits .f32 0x00000000#32))

/-- The third hidden layer from the second. -/
def hid3 (h : FVec Ideal S8192x128 .f32) (w3t : FVec Ideal S16x128 .f32) (b3 : FVec Ideal S1x16 .f32) :
    FVec Ideal S8192x16 .f32 :=
  maximumf
    (addf (matmul dot_S8192x128_S16x128_S8192x16_1_1_0_0_n_n none h (shapeCast S16x128 w3t shapeCasts_S16x128_S16x128)
        (constant S8192x16 .f32 0x00000000#32))
      (broadcastTo S8192x16 b3 broadcasts_S1x16_S8192x16))
    (broadcast S8192x16 (Scalar.ofBits .f32 0x00000000#32))

/-- The body's value before the output layer is the three layers composed. -/
theorem pay2_eq (v0 : Vec Ideal S8192x256 .f32) (v2 : Vec Ideal S32x256 .bf16) (v5 : Vec Ideal S8192x256 .f32)
    (v7 : Vec Ideal S32x256 .bf16) (v11 : Vec Ideal S1x32 .f32) (v16 : Vec Ideal S32x128 .f32)
    (v18 : Vec Ideal S1x128 .f32) (v23 : Vec Ideal S16x128 .f32) (v26 : Vec Ideal S1x16 .f32) :
    k0_pay2 (F := Ideal) v0 v2 v5 v7 v11 v16 v18 v23 v26 = hid3 (hid2 (hid1 v0 v2 v5 v7 v11) v16 v18) v23 v26 := rfl

/-- The first hidden layer at `(r, i)`. -/
theorem hid1_apply (x0 : FVec Ideal S8192x256 .f32) (wa : FVec Ideal S32x256 .bf16) (x1 : FVec Ideal S8192x256 .f32)
    (wb : FVec Ideal S32x256 .bf16) (b1 : FVec Ideal S1x32 .f32) (r : Fin 8192) (i : Fin 32) :
    hid1 x0 wa x1 wb b1 (ix2 r i) = kh1 x0 x1 wa wb b1 r i := by
  unfold hid1 kh1
  refine (relu_bias_apply _ _ _ r i).trans ?_
  refine congrArg (fun s => max (s + b1 (ix2 (0 : Fin 1) i)) z) ?_
  refine (addf_apply _ _ _).trans (congrArg₂ (· + ·) ((dot_x_w1_apply _ _ r i).trans ?_) ((dot_x_w1_apply _ _ r i).trans ?_))
  · exact Finset.sum_congr rfl fun k _ => by rw [shapeCast_self]; rfl
  · exact Finset.sum_congr rfl fun k _ => by rw [shapeCast_self]; rfl

/-- The second hidden layer at `(r, j)`, over any first layer. -/
theorem hid2_apply (h : FVec Ideal S8192x32 .f32) (w2 : FVec Ideal S32x128 .f32) (b2 : FVec Ideal S1x128 .f32)
    (r : Fin 8192) (j : Fin 128) :
    hid2 h w2 b2 (ix2 r j) = max ((∑ i : Fin 32, h (ix2 r i) * w2 (ix2 i j)) + b2 (ix2 (0 : Fin 1) j)) z := by
  unfold hid2
  refine (relu_bias_apply _ _ _ r j).trans ?_
  exact congrArg (fun s => max (s + b2 (ix2 (0 : Fin 1) j)) z) (dot_h1_w2_apply _ _ r j)

/-- The third hidden layer at `(r, k)`, over any second layer. -/
theorem hid3_apply (h : FVec Ideal S8192x128 .f32) (w3t : FVec Ideal S16x128 .f32) (b3 : FVec Ideal S1x16 .f32)
    (r : Fin 8192) (k : Fin 16) :
    hid3 h w3t b3 (ix2 r k) = max ((∑ j : Fin 128, h (ix2 r j) * w3t (ix2 k j)) + b3 (ix2 (0 : Fin 1) k)) z := by
  unfold hid3
  refine (relu_bias_apply _ _ _ r k).trans ?_
  refine congrArg (fun s => max (s + b3 (ix2 (0 : Fin 1) k)) z) ((dot_h2_w3_apply _ _ r k).trans ?_)
  exact Finset.sum_congr rfl fun j _ => by rw [shapeCast_self]

/-- The output layer at `(u, r)`, over any third layer: the logistic function of the weighted sum of row `r`
    plus the bias. -/
theorem pay1_apply (h : FVec Ideal S8192x16 .f32) (w4t : FVec Ideal S1x16 .f32) (b4 : FVec Ideal S1x1 .f32)
    (u : Fin 1) (r : Fin 8192) :
    k0_pay1 (F := Ideal) h w4t b4 (ix2 u r)
      = Ideal.logistic ((∑ k : Fin 16, w4t (ix2 u k) * h (ix2 r k)) + b4 (ix2 u (0 : Fin 1))) := by
  unfold k0_pay1
  show Ideal.logistic (matmul dot_S1x16_S8192x16_S1x8192_1_1_0_0_n_n none (shapeCast S1x16 w4t shapeCasts_S1x16_S1x16) h
      (constant S1x8192 .f32 0x00000000#32) (ix2 u r) + broadcastTo S1x8192 b4 broadcasts_S1x1_S1x8192 (ix2 u r)) = _
  rw [dot_w4_h3_apply, broadcastTo_a1_ab_apply, shapeCast_self]

/-- THE BODY'S VALUE at block row `r`: the kernel's natural form on the eleven blocks. -/
theorem body_apply (x0 : Vec Ideal S8192x256 .f32) (x1 : Vec Ideal S8192x256 .f32) (x2 : Vec Ideal S32x256 .bf16)
    (x3 : Vec Ideal S32x256 .bf16) (x4 : Vec Ideal S1x32 .f32) (x5 : Vec Ideal S32x128 .f32) (x6 : Vec Ideal S1x128 .f32)
    (x7 : Vec Ideal S16x128 .f32) (x8 : Vec Ideal S1x16 .f32) (x9 : Vec Ideal S1x16 .f32) (x10 : Vec Ideal S1x1 .f32)
    (r : Fin 8192) :
    k0_pay1 (F := Ideal) (k0_pay2 x0 x2 x1 x3 x4 x5 x6 x7 x8) x9 x10 (ix2 (0 : Fin 1) r)
      = kout x0 x1 x2 x3 x4 x5 x6 x7 x8 x9 x10 r := by
  rw [pay1_apply, pay2_eq]
  unfold kout kh3 kh2
  simp only [hid3_apply, hid2_apply, hid1_apply]

end Cert.KernelIdeal.KVal

end
-- ==== Proof.KValBlocks.lean ====
/-
  Each input window's block at a grid point, read off the window's array as the region finds it.  A block's
  entry at local coordinates `y` is the array's entry at block index × block size + `y` on every axis.  The
  two windows on `x` take, at point `t`, rows `8192·t … 8192·t + 8191`: window 0 their columns `0 … 255`
  (block column 0), window 1 their columns `256 … 511` (block column 1).  Every other input window has block
  index `(0, 0)` at every point and a block the size of its array: its block is the array.
-/
import proofs.«147910_g2000103882058017_pallasbulk_729_30_alg».proof.Proof.KernelIdealBody
import Idealize.ShloMosaic.Lib.ValueIdx

set_option maxRecDepth 16384

noncomputable section

namespace Cert.KernelIdeal.KVal

open Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-! ## The printed index maps, decided over the four grid points -/

/-- The two windows on `x` move down the rows with the point; window 0 stays on block column 0, window 1 on
    block column 1. -/
theorem idx_x : ∀ t : Fin cfg0.N,
    win0_0.index t (0 : Fin 2) = t.val ∧ win0_0.index t (1 : Fin 2) = 0
    ∧ win0_1.index t (0 : Fin 2) = t.val ∧ win0_1.index t (1 : Fin 2) = 1 :=
  (by decide +kernel : ∀ t : Fin grid0.N, _)

theorem idx_whole2 : ∀ t : Fin cfg0.N, win0_2.index t (0 : Fin 2) = 0 ∧ win0_2.index t (1 : Fin 2) = 0 :=
  (by decide +kernel : ∀ t : Fin grid0.N, _)
theorem idx_whole3 : ∀ t : Fin cfg0.N, win0_3.index t (0 : Fin 2) = 0 ∧ win0_3.index t (1 : Fin 2) = 0 :=
  (by decide +kernel : ∀ t : Fin grid0.N, _)
theorem idx_whole4 : ∀ t : Fin cfg0.N, win0_4.index t (0 : Fin 2) = 0 ∧ win0_4.index t (1 : Fin 2) = 0 :=
  (by decide +kernel : ∀ t : Fin grid0.N, _)
theorem idx_whole5 : ∀ t : Fin cfg0.N, win0_5.index t (0 : Fin 2) = 0 ∧ win0_5.index t (1 : Fin 2) = 0 :=
  (by decide +kernel : ∀ t : Fin grid0.N, _)
theorem idx_whole6 : ∀ t : Fin cfg0.N, win0_6.index t (0 : Fin 2) = 0 ∧ win0_6.index t (1 : Fin 2) = 0 :=
  (by decide +kernel : ∀ t : Fin grid0.N, _)
theorem idx_whole7 : ∀ t : Fin cfg0.N, win0_7.index t (0 : Fin 2) = 0 ∧ win0_7.index t (1 : Fin 2) = 0 :=
  (by decide +kernel : ∀ t : Fin grid0.N, _)
theorem idx_whole8 : ∀ t : Fin cfg0.N, win0_8.index t (0 : Fin 2) = 0 ∧ win0_8.index t (1 : Fin 2) = 0 :=
  (by decide +kernel : ∀ t : Fin grid0.N, _)
theorem idx_whole9 : ∀ t : Fin cfg0.N, win0_9.index t (0 : Fin 2) = 0 ∧ win0_9.index t (1 : Fin 2) = 0 :=
  (by decide +kernel : ∀ t : Fin grid0.N, _)
theorem idx_whole10 : ∀ t : Fin cfg0.N, win0_10.index t (0 : Fin 2) = 0 ∧ win0_10.index t (1 : Fin 2) = 0 :=
  (by decide +kernel : ∀ t : Fin grid0.N, _)

/-! ## The blocks of `x` -/

/-- Window 0 at point `t`, local `(r, k)`: row `8192·t + r`, column `k` of `x`. -/
theorem blk0_apply (c : Dev nD) (t : Fin cfg0.N) (r : Fin 8192) (k : Fin 256) (ρ : Fin 32768) (κ : Fin 512)
    (hρ : ρ.val = t.val * 8192 + r.val) (hκ : κ.val = k.val) :
    iblk m c 0 t (ix2 r k) = V m c main_arg0 (ix2 ρ κ) := by
  show V m c main_arg0 (((cfg0.win 0).blk t).view.emb (ix2 r k)) = V m c main_arg0 (ix2 ρ κ)
  obtain ⟨e0, e1, -, -⟩ := idx_x t
  refine congrArg _ (funext fun a => Fin.ext ?_)
  match a with
  | ⟨0, _⟩ => show win0_0.index t (0 : Fin 2) * 8192 + 1 * r.val = ρ.val; omega
  | ⟨1, _⟩ => show win0_0.index t (1 : Fin 2) * 256 + 1 * k.val = κ.val; omega

/-- Window 1 at point `t`, local `(r, k)`: row `8192·t + r`, column `256 + k` of `x`. -/
theorem blk1_apply (c : Dev nD) (t : Fin cfg0.N) (r : Fin 8192) (k : Fin 256) (ρ : Fin 32768) (κ : Fin 512)
    (hρ : ρ.val = t.val * 8192 + r.val) (hκ : κ.val = 256 + k.val) :
    iblk m c 1 t (ix2 r k) = V m c main_arg0 (ix2 ρ κ) := by
  show V m c main_arg0 (((cfg0.win 1).blk t).view.emb (ix2 r k)) = V m c main_arg0 (ix2 ρ κ)
  obtain ⟨-, -, e0, e1⟩ := idx_x t
  refine congrArg _ (funext fun a => Fin.ext ?_)
  match a with
  | ⟨0, _⟩ => show win0_1.index t (0 : Fin 2) * 8192 + 1 * r.val = ρ.val; omega
  | ⟨1, _⟩ => show win0_1.index t (1 : Fin 2) * 256 + 1 * k.val = κ.val; omega

/-! ## The windows that take their whole array -/

/-- Window 2 takes its whole array at every point. -/
theorem blk2_apply (c : Dev nD) (t : Fin cfg0.N) (y : S32x256.Idx) : iblk m c 2 t y = V m c main_call0_v2 y := by
  show V m c main_call0_v2 (((cfg0.win 2).blk t).view.emb y) = V m c main_call0_v2 y
  obtain ⟨e0, e1⟩ := idx_whole2 t
  refine congrArg _ (funext fun a => Fin.ext ?_)
  match a with
  | ⟨0, _⟩ => show win0_2.index t (0 : Fin 2) * 32 + 1 * (y 0).val = (y 0).val; omega
  | ⟨1, _⟩ => show win0_2.index t (1 : Fin 2) * 256 + 1 * (y 1).val = (y 1).val; omega

/-- Window 3 takes its whole array at every point. -/
theorem blk3_apply (c : Dev nD) (t : Fin cfg0.N) (y : S32x256.Idx) : iblk m c 3 t y = V m c main_call0_v5 y := by
  show V m c main_call0_v5 (((cfg0.win 3).blk t).view.emb y) = V m c main_call0_v5 y
  obtain ⟨e0, e1⟩ := idx_whole3 t
  refine congrArg _ (funext fun a => Fin.ext ?_)
  match a with
  | ⟨0, _⟩ => show win0_3.index t (0 : Fin 2) * 32 + 1 * (y 0).val = (y 0).val; omega
  | ⟨1, _⟩ => show win0_3.index t (1 : Fin 2) * 256 + 1 * (y 1).val = (y 1).val; omega

/-- Window 4 takes its whole array at every point. -/
theorem blk4_apply (c : Dev nD) (t : Fin cfg0.N) (y : S1x32.Idx) : iblk m c 4 t y = V m c main_arg2 y := by
  show V m c main_arg2 (((cfg0.win 4).blk t).view.emb y) = V m c main_arg2 y
  obtain ⟨e0, e1⟩ := idx_whole4 t
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 32 + 1 * (y 1).val = (y 1).val; omega

/-- Window 5 takes its whole array at every point. -/
theorem blk5_apply (c : Dev nD) (t : Fin cfg0.N) (y : S32x128.Idx) : iblk m c 5 t y = V m c main_arg3 y := by
  show V m c main_arg3 (((cfg0.win 5).blk t).view.emb y) = V m c main_arg3 y
  obtain ⟨e0, e1⟩ := idx_whole5 t
  refine congrArg _ (funext fun a => Fin.ext ?_)
  match a with
  | ⟨0, _⟩ => show win0_5.index t (0 : Fin 2) * 32 + 1 * (y 0).val = (y 0).val; omega
  | ⟨1, _⟩ => show win0_5.index t (1 : Fin 2) * 128 + 1 * (y 1).val = (y 1).val; omega

/-- Window 6 takes its whole array at every point. -/
theorem blk6_apply (c : Dev nD) (t : Fin cfg0.N) (y : S1x128.Idx) : iblk m c 6 t y = V m c main_arg4 y := by
  show V m c main_arg4 (((cfg0.win 6).blk t).view.emb y) = V m c main_arg4 y
  obtain ⟨e0, e1⟩ := idx_whole6 t
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7 takes its whole array at every point. -/
theorem blk7_apply (c : Dev nD) (t : Fin cfg0.N) (y : S16x128.Idx) : iblk m c 7 t y = V m c main_call0_v6 y := by
  show V m c main_call0_v6 (((cfg0.win 7).blk t).view.emb y) = V m c main_call0_v6 y
  obtain ⟨e0, e1⟩ := idx_whole7 t
  refine congrArg _ (funext fun a => Fin.ext ?_)
  match a with
  | ⟨0, _⟩ => show win0_7.index t (0 : Fin 2) * 16 + 1 * (y 0).val = (y 0).val; omega
  | ⟨1, _⟩ => show win0_7.index t (1 : Fin 2) * 128 + 1 * (y 1).val = (y 1).val; omega

/-- Window 8 takes its whole array at every point. -/
theorem blk8_apply (c : Dev nD) (t : Fin cfg0.N) (y : S1x16.Idx) : iblk m c 8 t y = V m c main_arg6 y := by
  show V m c main_arg6 (((cfg0.win 8).blk t).view.emb y) = V m c main_arg6 y
  obtain ⟨e0, e1⟩ := idx_whole8 t
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 16 + 1 * (y 1).val = (y 1).val; omega

/-- Window 9 takes its whole array at every point. -/
theorem blk9_apply (c : Dev nD) (t : Fin cfg0.N) (y : S1x16.Idx) : iblk m c 9 t y = V m c main_call0_v7 y := by
  show V m c main_call0_v7 (((cfg0.win 9).blk t).view.emb y) = V m c main_call0_v7 y
  obtain ⟨e0, e1⟩ := idx_whole9 t
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 16 + 1 * (y 1).val = (y 1).val; omega

/-- Window 10 takes its whole array at every point. -/
theorem blk10_apply (c : Dev nD) (t : Fin cfg0.N) (y : S1x1.Idx) : iblk m c 10 t y = V m c main_arg8 y := by
  show V m c main_arg8 (((cfg0.win 10).blk t).view.emb y) = V m c main_arg8 y
  obtain ⟨e0, e1⟩ := idx_whole10 t
  refine congrArg _ (funext fun a => Fin.ext ?_)
  match a with
  | ⟨0, _⟩ => show win0_10.index t (0 : Fin 2) * 1 + 1 * (y 0).val = (y 0).val; omega
  | ⟨1, _⟩ => show win0_10.index t (1 : Fin 2) * 1 + 1 * (y 1).val = (y 1).val; omega

end Cert.KernelIdeal.KVal

end
-- ==== Proof.KValHost.lean ====
/-
  The arrays the kernel's windows read, as the region finds them, in terms of the program's arguments.
  No host operation writes an argument, so an argument's array is the argument.  The two arrays of the first
  weight matrix are its upper and lower 256 rows, each transposed (and rounded to bf16, which is the identity
  at the ideal values): entry `(i, k)` is `w1 (k, i)`, respectively `w1 (256 + k, i)`.  The third and fourth
  weight matrices are passed transposed.
-/
import proofs.«147910_g2000103882058017_pallasbulk_729_30_alg».proof.Proof.KernelIdealBody
import Idealize.ShloMosaic.Lib.ValueLayout

set_option maxRecDepth 16384

noncomputable section

namespace Cert.KernelIdeal.KVal

open Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-! ## Arguments: written by no host operation -/

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, Finset.mem_singleton]
    repeat' apply And.intro
    all_goals exact StableHlo.devRef_ne_of_ne (by decide)))
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, Finset.mem_singleton]
    repeat' apply And.intro
    all_goals exact StableHlo.devRef_ne_of_ne (by decide)))

/-! ## The arrays the host operations lay out -/

/-- The upper 256 rows of the first weight matrix, transposed. -/
theorem V_w1_upper (c : Dev nD) : (V m c main_call0_v2 : S32x256.Idx → Ideal .bf16)
    = truncf (F := Ideal) .bf16 (transpose S32x256 [1, 0] (extractStridedSlice S256x32 ![0, 0]
        (m ((c : Thread nD τ).loc main_arg1) : S512x32.Idx → Ideal .f32) slices_S512x32_S256x32_0_0)
        transposes_S256x32_S32x256_1_0) bitsLt_bf16_f32 := by
  show StableHlo.after hostOps0 (fun b => m (c, b)) (Proc.devRef .tc main_call0_v2) = _
  after_results
  rfl

/-- The lower 256 rows of the first weight matrix, transposed. -/
theorem V_w1_lower (c : Dev nD) : (V m c main_call0_v5 : S32x256.Idx → Ideal .bf16)
    = truncf (F := Ideal) .bf16 (transpose S32x256 [1, 0] (extractStridedSlice S256x32 ![256, 0]
        (m ((c : Thread nD τ).loc main_arg1) : S512x32.Idx → Ideal .f32) slices_S512x32_S256x32_256_0)
        transposes_S256x32_S32x256_1_0) bitsLt_bf16_f32 := by
  show StableHlo.after hostOps0 (fun b => m (c, b)) (Proc.devRef .tc main_call0_v5) = _
  after_results
  rfl

/-- The third weight matrix, transposed. -/
theorem V_w3 (c : Dev nD) : (V m c main_call0_v6 : S16x128.Idx → Ideal .f32)
    = transpose S16x128 [1, 0] (m ((c : Thread nD τ).loc main_arg5) : S128x16.Idx → Ideal .f32)
        transposes_S128x16_S16x128_1_0 := by
  show StableHlo.after hostOps0 (fun b => m (c, b)) (Proc.devRef .tc main_call0_v6) = _
  after_results
  rfl

/-- The last weight column, transposed into a row. -/
theorem V_w4 (c : Dev nD) : (V m c main_call0_v7 : S1x16.Idx → Ideal .f32)
    = transpose S1x16 [1, 0] (m ((c : Thread nD τ).loc main_arg7) : S16x1.Idx → Ideal .f32)
        transposes_S16x1_S1x16_1_0 := by
  show StableHlo.after hostOps0 (fun b => m (c, b)) (Proc.devRef .tc main_call0_v7) = _
  after_results
  rfl

/-! ## The same, at an entry -/

theorem V_w1_upper_apply (c : Dev nD) (i : Fin 32) (k : Fin 256) (κ : Fin 512) (hκ : κ.val = k.val) :
    (V m c main_call0_v2 : S32x256.Idx → Ideal .bf16) (ix2 i k)
      = (m ((c : Thread nD τ).loc main_arg1) : S512x32.Idx → Ideal .f32) (ix2 κ i) := by
  rw [V_w1_upper]
  refine (truncf_apply (φ := .f32) (ψ := .bf16) _ bitsLt_bf16_f32 (ix2 i k)).trans ((transpose_ix2_apply _ _ i k).trans ?_)
  exact slice2_axis0_apply 0 _ _ k i κ (by omega)

theorem V_w1_lower_apply (c : Dev nD) (i : Fin 32) (k : Fin 256) (κ : Fin 512) (hκ : κ.val = 256 + k.val) :
    (V m c main_call0_v5 : S32x256.Idx → Ideal .bf16) (ix2 i k)
      = (m ((c : Thread nD τ).loc main_arg1) : S512x32.Idx → Ideal .f32) (ix2 κ i) := by
  rw [V_w1_lower]
  refine (truncf_apply (φ := .f32) (ψ := .bf16) _ bitsLt_bf16_f32 (ix2 i k)).trans ((transpose_ix2_apply _ _ i k).trans ?_)
  exact slice2_axis0_apply 256 _ _ k i κ hκ

theorem V_w3_apply (c : Dev nD) (k : Fin 16) (j : Fin 128) :
    (V m c main_call0_v6 : S16x128.Idx → Ideal .f32) (ix2 k j)
      = (m ((c : Thread nD τ).loc main_arg5) : S128x16.Idx → Ideal .f32) (ix2 j k) := by
  rw [V_w3]
  exact transpose_ix2_apply _ _ k j

theorem V_w4_apply (c : Dev nD) (u : Fin 1) (k : Fin 16) :
    (V m c main_call0_v7 : S1x16.Idx → Ideal .f32) (ix2 u k)
      = (m ((c : Thread nD τ).loc main_arg7) : S16x1.Idx → Ideal .f32) (ix2 k u) := by
  rw [V_w4]
  exact transpose_ix2_apply _ _ u k

end Cert.KernelIdeal.KVal

end
-- ==== Proof.KValPoint.lean ====
/-
  What one grid point leaves in the output's staging buffer, as a function of the program's arguments.  The
  body's single store covers the buffer, and its loads read their whole buffers, so the buffer holds the
  body's arithmetic of the eleven blocks.  At point `t` the two blocks of `x` are rows `8192·t … 8192·t + 8191`
  in two column halves and the weight blocks are the (transposed, halved) weight matrices, so entry `(0, r)`
  is the specification's output for row `8192·t + r`.
-/
import proofs.«147910_g2000103882058017_pallasbulk_729_30_alg».proof.Proof.KValLayers
import proofs.«147910_g2000103882058017_pallasbulk_729_30_alg».proof.Proof.KValBlocks
import proofs.«147910_g2000103882058017_pallasbulk_729_30_alg».proof.Proof.KValHost

set_option maxRecDepth 16384

noncomputable section

namespace Cert.KernelIdeal.KVal

open Cert.KernelIdeal.Gen Cert.KernelIdeal.Hand
open Idealize.ShloMosaic Idealize.ShloMosaic.TcCoe Idealize.ShloMosaic.ValueIdx Idealize.SL.Sem
open Cert.Spec (Arr)

/-- The zero offsets of a whole-buffer access. -/
theorem hz : (![0, 0] : Fin 2 → Nat) = fun _ => 0 := funext fun a => by fin_cases a <;> rfl

/-- The buffer after the body is the body's arithmetic of the blocks. -/
theorem out11_eq (x0 : Vec Ideal S8192x256 .f32) (x1 : Vec Ideal S8192x256 .f32) (x2 : Vec Ideal S32x256 .bf16)
    (x3 : Vec Ideal S32x256 .bf16) (x4 : Vec Ideal S1x32 .f32) (x5 : Vec Ideal S32x128 .f32) (x6 : Vec Ideal S1x128 .f32)
    (x7 : Vec Ideal S16x128 .f32) (x8 : Vec Ideal S1x16 .f32) (x9 : Vec Ideal S1x16 .f32) (x10 : Vec Ideal S1x1 .f32) :
    out11 (F := Ideal) x0 x1 x2 x3 x4 x5 x6 x7 x8 x9 x10
      = k0_pay1 (F := Ideal) (k0_pay2 x0 x2 x1 x3 x4 x5 x6 x7 x8) x9 x10 := by
  unfold out11
  rw [View.canon_unit_zero hz]
  simp only [View.ld_unit_zero (S := S8192x256) hz, View.ld_unit_zero (S := S32x256) hz, View.ld_unit_zero (S := S1x32) hz,
    View.ld_unit_zero (S := S32x128) hz, View.ld_unit_zero (S := S1x128) hz, View.ld_unit_zero (S := S16x128) hz,
    View.ld_unit_zero (S := S1x16) hz, View.ld_unit_zero (S := S1x1) hz]

/-- Its entry `(u, r)` is the kernel's form of block row `r`. -/
theorem out11_apply (x0 : Vec Ideal S8192x256 .f32) (x1 : Vec Ideal S8192x256 .f32) (x2 : Vec Ideal S32x256 .bf16)
    (x3 : Vec Ideal S32x256 .bf16) (x4 : Vec Ideal S1x32 .f32) (x5 : Vec Ideal S32x128 .f32) (x6 : Vec Ideal S1x128 .f32)
    (x7 : Vec Ideal S16x128 .f32) (x8 : Vec Ideal S1x16 .f32) (x9 : Vec Ideal S1x16 .f32) (x10 : Vec Ideal S1x1 .f32)
    (u : Fin 1) (r : Fin 8192) :
    out11 (F := Ideal) x0 x1 x2 x3 x4 x5 x6 x7 x8 x9 x10 (ix2 u r) = kout x0 x1 x2 x3 x4 x5 x6 x7 x8 x9 x10 r := by
  obtain rfl : u = 0 := Subsingleton.elim _ _
  rw [out11_eq]
  exact body_apply x0 x1 x2 x3 x4 x5 x6 x7 x8 x9 x10 r

/-- The kernel's form equals the specification's output when the blocks that are whole arrays ARE those arrays. -/
theorem kout_eq_of_blocks (x : Arr 32768 512) (w1 : Arr 512 32) (b1 : Arr 1 32) (w2 : Arr 32 128) (b2 : Arr 1 128)
    (w3 : Arr 128 16) (b3 : Arr 1 16) (w4 : Arr 16 1) (b4 : Arr 1 1)
    (xl xr : Arr 8192 256) (wl wr : ArrH 32 256) (b1' : Arr 1 32) (w2' : Arr 32 128) (b2' : Arr 1 128)
    (w3t : Arr 16 128) (b3' : Arr 1 16) (w4t : Arr 1 16) (b4' : Arr 1 1)
    (kL kR : Fin 256 → Fin 512) (hL : ∀ k, (kL k).val = k.val) (hR : ∀ k, (kR k).val = 256 + k.val)
    (r : Fin 8192) (ρ : Fin 32768)
    (hxl : ∀ k, xl (ix2 r k) = x (ix2 ρ (kL k))) (hxr : ∀ k, xr (ix2 r k) = x (ix2 ρ (kR k)))
    (hwl : ∀ i k, wl (ix2 i k) = w1 (ix2 (kL k) i)) (hwr : ∀ i k, wr (ix2 i k) = w1 (ix2 (kR k) i))
    (hb1 : b1' = b1) (hw2 : w2' = w2) (hb2 : b2' = b2)
    (hw3 : ∀ k j, w3t (ix2 k j) = w3 (ix2 j k)) (hb3 : b3' = b3)
    (hw4 : ∀ k, w4t (ix2 0 k) = w4 (ix2 k 0)) (hb4 : b4' = b4) :
    kout xl xr wl wr b1' w2' b2' w3t b3' w4t b4' r = Cert.Spec.out x w1 b1 w2 b2 w3 b3 w4 b4 ρ := by
  subst hb1 hw2 hb2 hb3 hb4
  exact kout_eq x w1 b1' w2' b2' w3 b3' w4 b4' xl xr wl wr w3t w4t kL kR hL hR r ρ hxl hxr hwl hwr hw3 hw4

/-- Column `k` of the left half and column `256 + k` of the right half, as columns of `x`. -/
def colL (k : Fin 256) : Fin 512 := ⟨k.val, by omega⟩
def colR (k : Fin 256) : Fin 512 := ⟨256 + k.val, by omega⟩

variable (m : (ℓ : Loc nD τ sig) → Buf (Elt Ideal) ℓ)

/-- WHAT POINT `t` LEAVES at entry `(u, r)` of the output's buffer: the specification's output of row
    `8192·t + r` of `x`. -/
theorem point_out (c : Dev nD) (t : Fin cfg0.N) (u : Fin 1) (r : Fin 8192) (ρ : Fin 32768) (hρ : ρ.val = t.val * 8192 + r.val) :
    out11 (F := Ideal) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (ix2 u r)
      = Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) ρ := by
  refine (out11_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) u r).trans ?_
  refine kout_eq_of_blocks (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8))
    (iblk m c 0 t) (iblk m c 1 t) (iblk m c 2 t) (iblk m c 3 t) (iblk m c 4 t) (iblk m c 5 t) (iblk m c 6 t)
    (iblk m c 7 t) (iblk m c 8 t) (iblk m c 9 t) (iblk m c 10 t)
    colL colR (fun _ => rfl) (fun _ => rfl) r ρ ?_ ?_ ?_ ?_ ?_ ?_ ?_ ?_ ?_ ?_ ?_
  · exact fun k => (blk0_apply m c t r k ρ (colL k) hρ rfl).trans (congrFun (V_arg0 m c) _)
  · exact fun k => (blk1_apply m c t r k ρ (colR k) hρ rfl).trans (congrFun (V_arg0 m c) _)
  · exact fun i k => (blk2_apply m c t (ix2 i k)).trans (V_w1_upper_apply m c i k (colL k) rfl)
  · exact fun i k => (blk3_apply m c t (ix2 i k)).trans (V_w1_lower_apply m c i k (colR k) rfl)
  · exact funext fun y => (blk4_apply m c t y).trans (congrFun (V_arg2 m c) y)
  · exact funext fun y => (blk5_apply m c t y).trans (congrFun (V_arg3 m c) y)
  · exact funext fun y => (blk6_apply m c t y).trans (congrFun (V_arg4 m c) y)
  · exact fun k j => (blk7_apply m c t (ix2 k j)).trans (V_w3_apply m c k j)
  · exact funext fun y => (blk8_apply m c t y).trans (congrFun (V_arg6 m c) y)
  · exact fun k => (blk9_apply m c t (ix2 0 k)).trans (V_w4_apply m c 0 k)
  · exact funext fun y => (blk10_apply m c t y).trans (congrFun (V_arg8 m c) y)

end Cert.KernelIdeal.KVal

end
-- ==== Proof.KValArray.lean ====
/-
  The kernel's result array after the four grid points.  Point `t` writes block `(0, t)` of the [1, 32768]
  array: columns `8192·t … 8192·t + 8191` of its one row, and what it writes at column `8192·t + r` is the
  specification's output of row `8192·t + r` of `x`.  So every point writes the restriction to its block of ONE
  row, the row of all 32768 outputs; column `j` lies in the block of point `j / 8192`, so the four blocks
  cover the array, and the array ends as that row.
-/
import proofs.«147910_g2000103882058017_pallasbulk_729_30_alg».proof.Proof.KValPoint
import Idealize.ShloMosaic.Lib.Pipeline.Value

set_option maxRecDepth 16384

noncomputable section

namespace Cert.KernelIdeal.KVal

open Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The row of all outputs: column `j` is the specification's output of row `j` of `x`. -/
def outRow (c : Dev nD) : S1x32768.Idx → Ideal .f32 := fun i =>
  Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (i 1)

/-- The output window's block index at point `t` is `(0, t)` (decided over the four points). -/
theorem idx_out : ∀ t : Fin cfg0.N, win0_11.index t (0 : Fin 2) = 0 ∧ win0_11.index t (1 : Fin 2) = t.val :=
  (by decide +kernel : ∀ t : Fin grid0.N, _)

/-- WHAT POINT `t` WRITES BACK is block `t` of the row of outputs. -/
theorem flushed_eq (c : Dev nD) (t : Fin cfg0.N) :
    (dats m 0 c).flushed 11 t = ((cfg0.win 11).blk t).view.read (Elt Ideal) (outRow m c) := by
  show (cfg0.win 11).cut (grid0.coords t) ((dats m 0 c).after 11 t) = _
  rw [after_11]
  funext y
  obtain ⟨u, r, rfl⟩ : ∃ (u : Fin 1) (r : Fin 8192), y = ix2 u r := ⟨y 0, y 1, eq_ix2 (n0 := 1) (n1 := 8192) y⟩
  show out11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 u r)
    = outRow m c (((cfg0.win 11).blk t).view.emb (ix2 u r))
  refine point_out m c t u r _ ?_
  obtain ⟨-, e1⟩ := idx_out t
  show win0_11.index t (1 : Fin 2) * 8192 + 1 * r.val = t.val * 8192 + r.val
  omega

/-- An index of the array is in point `t`'s block iff each coordinate is in the block's range on its axis. -/
theorem mem_blk (t : Fin cfg0.N) (i : S1x32768.Idx) :
    i ∈ ((cfg0.win 11).blk t).view.set ↔ ∀ a : Fin 2, win0_11.index t a * S1x8192.size a ≤ (i a).val
      ∧ (i a).val < win0_11.index t a * S1x8192.size a + S1x8192.size a := by
  show i ∈ ((View.whole main_call0_v8).slice (win0_11.rect t)).set ↔ _
  rw [View.set_slice_whole, Rect.mem_set_unit]
  exact Iff.rfl

/-- Every column lies in the block of the point `column / 8192`, and every point writes back. -/
theorem cover (i : S1x32768.Idx) :
    ∃ t : Fin cfg0.N, (cfg0.win 11).flush t = true ∧ i ∈ ((cfg0.win 11).blk t).view.set := by
  have hi0 : (i 0).val < 1 := (i 0).isLt
  have hi1 : (i 1).val < 32768 := (i 1).isLt
  have hN : cfg0.N = 4 := N_0
  obtain ⟨t, ht⟩ : ∃ t : Fin cfg0.N, t.val = (i 1).val / 8192 := ⟨⟨(i 1).val / 8192, by omega⟩, rfl⟩
  refine ⟨t, flush0_11 t, ?_⟩
  rw [mem_blk]
  obtain ⟨e0, e1⟩ := idx_out t
  intro a
  match a with
  | ⟨0, _⟩ =>
    show win0_11.index t (0 : Fin 2) * 1 ≤ (i 0).val ∧ (i 0).val < win0_11.index t (0 : Fin 2) * 1 + 1
    omega
  | ⟨1, _⟩ =>
    show win0_11.index t (1 : Fin 2) * 8192 ≤ (i 1).val ∧ (i 1).val < win0_11.index t (1 : Fin 2) * 8192 + 8192
    omega

/-- THE RESULT ARRAY after the region: the row of all outputs. -/
theorem out_array (c : Dev nD) : (dats m 0 c).arrAt 11 cfg0.N = outRow m c :=
  (dats m 0 c).arrAt_eq_of_cover 11 (outRow m c) (fun t _ => flushed_eq m c t) (cover)

end Cert.KernelIdeal.KVal

end
-- ==== Proof.KValResult.lean ====
/-
  The kernel program's result at the ideal values is the specification's function of the nine arguments.
  After the region the [1, 32768] result array is the row of all outputs; the two reshapes that follow lay the
  same 32768 numbers out, in the same order, first as a vector and then as a column, so entry `(r, 0)` of the
  final [32768, 1] array is the row's entry `(0, r)`: the specification's output of row `r` of `x`.
-/
import proofs.«147910_g2000103882058017_pallasbulk_729_30_alg».proof.Proof.KernelIdealTail
import proofs.«147910_g2000103882058017_pallasbulk_729_30_alg».proof.Proof.KValArray
import proofs.«147910_g2000103882058017_pallasbulk_729_30_alg».proof.Proof.Spec

set_option maxRecDepth 16384

noncomputable section

namespace Cert.KernelIdeal.KVal

open Cert.KernelIdeal.Gen Cert.KernelIdeal.Hand
open Idealize.ShloMosaic Idealize.ShloMosaic.TcCoe Idealize.ShloMosaic.ValueIdx Idealize.SL.Sem

theorem result_eq (m : (ℓ : Loc Cert.KernelIdeal.nD Cert.KernelIdeal.τ Cert.KernelIdeal.sig) → Buf (Elt Ideal) ℓ)
    (c : Dev Cert.KernelIdeal.nD) :
    Cert.KernelIdeal.Hand.W3 (F := Ideal) m c (Proc.devRef .tc Cert.KernelIdeal.main_v0)
      = Cert.Spec.G (m ((c.tc : Thread _ _).loc Cert.KernelIdeal.main_arg0)) (m ((c.tc : Thread _ _).loc Cert.KernelIdeal.main_arg1))
          (m ((c.tc : Thread _ _).loc Cert.KernelIdeal.main_arg2)) (m ((c.tc : Thread _ _).loc Cert.KernelIdeal.main_arg3))
          (m ((c.tc : Thread _ _).loc Cert.KernelIdeal.main_arg4)) (m ((c.tc : Thread _ _).loc Cert.KernelIdeal.main_arg5))
          (m ((c.tc : Thread _ _).loc Cert.KernelIdeal.main_arg6)) (m ((c.tc : Thread _ _).loc Cert.KernelIdeal.main_arg7))
          (m ((c.tc : Thread _ _).loc Cert.KernelIdeal.main_arg8)) := by
  funext j
  obtain ⟨r, u, rfl⟩ : ∃ (r : Fin 32768) (u : Fin 1), j = ix2 r u := ⟨j 0, j 1, eq_ix2 (n0 := 32768) (n1 := 1) j⟩
  obtain rfl : u = 0 := Subsingleton.elim _ _
  rw [W3_v0 m c r, out_array m c]
  rfl

end Cert.KernelIdeal.KVal

end
-- ==== Proof.LibScatterSet.lean ====
/-
  A scatter read at one element when at most one update lands on it.

  The host scatter is the left fold, over the update positions in row-major order, of the step "if the
  update's result index is inside the operand, replace the element there by the body applied to the old element
  and the update".  An element of the operand is therefore changed only by the updates whose result index is
  that element.  If no update lands on an element, it keeps the operand's value; if exactly one update does,
  the element ends at the body applied to the operand's value and that update, whatever the body is: the
  updates before and after it leave the element alone.  This is the case of `x.at[window].set(v)` (the body
  returns the update) with a window of distinct positions, and of any scatter with pairwise distinct result
  indices.
-/
import Idealize.ShloMosaic.PureOps.ShapeOps

namespace Idealize.ShloMosaic.ScatterSet

open Idealize.ShloMosaic

variable {α : Type} {s si u : Shape} {w : Nat}

/-- One step of the scatter's fold at update position `n`. -/
def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- The scatter is the fold of `step`. -/
theorem scatter_eq_foldl (d : ScatterDims s si u) (f : α → α → α) (x : s.Idx → α) (idx : IVec si w)
    (upd : u.Idx → α) :
    Host.scatter d f x idx upd = (List.finRange u.numel).foldl (step d f idx upd) x := rfl

/-- A step whose update does not land on `i` leaves the element at `i` alone. -/
theorem step_of_ne (d : ScatterDims s si u) (f : α → α → α) (idx : IVec si w) (upd : u.Idx → α)
    (r : s.Idx → α) (n : Fin u.numel) (i : s.Idx)
    (h : d.resultIdx? (u.rowMajor.symm n) idx ≠ some i) : step d f idx upd r n i = r i := by
  unfold step
  generalize d.resultIdx? (u.rowMajor.symm n) idx = o at h ⊢
  cases o with
  | none => rfl
  | some i0 =>
    show (if i = i0 then _ else r i) = r i
    rw [if_neg]
    intro e
    exact h (by rw [e])

/-- A step whose update lands on `i` applies the body there. -/
theorem step_of_eq (d : ScatterDims s si u) (f : α → α → α) (idx : IVec si w) (upd : u.Idx → α)
    (r : s.Idx → α) (n : Fin u.numel) (i : s.Idx)
    (h : d.resultIdx? (u.rowMajor.symm n) idx = some i) :
    step d f idx upd r n i = f (r i) (upd (u.rowMajor.symm n)) := by
  unfold step
  rw [h]
  show (if i = i then _ else r i) = _
  rw [if_pos rfl]

/-- Positions none of which lands on `i` leave the element at `i` alone. -/
theorem foldl_of_miss (d : ScatterDims s si u) (f : α → α → α) (idx : IVec si w) (upd : u.Idx → α) (i : s.Idx) :
    ∀ (L : List (Fin u.numel)) (r : s.Idx → α),
      (∀ n ∈ L, d.resultIdx? (u.rowMajor.symm n) idx ≠ some i) → L.foldl (step d f idx upd) r i = r i
  | [], _, _ => rfl
  | n :: L, r, h => by
    rw [List.foldl_cons, foldl_of_miss d f idx upd i L _ (fun n' hn' => h n' (List.mem_cons_of_mem _ hn'))]
    exact step_of_ne d f idx upd r n i (h n List.mem_cons_self)

/-- Distinct positions exactly one of which, `n0`, lands on `i`: the element ends at the body applied to what it
    held and that position's update. -/
theorem foldl_of_unique (d : ScatterDims s si u) (f : α → α → α) (idx : IVec si w) (upd : u.Idx → α) (i : s.Idx)
    (n0 : Fin u.numel) (h0 : d.resultIdx? (u.rowMajor.symm n0) idx = some i) :
    ∀ (L : List (Fin u.numel)) (r : s.Idx → α), L.Nodup → n0 ∈ L →
      (∀ n ∈ L, d.resultIdx? (u.rowMajor.symm n) idx = some i → n = n0) →
      L.foldl (step d f idx upd) r i = f (r i) (upd (u.rowMajor.symm n0))
  | [], _, _, hm, _ => absurd hm List.not_mem_nil
  | n :: L, r, hnd, hm, hu => by
    rw [List.foldl_cons]
    have hnd' := List.nodup_cons.mp hnd
    by_cases e : n = n0
    · subst e
      rw [foldl_of_miss d f idx upd i L _ (fun n' hn' hr => hnd'.1 ((hu n' (List.mem_cons_of_mem _ hn') hr) ▸ hn'))]
      exact step_of_eq d f idx upd r n i h0
    · have hm' : n0 ∈ L := by
        rcases List.mem_cons.mp hm with h | h
        · exact absurd h.symm e
        · exact h
      rw [foldl_of_unique d f idx upd i n0 h0 L _ hnd'.2 hm' (fun n' hn' => hu n' (List.mem_cons_of_mem _ hn'))]
      rw [step_of_ne d f idx upd r n i (fun hr => e (hu n List.mem_cons_self hr))]

/-- An update lands on `i` when, on every axis, the window's start plus the window coordinate is `i`'s coordinate. -/
theorem resultIdx?_eq_some (d : ScatterDims s si u) (idx : IVec si w) (j : u.Idx) (i : s.Idx)
    (h : ∀ a, d.start j idx a + d.window j a = ((i a).val : Int)) : d.resultIdx? j idx = some i := by
  unfold ScatterDims.resultIdx?
  have hb : ∀ a, 0 ≤ d.start j idx a + d.window j a ∧ d.start j idx a + d.window j a < s.size a := fun a => by
    rw [h a]; exact ⟨Int.natCast_nonneg _, by exact_mod_cast (i a).isLt⟩
  rw [dif_pos hb]
  congr 1
  funext a
  apply Fin.ext
  show (d.start j idx a + d.window j a).toNat = (i a).val
  rw [h a]; exact Int.toNat_natCast _

/-- Conversely, an update that lands on `i` has, on every axis, start plus window coordinate equal to `i`'s. -/
theorem eq_of_resultIdx?_eq_some (d : ScatterDims s si u) (idx : IVec si w) (j : u.Idx) (i : s.Idx)
    (h : d.resultIdx? j idx = some i) (a : Fin s.rank) : d.start j idx a + d.window j a = ((i a).val : Int) := by
  unfold ScatterDims.resultIdx? at h
  by_cases hb : ∀ a, 0 ≤ d.start j idx a + d.window j a ∧ d.start j idx a + d.window j a < s.size a
  · rw [dif_pos hb] at h
    have e := Option.some.inj h
    rw [← e]
    show _ = (((d.start j idx a + d.window j a).toNat : Nat) : Int)
    rw [Int.toNat_of_nonneg (hb a).1]
  · rw [dif_neg hb] at h
    cases h

/-- An element no update lands on keeps the operand's value. -/
theorem scatter_apply_of_miss (d : ScatterDims s si u) (f : α → α → α) (x : s.Idx → α) (idx : IVec si w)
    (upd : u.Idx → α) (i : s.Idx) (h : ∀ j, d.resultIdx? j idx ≠ some i) :
    Host.scatter d f x idx upd i = x i := by
  rw [scatter_eq_foldl]
  exact foldl_of_miss d f idx upd i _ x (fun n _ => h _)

/-- An element exactly one update `j` lands on ends at the body applied to the operand's value and that update. -/
theorem scatter_apply_of_unique (d : ScatterDims s si u) (f : α → α → α) (x : s.Idx → α) (idx : IVec si w)
    (upd : u.Idx → α) (i : s.Idx) (j : u.Idx) (hj : d.resultIdx? j idx = some i)
    (hu : ∀ j', d.resultIdx? j' idx = some i → j' = j) :
    Host.scatter d f x idx upd i = f (x i) (upd j) := by
  rw [scatter_eq_foldl]
  have e : u.rowMajor.symm (u.rowMajor j) = j := u.rowMajor.symm_apply_apply j
  have := foldl_of_unique d f idx upd i (u.rowMajor j) (by rw [e]; exact hj) (List.finRange u.numel) x
    (List.nodup_finRange _) (List.mem_finRange _)
    (fun n _ hr => by
      have := hu _ hr
      rw [← this]; exact (u.rowMajor.apply_symm_apply n).symm)
  rw [this, e]

end Idealize.ShloMosaic.ScatterSet
-- ==== Proof.RefScatter.lean ====
/-
  Writing a whole matrix over a matrix of the same shape leaves the written matrix.  The host's scatter here has
  no index operand to speak of (an empty index vector), its update window is both axes, and its body returns the
  update: update position (k, r) lands on element (k, r) and on no other, so every element ends at the update there.
-/
import proofs.«147910_g2000103882058017_pallasbulk_729_30_alg».proof.Proof.Gen.ReferenceIdeal
import proofs.«147910_g2000103882058017_pallasbulk_729_30_alg».proof.Proof.LibScatterSet
import Idealize.ShloMosaic.Lib.ValueIdx

noncomputable section

open scoped BigOperators
open Idealize.ShloMosaic Idealize.ShloMosaic.ValueIdx

namespace Cert.RefValue

open Cert.ReferenceIdeal Cert.ReferenceIdeal.Gen Idealize.ShloMosaic.ScatterSet

/-- Where update position `j` lands: at `j` itself, on both axes. -/
theorem scatter_place {w : Nat} (idx : IVec S0 w) (j : S512x32768.Idx) (a : Fin 2) :
    scatter_S512x32768_S0_S512x32768_01_n_n_0.start j idx a + scatter_S512x32768_S0_S512x32768_01_n_n_0.window j a
      = (((j a).val : Nat) : Int) := by
  have hs : scatter_S512x32768_S0_S512x32768_01_n_n_0.start j idx a = 0 := by
    unfold ScatterDims.start
    exact dif_neg (by show a ∉ ([] : List (Fin 2)); exact List.not_mem_nil)
  have hw : scatter_S512x32768_S0_S512x32768_01_n_n_0.window j a = (j a).val := by
    match a with
    | ⟨0, _⟩ => rfl
    | ⟨1, _⟩ => rfl
  rw [hs, hw, Int.zero_add]

/-- The scatter read at (k, r): the update there. -/
theorem scatter_whole_apply {w : Nat} (x : S512x32768.Idx → Ideal .f32) (idx : IVec S0 w)
    (upd : S512x32768.Idx → Ideal .f32) (k : Fin 512) (r : Fin 32768) :
    Host.scatter scatter_S512x32768_S0_S512x32768_01_n_n_0 (fun _ b => b) x idx upd (ix2 k r) = upd (ix2 k r) := by
  refine scatter_apply_of_unique scatter_S512x32768_S0_S512x32768_01_n_n_0 (fun _ b => b) x idx upd (ix2 k r) (ix2 k r)
    (resultIdx?_eq_some _ idx (ix2 k r) (ix2 k r) fun a => scatter_place idx (ix2 k r) a) fun j' hj' => ?_
  have h0 := (scatter_place idx j' 0).symm.trans (eq_of_resultIdx?_eq_some _ idx j' (ix2 k r) hj' 0)
  have h1 := (scatter_place idx j' 1).symm.trans (eq_of_resultIdx?_eq_some _ idx j' (ix2 k r) hj' 1)
  funext a; apply Fin.ext
  match a with
  | ⟨0, _⟩ => exact Int.ofNat.inj h0
  | ⟨1, _⟩ => exact Int.ofNat.inj h1

end Cert.RefValue

end
-- ==== Proof.RefHost.lean ====
/-
  The arrays the grid's windows read, as the host operations before the grid leave them, read at an entry.
  Each weight matrix and each bias row reaches the grid transposed, so that features run down the rows: entry
  (i, k) of the array is entry (k, i) of the argument.  The input matrix is transposed and written over the whole
  of a zero matrix of the same shape, which leaves just its transpose: entry (k, r) is entry (r, k) of the input.
  The last weight column is passed as it is.
-/
import proofs.«147910_g2000103882058017_pallasbulk_729_30_alg».proof.Proof.Gen.ReferenceIdeal.Frame
import proofs.«147910_g2000103882058017_pallasbulk_729_30_alg».proof.Proof.LibTRef
import proofs.«147910_g2000103882058017_pallasbulk_729_30_alg».proof.Proof.RefScatter
import Idealize.ShloMosaic.Lib.ValueLayout

noncomputable section

open scoped BigOperators
open Idealize.ShloMosaic Idealize.ShloMosaic.ValueIdx Idealize.ShloMosaic.TcCoe Idealize.SL.Sem

namespace Cert.RefValue

open Cert.ReferenceIdeal Cert.ReferenceIdeal.Gen

variable (m : (ℓ : Loc nD τ sig) → Buf (Elt Ideal) ℓ)

/-- The array of window 0 at (k, r): the input matrix at (r, k). -/
theorem V_x_apply (c : Dev nD) (k : Fin 512) (r : Fin 32768) :
    (V m c main_call0_v2 : S512x32768.Idx → Ideal .f32) (ix2 k r)
      = (m ((c : Thread nD τ).loc main_arg0) : S32768x512.Idx → Ideal .f32) (ix2 r k) := by
  show StableHlo.after hostOps0 (fun b => m (c, b)) (Proc.devRef .tc main_call0_v2) (ix2 k r) = _
  after_results
  simp only [StableHlo.TRef.ofBuf_toBuf]
  have key : ∀ S : BufTy.Contents (Elt Ideal) (⟨S512x32768, .f32⟩ : BufTy),
      (StableHlo.TRef.of main_call0_v2 : StableHlo.TRef sig ⟨S512x32768, .f32⟩).toBuf S = S := fun _ => rfl
  refine (congrFun (key _) (ix2 k r)).trans ?_
  refine (scatter_whole_apply _ _ _ k r).trans ?_
  refine (transpose_ix2_apply _ _ k r).trans ?_
  rfl

/-- The array of window 1 at (i, k): the first weight matrix at (k, i). -/
theorem V_w1_apply (c : Dev nD) (i : Fin 32) (k : Fin 512) :
    (V m c main_call0_v3 : S32x512.Idx → Ideal .f32) (ix2 i k)
      = (m ((c : Thread nD τ).loc main_arg1) : S512x32.Idx → Ideal .f32) (ix2 k i) := by
  show StableHlo.after hostOps0 (fun b => m (c, b)) (Proc.devRef .tc main_call0_v3) (ix2 i k) = _
  after_results
  have key : ∀ S : BufTy.Contents (Elt Ideal) (⟨S32x512, .f32⟩ : BufTy),
      (StableHlo.TRef.of main_call0_v3 : StableHlo.TRef sig ⟨S32x512, .f32⟩).toBuf S = S := fun _ => rfl
  refine (congrFun (key _) (ix2 i k)).trans ?_
  refine (transpose_ix2_apply _ _ i k).trans ?_
  rfl

/-- The array of window 2 at (i, k): the first bias row at (k, i). -/
theorem V_b1_apply (c : Dev nD) (i : Fin 32) (k : Fin 1) :
    (V m c main_call0_v6 : S32x1.Idx → Ideal .f32) (ix2 i k)
      = (m ((c : Thread nD τ).loc main_arg2) : S1x32.Idx → Ideal .f32) (ix2 k i) := by
  show StableHlo.after hostOps0 (fun b => m (c, b)) (Proc.devRef .tc main_call0_v6) (ix2 i k) = _
  after_results
  have key : ∀ S : BufTy.Contents (Elt Ideal) (⟨S32x1, .f32⟩ : BufTy),
      (StableHlo.TRef.of main_call0_v6 : StableHlo.TRef sig ⟨S32x1, .f32⟩).toBuf S = S := fun _ => rfl
  refine (congrFun (key _) (ix2 i k)).trans ?_
  refine (transpose_ix2_apply _ _ i k).trans ?_
  rfl

/-- The array of window 3 at (i, k): the second weight matrix at (k, i). -/
theorem V_w2_apply (c : Dev nD) (i : Fin 128) (k : Fin 32) :
    (V m c main_call0_v4 : S128x32.Idx → Ideal .f32) (ix2 i k)
      = (m ((c : Thread nD τ).loc main_arg3) : S32x128.Idx → Ideal .f32) (ix2 k i) := by
  show StableHlo.after hostOps0 (fun b => m (c, b)) (Proc.devRef .tc main_call0_v4) (ix2 i k) = _
  after_results
  have key : ∀ S : BufTy.Contents (Elt Ideal) (⟨S128x32, .f32⟩ : BufTy),
      (StableHlo.TRef.of main_call0_v4 : StableHlo.TRef sig ⟨S128x32, .f32⟩).toBuf S = S := fun _ => rfl
  refine (congrFun (key _) (ix2 i k)).trans ?_
  refine (transpose_ix2_apply _ _ i k).trans ?_
  rfl

/-- The array of window 4 at (i, k): the second bias row at (k, i). -/
theorem V_b2_apply (c : Dev nD) (i : Fin 128) (k : Fin 1) :
    (V m c main_call0_v7 : S128x1.Idx → Ideal .f32) (ix2 i k)
      = (m ((c : Thread nD τ).loc main_arg4) : S1x128.Idx → Ideal .f32) (ix2 k i) := by
  show StableHlo.after hostOps0 (fun b => m (c, b)) (Proc.devRef .tc main_call0_v7) (ix2 i k) = _
  after_results
  have key : ∀ S : BufTy.Contents (Elt Ideal) (⟨S128x1, .f32⟩ : BufTy),
      (StableHlo.TRef.of main_call0_v7 : StableHlo.TRef sig ⟨S128x1, .f32⟩).toBuf S = S := fun _ => rfl
  refine (congrFun (key _) (ix2 i k)).trans ?_
  refine (transpose_ix2_apply _ _ i k).trans ?_
  rfl

/-- The array of window 5 at (i, k): the third weight matrix at (k, i). -/
theorem V_w3_apply (c : Dev nD) (i : Fin 16) (k : Fin 128) :
    (V m c main_call0_v5 : S16x128.Idx → Ideal .f32) (ix2 i k)
      = (m ((c : Thread nD τ).loc main_arg5) : S128x16.Idx → Ideal .f32) (ix2 k i) := by
  show StableHlo.after hostOps0 (fun b => m (c, b)) (Proc.devRef .tc main_call0_v5) (ix2 i k) = _
  after_results
  have key : ∀ S : BufTy.Contents (Elt Ideal) (⟨S16x128, .f32⟩ : BufTy),
      (StableHlo.TRef.of main_call0_v5 : StableHlo.TRef sig ⟨S16x128, .f32⟩).toBuf S = S := fun _ => rfl
  refine (congrFun (key _) (ix2 i k)).trans ?_
  refine (transpose_ix2_apply _ _ i k).trans ?_
  rfl

/-- The array of window 6 at (i, k): the third bias row at (k, i). -/
theorem V_b3_apply (c : Dev nD) (i : Fin 16) (k : Fin 1) :
    (V m c main_call0_v8 : S16x1.Idx → Ideal .f32) (ix2 i k)
      = (m ((c : Thread nD τ).loc main_arg6) : S1x16.Idx → Ideal .f32) (ix2 k i) := by
  show StableHlo.after hostOps0 (fun b => m (c, b)) (Proc.devRef .tc main_call0_v8) (ix2 i k) = _
  after_results
  have key : ∀ S : BufTy.Contents (Elt Ideal) (⟨S16x1, .f32⟩ : BufTy),
      (StableHlo.TRef.of main_call0_v8 : StableHlo.TRef sig ⟨S16x1, .f32⟩).toBuf S = S := fun _ => rfl
  refine (congrFun (key _) (ix2 i k)).trans ?_
  refine (transpose_ix2_apply _ _ i k).trans ?_
  rfl

/-- The array of window 8 at (i, k): the last bias at (k, i). -/
theorem V_b4_apply (c : Dev nD) (i : Fin 1) (k : Fin 1) :
    (V m c main_call0_v9 : S1x1.Idx → Ideal .f32) (ix2 i k)
      = (m ((c : Thread nD τ).loc main_arg8) : S1x1.Idx → Ideal .f32) (ix2 k i) := by
  show StableHlo.after hostOps0 (fun b => m (c, b)) (Proc.devRef .tc main_call0_v9) (ix2 i k) = _
  after_results
  have key : ∀ S : BufTy.Contents (Elt Ideal) (⟨S1x1, .f32⟩ : BufTy),
      (StableHlo.TRef.of main_call0_v9 : StableHlo.TRef sig ⟨S1x1, .f32⟩).toBuf S = S := fun _ => rfl
  refine (congrFun (key _) (ix2 i k)).trans ?_
  refine (transpose_ix2_apply _ _ i k).trans ?_
  rfl

end Cert.RefValue

end
-- ==== Proof.RefBlocks.lean ====
/-
  Each window's block at a grid point, read at an entry, as an entry of an argument array.  The activation
  window steps along the batch columns with the point, 128 columns at a time, and so does the output window; every
  other window's block is its whole array at every point.  An entry of a block sits in its array at the block
  index times the block size plus its own coordinate, axis by axis.
-/
import proofs.«147910_g2000103882058017_pallasbulk_729_30_alg».proof.Proof.RefHost

noncomputable section

open scoped BigOperators
open Idealize.ShloMosaic Idealize.ShloMosaic.ValueIdx Idealize.ShloMosaic.TcCoe Idealize.SL.Sem

namespace Cert.RefValue

open Cert.ReferenceIdeal Cert.ReferenceIdeal.Gen

variable (m : (ℓ : Loc nD τ sig) → Buf (Elt Ideal) ℓ)

/-- The index maps over the 256 points: windows 0 and 9 at block (0, t). -/
theorem idx_move : ∀ t : Fin cfg0.N, win0_0.index t (0 : Fin 2) = 0 ∧ win0_0.index t (1 : Fin 2) = t.val
    ∧ win0_9.index t (0 : Fin 2) = 0 ∧ win0_9.index t (1 : Fin 2) = t.val :=
  (by decide +kernel : ∀ t : Fin grid0.N, _)

/-- The index maps over the 256 points: windows 1 to 8 at block (0, 0). -/
theorem idx_stay : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-! Each block read is first stated for ANY contents `A` of the window's array, then used at the contents the
    grid finds. -/

/-- Window 0's block at point t, entry (k, q), of any array contents: the array at row k, column 128·t + q. -/
theorem read_blk_x (A : S512x32768.Idx → Ideal .f32) (t : Fin cfg0.N) (k : Fin 512) (q : Fin 128) (r : Fin 32768)
    (hr : r.val = t.val * 128 + q.val) :
    (((cfg0.win 0).blk t).view.read (Elt Ideal) A : Vec Ideal S512x128 .f32) (ix2 k q) = A (ix2 k r) := by
  obtain ⟨e0, e1, -, -⟩ := idx_move t
  rw [View.read_apply]
  show A _ = A _
  refine congrArg A ?_
  funext a; apply Fin.ext
  match a with
  | ⟨0, _⟩ => show win0_0.index t (0 : Fin 2) * 512 + 1 * k.val = k.val; omega
  | ⟨1, _⟩ => show win0_0.index t (1 : Fin 2) * 128 + 1 * q.val = r.val; omega

/-- Window 0's block at point t, entry (k, q): the input matrix at row 128·t + q, column k. -/
theorem iblk_x_apply (c : Dev nD) (t : Fin cfg0.N) (k : Fin 512) (q : Fin 128) (r : Fin 32768)
    (hr : r.val = t.val * 128 + q.val) :
    (iblk m c 0 t : Vec Ideal S512x128 .f32) (ix2 k q)
      = (m ((c : Thread nD τ).loc main_arg0) : S32768x512.Idx → Ideal .f32) (ix2 r k) := by
  unfold iblk
  exact (read_blk_x (V m c (Pipeline.arrRef spec0 0)) t k q r hr).trans (V_x_apply m c k r)

/-- Window 1's block at any point is its whole array: entry (i, k) of any contents. -/
theorem read_blk_w1 (A : S32x512.Idx → Ideal .f32) (t : Fin cfg0.N) (i : Fin 32) (k : Fin 512) :
    (((cfg0.win 1).blk t).view.read (Elt Ideal) A : Vec Ideal S32x512 .f32) (ix2 i k) = A (ix2 i k) := by
  obtain ⟨⟨e0, e1⟩, -, -, -, -, -, -, -⟩ := idx_stay t
  rw [View.read_apply]
  show A _ = A _
  refine congrArg A ?_
  funext a; apply Fin.ext
  match a with
  | ⟨0, _⟩ => show win0_1.index t (0 : Fin 2) * 32 + 1 * i.val = i.val; omega
  | ⟨1, _⟩ => show win0_1.index t (1 : Fin 2) * 512 + 1 * k.val = k.val; omega

/-- Window 1's block at any point, entry (i, k): the first weight matrix at (k, i). -/
theorem iblk_w1_apply (c : Dev nD) (t : Fin cfg0.N) (i : Fin 32) (k : Fin 512) :
    (iblk m c 1 t : Vec Ideal S32x512 .f32) (ix2 i k)
      = (m ((c : Thread nD τ).loc main_arg1) : S512x32.Idx → Ideal .f32) (ix2 k i) := by
  unfold iblk
  exact (read_blk_w1 (V m c (Pipeline.arrRef spec0 1)) t i k).trans (V_w1_apply m c i k)

/-- Window 2's block at any point is its whole array: entry (i, k) of any contents. -/
theorem read_blk_b1 (A : S32x1.Idx → Ideal .f32) (t : Fin cfg0.N) (i : Fin 32) (k : Fin 1) :
    (((cfg0.win 2).blk t).view.read (Elt Ideal) A : Vec Ideal S32x1 .f32) (ix2 i k) = A (ix2 i k) := by
  obtain ⟨-, ⟨e0, e1⟩, -, -, -, -, -, -⟩ := idx_stay t
  rw [View.read_apply]
  show A _ = A _
  refine congrArg A ?_
  funext a; apply Fin.ext
  match a with
  | ⟨0, _⟩ => show win0_2.index t (0 : Fin 2) * 32 + 1 * i.val = i.val; omega
  | ⟨1, _⟩ => show win0_2.index t (1 : Fin 2) * 1 + 1 * k.val = k.val; omega

/-- Window 2's block at any point, entry (i, k): the first bias row at (k, i). -/
theorem iblk_b1_apply (c : Dev nD) (t : Fin cfg0.N) (i : Fin 32) (k : Fin 1) :
    (iblk m c 2 t : Vec Ideal S32x1 .f32) (ix2 i k)
      = (m ((c : Thread nD τ).loc main_arg2) : S1x32.Idx → Ideal .f32) (ix2 k i) := by
  unfold iblk
  exact (read_blk_b1 (V m c (Pipeline.arrRef spec0 2)) t i k).trans (V_b1_apply m c i k)

/-- Window 3's block at any point is its whole array: entry (i, k) of any contents. -/
theorem read_blk_w2 (A : S128x32.Idx → Ideal .f32) (t : Fin cfg0.N) (i : Fin 128) (k : Fin 32) :
    (((cfg0.win 3).blk t).view.read (Elt Ideal) A : Vec Ideal S128x32 .f32) (ix2 i k) = A (ix2 i k) := by
  obtain ⟨-, -, ⟨e0, e1⟩, -, -, -, -, -⟩ := idx_stay t
  rw [View.read_apply]
  show A _ = A _
  refine congrArg A ?_
  funext a; apply Fin.ext
  match a with
  | ⟨0, _⟩ => show win0_3.index t (0 : Fin 2) * 128 + 1 * i.val = i.val; omega
  | ⟨1, _⟩ => show win0_3.index t (1 : Fin 2) * 32 + 1 * k.val = k.val; omega

/-- Window 3's block at any point, entry (i, k): the second weight matrix at (k, i). -/
theorem iblk_w2_apply (c : Dev nD) (t : Fin cfg0.N) (i : Fin 128) (k : Fin 32) :
    (iblk m c 3 t : Vec Ideal S128x32 .f32) (ix2 i k)
      = (m ((c : Thread nD τ).loc main_arg3) : S32x128.Idx → Ideal .f32) (ix2 k i) := by
  unfold iblk
  exact (read_blk_w2 (V m c (Pipeline.arrRef spec0 3)) t i k).trans (V_w2_apply m c i k)

/-- Window 4's block at any point is its whole array: entry (i, k) of any contents. -/
theorem read_blk_b2 (A : S128x1.Idx → Ideal .f32) (t : Fin cfg0.N) (i : Fin 128) (k : Fin 1) :
    (((cfg0.win 4).blk t).view.read (Elt Ideal) A : Vec Ideal S128x1 .f32) (ix2 i k) = A (ix2 i k) := by
  obtain ⟨-, -, -, ⟨e0, e1⟩, -, -, -, -⟩ := idx_stay t
  rw [View.read_apply]
  show A _ = A _
  refine congrArg A ?_
  funext a; apply Fin.ext
  match a with
  | ⟨0, _⟩ => show win0_4.index t (0 : Fin 2) * 128 + 1 * i.val = i.val; omega
  | ⟨1, _⟩ => show win0_4.index t (1 : Fin 2) * 1 + 1 * k.val = k.val; omega

/-- Window 4's block at any point, entry (i, k): the second bias row at (k, i). -/
theorem iblk_b2_apply (c : Dev nD) (t : Fin cfg0.N) (i : Fin 128) (k : Fin 1) :
    (iblk m c 4 t : Vec Ideal S128x1 .f32) (ix2 i k)
      = (m ((c : Thread nD τ).loc main_arg4) : S1x128.Idx → Ideal .f32) (ix2 k i) := by
  unfold iblk
  exact (read_blk_b2 (V m c (Pipeline.arrRef spec0 4)) t i k).trans (V_b2_apply m c i k)

/-- Window 5's block at any point is its whole array: entry (i, k) of any contents. -/
theorem read_blk_w3 (A : S16x128.Idx → Ideal .f32) (t : Fin cfg0.N) (i : Fin 16) (k : Fin 128) :
    (((cfg0.win 5).blk t).view.read (Elt Ideal) A : Vec Ideal S16x128 .f32) (ix2 i k) = A (ix2 i k) := by
  obtain ⟨-, -, -, -, ⟨e0, e1⟩, -, -, -⟩ := idx_stay t
  rw [View.read_apply]
  show A _ = A _
  refine congrArg A ?_
  funext a; apply Fin.ext
  match a with
  | ⟨0, _⟩ => show win0_5.index t (0 : Fin 2) * 16 + 1 * i.val = i.val; omega
  | ⟨1, _⟩ => show win0_5.index t (1 : Fin 2) * 128 + 1 * k.val = k.val; omega

/-- Window 5's block at any point, entry (i, k): the third weight matrix at (k, i). -/
theorem iblk_w3_apply (c : Dev nD) (t : Fin cfg0.N) (i : Fin 16) (k : Fin 128) :
    (iblk m c 5 t : Vec Ideal S16x128 .f32) (ix2 i k)
      = (m ((c : Thread nD τ).loc main_arg5) : S128x16.Idx → Ideal .f32) (ix2 k i) := by
  unfold iblk
  exact (read_blk_w3 (V m c (Pipeline.arrRef spec0 5)) t i k).trans (V_w3_apply m c i k)

/-- Window 6's block at any point is its whole array: entry (i, k) of any contents. -/
theorem read_blk_b3 (A : S16x1.Idx → Ideal .f32) (t : Fin cfg0.N) (i : Fin 16) (k : Fin 1) :
    (((cfg0.win 6).blk t).view.read (Elt Ideal) A : Vec Ideal S16x1 .f32) (ix2 i k) = A (ix2 i k) := by
  obtain ⟨-, -, -, -, -, ⟨e0, e1⟩, -, -⟩ := idx_stay t
  rw [View.read_apply]
  show A _ = A _
  refine congrArg A ?_
  funext a; apply Fin.ext
  match a with
  | ⟨0, _⟩ => show win0_6.index t (0 : Fin 2) * 16 + 1 * i.val = i.val; omega
  | ⟨1, _⟩ => show win0_6.index t (1 : Fin 2) * 1 + 1 * k.val = k.val; omega

/-- Window 6's block at any point, entry (i, k): the third bias row at (k, i). -/
theorem iblk_b3_apply (c : Dev nD) (t : Fin cfg0.N) (i : Fin 16) (k : Fin 1) :
    (iblk m c 6 t : Vec Ideal S16x1 .f32) (ix2 i k)
      = (m ((c : Thread nD τ).loc main_arg6) : S1x16.Idx → Ideal .f32) (ix2 k i) := by
  unfold iblk
  exact (read_blk_b3 (V m c (Pipeline.arrRef spec0 6)) t i k).trans (V_b3_apply m c i k)

/-- Window 8's block at any point is its whole array: entry (i, k) of any contents. -/
theorem read_blk_b4 (A : S1x1.Idx → Ideal .f32) (t : Fin cfg0.N) (i : Fin 1) (k : Fin 1) :
    (((cfg0.win 8).blk t).view.read (Elt Ideal) A : Vec Ideal S1x1 .f32) (ix2 i k) = A (ix2 i k) := by
  obtain ⟨-, -, -, -, -, -, -, ⟨e0, e1⟩⟩ := idx_stay t
  rw [View.read_apply]
  show A _ = A _
  refine congrArg A ?_
  funext a; apply Fin.ext
  match a with
  | ⟨0, _⟩ => show win0_8.index t (0 : Fin 2) * 1 + 1 * i.val = i.val; omega
  | ⟨1, _⟩ => show win0_8.index t (1 : Fin 2) * 1 + 1 * k.val = k.val; omega

/-- Window 8's block at any point, entry (i, k): the last bias at (k, i). -/
theorem iblk_b4_apply (c : Dev nD) (t : Fin cfg0.N) (i : Fin 1) (k : Fin 1) :
    (iblk m c 8 t : Vec Ideal S1x1 .f32) (ix2 i k)
      = (m ((c : Thread nD τ).loc main_arg8) : S1x1.Idx → Ideal .f32) (ix2 k i) := by
  unfold iblk
  exact (read_blk_b4 (V m c (Pipeline.arrRef spec0 8)) t i k).trans (V_b4_apply m c i k)

/-- Window 7's block at any point is its whole array: entry (k, u) of any contents. -/
theorem read_blk_w4 (A : S16x1.Idx → Ideal .f32) (t : Fin cfg0.N) (k : Fin 16) (u : Fin 1) :
    (((cfg0.win 7).blk t).view.read (Elt Ideal) A : Vec Ideal S16x1 .f32) (ix2 k u) = A (ix2 k u) := by
  obtain ⟨-, -, -, -, -, -, ⟨e0, e1⟩, -⟩ := idx_stay t
  rw [View.read_apply]
  show A _ = A _
  refine congrArg A ?_
  funext a; apply Fin.ext
  match a with
  | ⟨0, _⟩ => show win0_7.index t (0 : Fin 2) * 16 + 1 * k.val = k.val; omega
  | ⟨1, _⟩ => show win0_7.index t (1 : Fin 2) * 1 + 1 * u.val = u.val; omega

/-- Window 7's block at any point is the last weight column as it was passed. -/
theorem iblk_w4_apply (c : Dev nD) (t : Fin cfg0.N) (k : Fin 16) (u : Fin 1) :
    (iblk m c 7 t : Vec Ideal S16x1 .f32) (ix2 k u)
      = (m ((c : Thread nD τ).loc main_arg7) : S16x1.Idx → Ideal .f32) (ix2 k u) := by
  unfold iblk
  refine (read_blk_w4 (V m c (Pipeline.arrRef spec0 7)) t k u).trans ?_
  exact congrFun (V_main_arg7 m c) (ix2 k u)

end Cert.RefValue

end
-- ==== Proof.RefLayer.lean ====
/-
  One dense layer of the body, read at an entry.  The body keeps activations as (features × batch-columns)
  matrices: a layer multiplies the (out × in) weight matrix by the (in × 128) activation matrix into a zero
  accumulator, adds the bias column broadcast along the 128 columns, and takes the maximum with zero.  At row i and
  column j that is  max (∑ₖ w(i,k)·a(k,j) + b(i,0)) 0.
-/
import proofs.«147910_g2000103882058017_pallasbulk_729_30_alg».proof.Proof.Gen.ReferenceIdeal.Skeleton
import proofs.«147910_g2000103882058017_pallasbulk_729_30_alg».proof.Proof.LibDotRows
import proofs.«147910_g2000103882058017_pallasbulk_729_30_alg».proof.Proof.LibLayout

noncomputable section

open scoped BigOperators
open Idealize.ShloMosaic Idealize.ShloMosaic.ValueIdx

namespace Cert.RefValue

open Cert.ReferenceIdeal Cert.ReferenceIdeal.Gen

/-- The f32 zero word at the ideal values. -/
abbrev zr : Ideal .f32 := Ideal.ofBits .f32 0x00000000#32

/-- A dense layer with rectifier at entry (i, j): the row-by-column sum, plus the bias of row i, clipped below at zero. -/
theorem dense_relu_apply {R K : Nat}
    (d : DotDims ⟨2, ![R, K]⟩ ⟨2, ![K, 128]⟩ ⟨2, ![R, 128]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (w : FVec Ideal ⟨2, ![R, K]⟩ .f32) (a : FVec Ideal ⟨2, ![K, 128]⟩ .f32) (b : FVec Ideal ⟨2, ![R, 1]⟩ .f32)
    (hb : (⟨2, ![R, 1]⟩ : Shape).Broadcasts ⟨2, ![R, 128]⟩)
    (A : Fin K → Fin 128 → Ideal .f32) (hA : ∀ k j, a (ix2 k j) = A k j) (i : Fin R) (j : Fin 128) :
    maximumf (addf (matmul d none w a (constant ⟨2, ![R, 128]⟩ .f32 0x00000000#32)) (broadcastTo ⟨2, ![R, 128]⟩ b hb))
        (broadcast ⟨2, ![R, 128]⟩ (Scalar.ofBits (F := Ideal) .f32 0x00000000#32)) (ix2 i j)
      = max ((∑ k : Fin K, w (ix2 i k) * A k j) + b (ix2 i (0 : Fin 1))) zr := by
  show max (FloatOps.matmul d none w a (constant ⟨2, ![R, 128]⟩ .f32 0x00000000#32) (ix2 i j)
      + broadcastTo ⟨2, ![R, 128]⟩ b hb (ix2 i j)) zr = _
  rw [matmul_zero_rows d none hr hs h1 h2 h3 h4 w a i j, broadcastTo_a1_ab_apply b hb i j]
  simp only [hA]

/-- The sum down the 16 rows of a (16 × 128) matrix, kept as a one-row matrix, read at column j. -/
theorem colsum_apply (v : FVec Ideal S16x128 .f32) (hφ : FKind.Formats .f32)
    (hacc : (0x00000000#32 : BitVec 32) = 0x00000000#32) (j : Fin 128) :
    shapeCast S1x128 (multiReduction .add [0] S128 v 0x00000000#32 reduces_S16x128_S128 hφ hacc) shapeCasts_S128_S1x128
        (ix2 (0 : Fin 1) j) = ∑ k : Fin 16, v (ix2 k j) := by
  refine (shapeCast_a_1a_apply _ _ 0 j).trans ?_
  refine (Ideal.multiReduction_add_single v 0x00000000#32 reduces_S16x128_S128 hφ hacc (ix1 j)).trans ?_
  refine Finset.sum_congr rfl fun k _ => congrArg v ?_
  funext ax; apply Fin.ext
  fin_cases ax <;> rfl

/-! ## The body's arithmetic over its nine loaded blocks -/

section Body

variable (x0 : Vec Ideal S512x128 .f32) (x1 : Vec Ideal S32x512 .f32) (x2 : Vec Ideal S32x1 .f32)
  (x3 : Vec Ideal S128x32 .f32) (x4 : Vec Ideal S128x1 .f32) (x5 : Vec Ideal S16x128 .f32)
  (x6 : Vec Ideal S16x1 .f32) (x7 : Vec Ideal S16x1 .f32) (x8 : Vec Ideal S1x1 .f32)

/-- First hidden layer over the blocks: unit i of batch column j. -/
def act1 (i : Fin 32) (j : Fin 128) : Ideal .f32 :=
  max ((∑ k : Fin 512, x1 (ix2 i k) * x0 (ix2 k j)) + x2 (ix2 i (0 : Fin 1))) zr

/-- Second hidden layer over the blocks. -/
def act2 (i : Fin 128) (j : Fin 128) : Ideal .f32 :=
  max ((∑ k : Fin 32, x3 (ix2 i k) * act1 x0 x1 x2 k j) + x4 (ix2 i (0 : Fin 1))) zr

/-- Third hidden layer over the blocks. -/
def act3 (i : Fin 16) (j : Fin 128) : Ideal .f32 :=
  max ((∑ k : Fin 128, x5 (ix2 i k) * act2 x0 x1 x2 x3 x4 k j) + x6 (ix2 i (0 : Fin 1))) zr

/-- The output of batch column j: the weighted sum of the third layer plus the last bias, through the logistic. -/
def outB (j : Fin 128) : Ideal .f32 :=
  Ideal.logistic ((∑ k : Fin 16, act3 x0 x1 x2 x3 x4 x5 x6 k j * x7 (ix2 k (0 : Fin 1))) + x8 (ix2 (0 : Fin 1) (0 : Fin 1)))

/-- What the body stores, at row 0 and column j, is `outB` of the loaded blocks. -/
theorem pay_apply (j : Fin 128) :
    k0_pay1 (k0_pay2 x0 x1 x2 x3 x4 x5 x6 x7) x8 (ix2 (0 : Fin 1) j) = outB x0 x1 x2 x3 x4 x5 x6 x7 x8 j := by
  unfold k0_pay1 k0_pay2 outB
  simp only [shapeCast_self]
  show Ideal.logistic (_ + _) = Ideal.logistic (_ + _)
  refine congrArg Ideal.logistic (congrArg₂ (· + ·) ?_ (broadcastTo_a1_ab_apply x8 _ (0 : Fin 1) j))
  refine (colsum_apply _ _ _ j).trans (Finset.sum_congr rfl fun k _ => ?_)
  refine congrArg₂ (· * ·) ?_ (broadcastTo_a1_ab_apply x7 _ k j)
  refine dense_relu_apply dot_S16x128_S128x128_S16x128_1_0_0_1_n_n rfl rfl (fun _ _ => rfl) (fun _ _ => rfl)
    (fun _ _ => rfl) (fun _ _ => rfl) x5 _ x6 _ (act2 x0 x1 x2 x3 x4) (fun k j => ?_) k j
  refine dense_relu_apply dot_S128x32_S32x128_S128x128_1_0_0_1_n_n rfl rfl (fun _ _ => rfl) (fun _ _ => rfl)
    (fun _ _ => rfl) (fun _ _ => rfl) x3 _ x4 _ (act1 x0 x1 x2) (fun k j => ?_) k j
  exact dense_relu_apply dot_S32x512_S512x128_S32x128_1_0_0_1_n_n rfl rfl (fun _ _ => rfl) (fun _ _ => rfl)
    (fun _ _ => rfl) (fun _ _ => rfl) x1 x0 x2 _ (fun k j => x0 (ix2 k j)) (fun _ _ => rfl) k j

end Body

end Cert.RefValue

end
-- ==== Proof.RefBridge.lean ====
/-
  The body's arithmetic over its loaded blocks is the specification's perceptron, once each block entry is
  named as the argument entry it holds: the activation block's column j holds row r of the input, each weight
  block holds the weight matrix transposed, each bias column holds the bias row transposed.  The two are then the
  same expression term by term: the same sums in the same order, the same maxima with zero, the same logistic.
-/
import proofs.«147910_g2000103882058017_pallasbulk_729_30_alg».proof.Proof.RefLayer
import proofs.«147910_g2000103882058017_pallasbulk_729_30_alg».proof.Proof.Spec

noncomputable section

open scoped BigOperators
open Idealize.ShloMosaic Idealize.ShloMosaic.ValueIdx

namespace Cert.RefValue

open Cert.ReferenceIdeal Cert.ReferenceIdeal.Gen

theorem outB_eq_out
    (x0 : Vec Ideal S512x128 .f32) (x1 : Vec Ideal S32x512 .f32) (x2 : Vec Ideal S32x1 .f32)
    (x3 : Vec Ideal S128x32 .f32) (x4 : Vec Ideal S128x1 .f32) (x5 : Vec Ideal S16x128 .f32)
    (x6 : Vec Ideal S16x1 .f32) (x7 : Vec Ideal S16x1 .f32) (x8 : Vec Ideal S1x1 .f32)
    (X : Spec.Arr 32768 512) (W1 : Spec.Arr 512 32) (B1 : Spec.Arr 1 32) (W2 : Spec.Arr 32 128) (B2 : Spec.Arr 1 128)
    (W3 : Spec.Arr 128 16) (B3 : Spec.Arr 1 16) (W4 : Spec.Arr 16 1) (B4 : Spec.Arr 1 1)
    (r : Fin 32768) (j : Fin 128)
    (h0 : ∀ k : Fin 512, x0 (ix2 k j) = X (ix2 r k))
    (h1 : ∀ (i : Fin 32) (k : Fin 512), x1 (ix2 i k) = W1 (ix2 k i))
    (h2 : ∀ i : Fin 32, x2 (ix2 i (0 : Fin 1)) = B1 (ix2 (0 : Fin 1) i))
    (h3 : ∀ (i : Fin 128) (k : Fin 32), x3 (ix2 i k) = W2 (ix2 k i))
    (h4 : ∀ i : Fin 128, x4 (ix2 i (0 : Fin 1)) = B2 (ix2 (0 : Fin 1) i))
    (h5 : ∀ (i : Fin 16) (k : Fin 128), x5 (ix2 i k) = W3 (ix2 k i))
    (h6 : ∀ i : Fin 16, x6 (ix2 i (0 : Fin 1)) = B3 (ix2 (0 : Fin 1) i))
    (h7 : ∀ k : Fin 16, x7 (ix2 k (0 : Fin 1)) = W4 (ix2 k (0 : Fin 1)))
    (h8 : x8 (ix2 (0 : Fin 1) (0 : Fin 1)) = B4 (ix2 (0 : Fin 1) (0 : Fin 1))) :
    outB x0 x1 x2 x3 x4 x5 x6 x7 x8 j = Spec.out X W1 B1 W2 B2 W3 B3 W4 B4 r := by
  unfold outB Spec.out act3 Spec.h3 act2 Spec.h2 act1 Spec.h1 Spec.z
  simp only [h0, h1, h2, h3, h4, h5, h6, h7, h8]

end Cert.RefValue

end
-- ==== Proof.RefOut.lean ====
/-
  What the body leaves in the output window's buffer, read at an entry.  The body has one store, of the whole
  (1 × 128) buffer, and each of its loads reads a whole block; so the buffer ends holding the body's arithmetic of
  the nine loaded blocks, and its entry (0, q) is the perceptron's output for the block's batch column q.
-/
import proofs.«147910_g2000103882058017_pallasbulk_729_30_alg».proof.Proof.Gen.ReferenceIdeal.Frame
import proofs.«147910_g2000103882058017_pallasbulk_729_30_alg».proof.Proof.RefLayer

noncomputable section

open scoped BigOperators
open Idealize.ShloMosaic Idealize.ShloMosaic.ValueIdx

namespace Cert.RefValue

open Cert.ReferenceIdeal Cert.ReferenceIdeal.Gen

theorem hz : (![0, 0] : Fin 2 → Nat) = fun _ => 0 := funext fun a => by fin_cases a <;> rfl

/-- The output buffer after the body, at entry (u, q), over any nine input blocks. -/
theorem out_apply (x0 : Vec Ideal S512x128 .f32) (x1 : Vec Ideal S32x512 .f32) (x2 : Vec Ideal S32x1 .f32)
    (x3 : Vec Ideal S128x32 .f32) (x4 : Vec Ideal S128x1 .f32) (x5 : Vec Ideal S16x128 .f32)
    (x6 : Vec Ideal S16x1 .f32) (x7 : Vec Ideal S16x1 .f32) (x8 : Vec Ideal S1x1 .f32) (u : Fin 1) (q : Fin 128) :
    out0_9 x0 x1 x2 x3 x4 x5 x6 x7 x8 (ix2 u q) = outB x0 x1 x2 x3 x4 x5 x6 x7 x8 q := by
  unfold out0_9
  rw [View.canon_unit_zero hz]
  simp only [View.ld_unit_zero (S := S512x128) hz, View.ld_unit_zero (S := S32x512) hz,
    View.ld_unit_zero (S := S32x1) hz, View.ld_unit_zero (S := S128x32) hz, View.ld_unit_zero (S := S128x1) hz,
    View.ld_unit_zero (S := S16x128) hz, View.ld_unit_zero (S := S16x1) hz, View.ld_unit_zero (S := S1x1) hz]
  obtain rfl : u = 0 := Subsingleton.elim _ _
  exact pay_apply x0 x1 x2 x3 x4 x5 x6 x7 x8 q

end Cert.RefValue

end
-- ==== Proof.RefFinal.lean ====
/-
  The grid's output array after the run.  Grid point t writes back the (1 × 128) block of columns
  128·t … 128·t + 127; entry (0, q) of what it writes is the perceptron's output for input row 128·t + q, because
  the activation block of point t holds exactly those rows of the input (as columns) and every other block is a
  whole weight matrix or bias, transposed.  The 256 blocks tile the (1 × 32768) array, so the array ends holding
  the perceptron's output of row r at entry (0, r).
-/
import proofs.«147910_g2000103882058017_pallasbulk_729_30_alg».proof.Proof.RefBlocks
import proofs.«147910_g2000103882058017_pallasbulk_729_30_alg».proof.Proof.RefBridge
import proofs.«147910_g2000103882058017_pallasbulk_729_30_alg».proof.Proof.RefOut
import Idealize.ShloMosaic.Lib.Pipeline.Value

noncomputable section

open scoped BigOperators
open Idealize.ShloMosaic Idealize.ShloMosaic.ValueIdx Idealize.ShloMosaic.TcCoe Idealize.SL.Sem
open Idealize.ShloMosaic.Pipeline (Dat)
namespace Cert.RefValue

open Cert.ReferenceIdeal Cert.ReferenceIdeal.Gen

variable (m : (ℓ : Loc nD τ sig) → Buf (Elt Ideal) ℓ)

/-- The output array as one function of the arguments: entry (0, r) is the output for input row r. -/
def rowOut (c : Dev nD) : S1x32768.Idx → Ideal .f32 := fun i =>
  Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 1)

/-- The output window's block is the whole staging buffer: nothing is cut off. -/
theorem cut_o (t : Fin cfg0.N) (P : Vec Ideal S1x128 .f32) : (cfg0.win 9).cut (grid0.coords t) P = P := rfl

/-- The output window's block at point t, entry (u, q), of any array contents: the array at column 128·t + q. -/
theorem read_blk_o (A : S1x32768.Idx → Ideal .f32) (t : Fin cfg0.N) (u : Fin 1) (q : Fin 128) (r : Fin 32768)
    (hr : r.val = t.val * 128 + q.val) :
    (((cfg0.win 9).blk t).view.read (Elt Ideal) A : Vec Ideal S1x128 .f32) (ix2 u q) = A (ix2 u r) := by
  obtain ⟨-, -, e0, e1⟩ := idx_move t
  rw [View.read_apply]
  show A _ = A _
  refine congrArg A ?_
  funext a; apply Fin.ext
  match a with
  | ⟨0, _⟩ => show win0_9.index t (0 : Fin 2) * 1 + 1 * u.val = u.val; omega
  | ⟨1, _⟩ => show win0_9.index t (1 : Fin 2) * 128 + 1 * q.val = r.val; omega

/-- What point t writes back is block t of `rowOut`. -/
theorem flushed_eq (c : Dev nD) (t : Fin cfg0.N) :
    (dats m 0 c).flushed 9 t = ((cfg0.win 9).blk t).view.read (Elt Ideal) (rowOut m c) := by
  show (cfg0.win 9).cut (grid0.coords t) ((dats m 0 c).after 9 t) = _
  rw [after0_9, cut_o]
  refine funext fun (y : S1x128.Idx) => ?_
  obtain ⟨u, q, rfl⟩ : ∃ (u : Fin 1) (q : Fin 128), y = ix2 u q := ⟨y 0, y 1, eq_ix2 y⟩
  have ht : t.val < 256 := lt_of_lt_of_eq t.isLt N_0
  have hq : q.val < 128 := q.isLt
  refine (out_apply (iblk m c 0 t) (iblk m c 1 t) (iblk m c 2 t) (iblk m c 3 t) (iblk m c 4 t) (iblk m c 5 t)
    (iblk m c 6 t) (iblk m c 7 t) (iblk m c 8 t) u q).trans ?_
  refine Eq.trans ?_ (read_blk_o (rowOut m c) t u q ⟨t.val * 128 + q.val, by omega⟩ rfl).symm
  exact outB_eq_out _ _ _ _ _ _ _ _ _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ⟨t.val * 128 + q.val, by omega⟩ q
    (fun k => iblk_x_apply m c t k q _ rfl) (fun i k => iblk_w1_apply m c t i k) (fun i => iblk_b1_apply m c t i 0)
    (fun i k => iblk_w2_apply m c t i k) (fun i => iblk_b2_apply m c t i 0)
    (fun i k => iblk_w3_apply m c t i k) (fun i => iblk_b3_apply m c t i 0)
    (fun k => iblk_w4_apply m c t k 0) (iblk_b4_apply m c t 0 0)

/-- Entry i of the array is in point t's block iff each coordinate is in the block's range. -/
theorem mem_blk_o (t : Fin cfg0.N) (i : S1x32768.Idx) :
    i ∈ ((cfg0.win 9).blk t).view.set ↔ ∀ a : Fin 2, win0_9.index t a * S1x128.size a ≤ (i a).val
      ∧ (i a).val < win0_9.index t a * S1x128.size a + S1x128.size a := by
  show i ∈ ((View.whole main_call0_v10).slice (win0_9.rect t)).set ↔ _
  rw [View.set_slice_whole, Rect.mem_set_unit]
  exact Iff.rfl

/-- Every entry of the array is in the block of the point its column falls in. -/
theorem cover_o (i : S1x32768.Idx) :
    ∃ t : Fin cfg0.N, (cfg0.win 9).flush t = true ∧ i ∈ ((cfg0.win 9).blk t).view.set := by
  have h0 : (i 0).val < 1 := (i 0).isLt
  have h1 : (i 1).val < 32768 := (i 1).isLt
  have hN : cfg0.N = 256 := N_0
  have hlt : (i 1).val / 128 < cfg0.N := by rw [hN]; omega
  obtain ⟨-, -, e0, e1⟩ := idx_move ⟨(i 1).val / 128, hlt⟩
  refine ⟨⟨(i 1).val / 128, hlt⟩, flush0_9 _, ?_⟩
  rw [mem_blk_o]
  intro a
  match a with
  | ⟨0, _⟩ =>
    show win0_9.index ⟨(i 1).val / 128, hlt⟩ (0 : Fin 2) * 1 ≤ (i 0).val
      ∧ (i 0).val < win0_9.index ⟨(i 1).val / 128, hlt⟩ (0 : Fin 2) * 1 + 1
    rw [e0]; omega
  | ⟨1, _⟩ =>
    show win0_9.index ⟨(i 1).val / 128, hlt⟩ (1 : Fin 2) * 128 ≤ (i 1).val
      ∧ (i 1).val < win0_9.index ⟨(i 1).val / 128, hlt⟩ (1 : Fin 2) * 128 + 128
    rw [e1]; show (i 1).val / 128 * 128 ≤ (i 1).val ∧ (i 1).val < (i 1).val / 128 * 128 + 128; omega

/-- The output array after the run is `rowOut`. -/
theorem final_o (c : Dev nD) : (dats m 0 c).arrAt 9 cfg0.N = rowOut m c :=
  (dats m 0 c).arrAt_eq_of_cover 9 (rowOut m c) (fun t _ => flushed_eq m c t) cover_o

end Cert.RefValue

end
-- ==== Proof.RefTail.lean ====
/-
  The two reshapes after the grid.  The grid's (1 × 32768) output row is laid out as a vector of 32768 entries
  and then as a (32768 × 1) column; a reshape keeps the row-major order of the entries, so entry (r, 0) of the
  column is entry (0, r) of the row.
-/
import proofs.«147910_g2000103882058017_pallasbulk_729_30_alg».proof.Proof.Gen.ReferenceIdeal.Frame
import proofs.«147910_g2000103882058017_pallasbulk_729_30_alg».proof.Proof.LibLayout
import Idealize.ShloMosaic.Lib.ValueLayout

noncomputable section

open scoped BigOperators
open Idealize.ShloMosaic Idealize.ShloMosaic.ValueIdx Idealize.ShloMosaic.TcCoe Idealize.SL.Sem
open Idealize.ShloMosaic.Pipeline (Dat)
namespace Cert.RefValue

open Cert.ReferenceIdeal Cert.ReferenceIdeal.Gen

variable (m : (ℓ : Loc nD τ sig) → Buf (Elt Ideal) ℓ)

/-- A one-row matrix laid out as a vector and then as a column: entry (r, u) of the column is entry (0, r) of the row. -/
theorem row_to_column_apply (W : S1x32768.Idx → Ideal .f32) (r : Fin 32768) (u : Fin 1) :
    shapeCast S32768x1 (shapeCast S32768 W shapeCasts_S1x32768_S32768) shapeCasts_S32768_S32768x1 (ix2 r u)
      = W (ix2 (0 : Fin 1) r) := by
  rw [shapeCast_a_a1_apply, shapeCast_1a_a_apply]

/-- The result buffer after the host operations that follow the grid, at entry (r, u): the grid's output array
    after the run, at entry (0, r). -/
theorem tail_apply (c : Dev nD) (r : Fin 32768) (u : Fin 1) :
    (Pipeline.afterTail₀ cfgs (dats m) 0 (V0 m) [hostOps1] c main_v0 : S32768x1.Idx → Ideal .f32) (ix2 r u)
      = ((dats m 0 c).arrAt 9 cfg0.N : S1x32768.Idx → Ideal .f32) (ix2 (0 : Fin 1) r) := by
  unfold Pipeline.afterTail₀
  show StableHlo.after hostOps1 _ (Proc.devRef .tc main_v0) (ix2 r u) = _
  after_results
  have hW := Pipeline.withArrays_arr (τ := τ) spec0 launch0.win.arr_inj c (V0 m c) (fun w => (dats m 0 c).arrAt w cfg0.N) 9
  erw [hW]
  generalize (dats m 0 c).arrAt 9 cfg0.N = A
  exact row_to_column_apply A r u

end Cert.RefValue

end
-- ==== Proof.RefRun.lean ====
/-
  The reference program's run, read: the result array ends holding the perceptron of the specification applied to
  every row of the first argument, and the nine argument arrays end as they were launched.

  The result: the buffer the program returns is written by the two reshapes after the grid from the grid's output
  array; that array ends holding, at (0, r), the perceptron's output for input row r; the reshapes put that entry at
  (r, 0).  The arguments: no host operation writes an argument, and the grid only reads them.
-/
import proofs.«147910_g2000103882058017_pallasbulk_729_30_alg».proof.Proof.Spec
import proofs.«147910_g2000103882058017_pallasbulk_729_30_alg».proof.Proof.RefFinal
import proofs.«147910_g2000103882058017_pallasbulk_729_30_alg».proof.Proof.RefTail

noncomputable section

open Idealize.ShloMosaic Idealize.ShloMosaic.ValueIdx Idealize.ShloMosaic.TcCoe Idealize.SL.Sem

namespace Cert.RefValue

open Cert.ReferenceIdeal Cert.ReferenceIdeal.Gen

/-- The returned buffer after the run is the specification's result array of the launched arguments. -/
theorem result_eq (m : (ℓ : Loc nD τ sig) → Buf (Elt Ideal) ℓ) (c : Dev nD) :
    (Pipeline.afterTail₀ cfgs (dats m) 0 (V0 m) [hostOps1] c main_v0 : S32768x1.Idx → Ideal .f32)
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨r, u, rfl⟩ : ∃ (r : Fin 32768) (u : Fin 1), i = ix2 r u := ⟨i 0, i 1, eq_ix2 i⟩
  refine (tail_apply m c r u).trans ((congrFun (final_o m c) (ix2 (0 : Fin 1) r)).trans ?_)
  rfl

theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v0)
            = Cert.Spec.G (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
                (m ((c.tc : Thread Cert.ReferenceIdeal.nD Cert.ReferenceIdeal.τ).loc Cert.ReferenceIdeal.main_arg4))
                (m ((c.tc : Thread Cert.ReferenceIdeal.nD Cert.ReferenceIdeal.τ).loc Cert.ReferenceIdeal.main_arg5))
                (m ((c.tc : Thread Cert.ReferenceIdeal.nD Cert.ReferenceIdeal.τ).loc Cert.ReferenceIdeal.main_arg6))
                (m ((c.tc : Thread Cert.ReferenceIdeal.nD Cert.ReferenceIdeal.τ).loc Cert.ReferenceIdeal.main_arg7))
                (m ((c.tc : Thread Cert.ReferenceIdeal.nD Cert.ReferenceIdeal.τ).loc Cert.ReferenceIdeal.main_arg8))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c)⟩)
    (run_main m ρ)

end Cert.RefValue

end
-- ==== Proof.lean ====
/-
  The certificate of the fused four-layer perceptron kernel against its reference.

  The kernel reads 8192 rows of `x` per grid point through TWO windows (the left and the right 256 columns of one
  array), multiplies them into the two halves of the first weight matrix and adds the two partial products, then
  applies the remaining three layers and the logistic function, writing the 8192 outputs as a row; the reference
  is another tiling of the same computation (128 batch columns per point, activations laid out features × batch,
  `x` transposed by the host).  At the ideal values a change of float format is the identity, the two partial sums
  over 256 columns are the sum over 512, and the order of the factors of a product and of the terms of a sum is
  immaterial on the extended reals: both programs end with the result array at `Cert.Spec.G` of the argument
  arrays.  No precondition is used: these are laws of a commutative semiring, which hold at the infinities too.

  The three frames: the kernel's, at either float instance, is the run of its three stretches (host operations, the
  region, host operations) with the shared array dealt in halves to its two windows; the reference's is generated.
  The idealization rewrote nothing, so the kernel's sanctioned idealization is its own text.
-/
import proofs.«147910_g2000103882058017_pallasbulk_729_30_alg».proof.Defs
import proofs.«147910_g2000103882058017_pallasbulk_729_30_alg».proof.Proof.Gen.Kernel
import proofs.«147910_g2000103882058017_pallasbulk_729_30_alg».proof.Proof.Gen.KernelIdeal
import proofs.«147910_g2000103882058017_pallasbulk_729_30_alg».proof.Proof.Gen.ReferenceIdeal
import proofs.«147910_g2000103882058017_pallasbulk_729_30_alg».proof.Proof.Gen.ReferenceIdeal.Frame
import proofs.«147910_g2000103882058017_pallasbulk_729_30_alg».proof.Proof.Gen.Pre_finite_inputs
import proofs.«147910_g2000103882058017_pallasbulk_729_30_alg».proof.Proof.KernelRun
import proofs.«147910_g2000103882058017_pallasbulk_729_30_alg».proof.Proof.KernelIdealRun
import proofs.«147910_g2000103882058017_pallasbulk_729_30_alg».proof.Proof.KValResult
import proofs.«147910_g2000103882058017_pallasbulk_729_30_alg».proof.Proof.RefRun
import proofs.«147910_g2000103882058017_pallasbulk_729_30_alg».proof.Proof.Spec

noncomputable section

namespace Cert.Proof

open Idealize.ShloMosaic Idealize.ShloMosaic.TcCoe Idealize.SL.Sem

/-- The kernel as printed runs and keeps its arguments. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- And the reference. -/
theorem frame_ri : Cert.frame_ReferenceIdeal (hReferenceIdeal := Cert.ReferenceIdeal.Gen.facts) (hPre_finite_inputs := Cert.Pre_finite_inputs.Gen.facts) :=
  fun m ρ _ => Cert.ReferenceIdeal.Gen.frame (F := Ideal) m ρ

/-- The ideal pass rewrote no operation. -/
theorem preserves : Cert.preserves_Kernel_KernelIdeal := trivial

/-- At the ideal values both programs end with the result array at the perceptron of the argument arrays,
    row by row (`Cert.Spec.G`), the arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KVal.result_eq m c), (h c).2⟩)
      (Cert.KernelIdeal.Hand.run_result (F := Ideal) m ρ)
  · refine (θ_run Cert.ReferenceIdeal.defs _ _).mono (fun r h c => ⟨(h c).1.trans ?_, (h c).2⟩)
      (Cert.RefValue.run m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
